-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64 : Shape := ⟨1, ![64]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x3x256x256 .f32) (main_v13 : IVec S_ 1) (main_v16 : IVec S64x3x256x256 1) : IVec S_ 1 :=
  let main_c_5 : IVec S_ 1 := constantI S_ 1 1#1
  let main_v17 : IVec S_ 1 := (fun x v => Host.reduce IntOp.andi x v reducesTo_S64x3x256x256_S_d0_1_2_3 h_S_) main_v16 main_c_5
  let main_v18 : IVec S_ 1 := andi main_v13 main_v17
  let main_v19 : FVec F S64x3x256x256 .f32 := Host.absf main_arg4
  let main_cst_6 : FVec F S_ .f32 := constant S_ .f32 0x7F800000#32
  let main_v20 : FVec F S64x3x256x256 .f32 := broadcastInDim S64x3x256x256 ![] bcast_S_S64x3x256x256 main_cst_6
  let main_v21 : IVec S64x3x256x256 1 := cmpf .olt main_v19 main_v20
  let main_c_7 : IVec S_ 1 := constantI S_ 1 1#1
  let main_v22 : IVec S_ 1 := (fun x v => Host.reduce IntOp.andi x v reducesTo_S64x3x256x256_S_d0_1_2_3 h_S_) main_v21 main_c_7
  let main_v23 : IVec S_ 1 := andi main_v18 main_v22
  main_v23

def fn {F : FTy → Type} [FloatOps F] (main_arg0 : FVec F S64x3x256x256 .f32) (main_arg1 : FVec F S64x3x256x256 .f32) (main_arg2 : FVec F S64 .f32) (main_arg3 : FVec F S64x3x256x256 .f32) (main_arg4 : FVec F S64x3x256x256 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x3x256x256 .f32 := Host.absf main_arg1
  let main_cst_0 : FVec F S_ .f32 := constant S_ .f32 0x7F800000#32
  let main_v5 : FVec F S64x3x256x256 .f32 := broadcastInDim S64x3x256x256 ![] bcast_S_S64x3x256x256 main_cst_0
  let main_v6 : IVec S64x3x256x256 1 := cmpf .olt main_v4 main_v5
  let main_c_1 : IVec S_ 1 := constantI S_ 1 1#1
  let main_v7 : IVec S_ 1 := (fun x v => Host.reduce IntOp.andi x v reducesTo_S64x3x256x256_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3x256x256 .f32 := Host.absf main_arg3
  let main_cst_4 : FVec F S_ .f32 := constant S_ .f32 0x7F800000#32
  let main_v15 : FVec F S64x3x256x256 .f32 := broadcastInDim S64x3x256x256 ![] bcast_S_S64x3x256x256 main_cst_4
  let main_v16 : IVec S64x3x256x256 1 := cmpf .olt main_v14 main_v15
  fn_part1 (F := F) main_arg4 main_v13 main_v16
-- ==== Kernel.lean ====
abbrev S64x3x256x256 : Shape := ⟨4, ![64, 3, 256, 256]⟩
abbrev S64 : Shape := ⟨1, ![64]⟩
abbrev S64x196608 : Shape := ⟨2, ![64, 196608]⟩
abbrev S_ : Shape := ⟨0, ![]⟩
abbrev S64x1 : Shape := ⟨2, ![64, 1]⟩
abbrev S2x64x1 : Shape := ⟨3, ![2, 64, 1]⟩
abbrev S2x64x64 : Shape := ⟨3, ![2, 64, 64]⟩
abbrev S64x8192 : Shape := ⟨2, ![64, 8192]⟩
abbrev S1x64x1 : Shape := ⟨3, ![1, 64, 1]⟩
abbrev S1x64x64 : Shape := ⟨3, ![1, 64, 64]⟩
abbrev S64x64 : Shape := ⟨2, ![64, 64]⟩
abbrev S1x64 : Shape := ⟨2, ![1, 64]⟩
abbrev S2x1x1 : Shape := ⟨3, ![2, 1, 1]⟩
abbrev S1x1x1 : Shape := ⟨3, ![1, 1, 1]⟩
abbrev S1 : Shape := ⟨1, ![1]⟩
abbrev S1x1 : Shape := ⟨2, ![1, 1]⟩

abbrev nBuf : Space → Nat
  | .hbm => 67
  | .vmem => 27
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64, .f32⟩
  | .hbm, ⟨3, _⟩ => ⟨S64x3x256x256, .f32⟩
  | .hbm, ⟨4, _⟩ => ⟨S64x3x256x256, .f32⟩
  | .hbm, ⟨5, _⟩ => ⟨S64x196608, .f32⟩
  | .hbm, ⟨6, _⟩ => ⟨S64x196608, .f32⟩
  | .hbm, ⟨7, _⟩ => ⟨S64x196608, .f32⟩
  | .hbm, ⟨8, _⟩ => ⟨S64x196608, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S2x64x1, .f32⟩
  | .hbm, ⟨14, _⟩ => ⟨S2x64x1, .f32⟩
  | .hbm, ⟨15, _⟩ => ⟨S2x64x64, .f32⟩
  | .hbm, ⟨16, _⟩ => ⟨S_, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S_, .f32⟩
  | .hbm, ⟨21, _⟩ => ⟨S64x64, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S1x64, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x1, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64x1, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64, .f32⟩
  | .hbm, ⟨59, _⟩ => ⟨S64x1, .f32⟩
  | .hbm, ⟨60, _⟩ => ⟨S64x64, .f32⟩
  | .hbm, ⟨61, _⟩ => ⟨S64x64, .f32⟩
  | .hbm, ⟨62, _⟩ => ⟨S2x1x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x1, .f32⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x64, .f32⟩
  | .local _ .vmem, ⟨10, _⟩ => ⟨S1x64x64, .f32⟩
  | .local _ .vmem, ⟨11, _⟩ => ⟨S64x1, .f32⟩
  | .local _ .vmem, ⟨12, _⟩ => ⟨S64x1, .f32⟩
  | .local _ .vmem, ⟨13, _⟩ => ⟨S64x64, .f32⟩
  | .local _ .vmem, ⟨14, _⟩ => ⟨S64x8192, .f32⟩
  | .local _ .vmem, ⟨15, _⟩ => ⟨S64x8192, .f32⟩
  | .local _ .vmem, ⟨16, _⟩ => ⟨S64x8192, .f32⟩
  | .local _ .vmem, ⟨17, _⟩ => ⟨S64x8192, .f32⟩
  | .local _ .vmem, ⟨18, _⟩ => ⟨S64x8192, .f32⟩
  | .local _ .vmem, ⟨19, _⟩ => ⟨S64x8192, .f32⟩
  | .local _ .vmem, ⟨20, _⟩ => ⟨S64x8192, .f32⟩
  | .local _ .vmem, ⟨21, _⟩ => ⟨S64x8192, .f32⟩
  | .local _ .vmem, ⟨22, _⟩ => ⟨S64x1, .f32⟩
  | .local _ .vmem, ⟨23, _⟩ => ⟨S64x64, .f32⟩
  | .local _ .vmem, ⟨24, _⟩ => ⟨S1x1x1, .f32⟩
  | .local _ .vmem, ⟨25, _⟩ => ⟨S1x1x1, .f32⟩
  | .local _ .vmem, ⟨26, _⟩ => ⟨S64x1, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg1 : BitVec 32 := BitVec.ofNat 32 (i 1).val
  let c11_i32 : BitVec 32 := 11#32
  let v37 : BitVec 1 := Scalar.cmpi .eq arg1 c11_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 12], ![false, false]⟩

def k1_cond2 (i : grid1.Coords) : BitVec 1 :=
  let arg1 : BitVec 32 := BitVec.ofNat 32 (i 1).val
  let c11_i32 : BitVec 32 := 11#32
  let v50 : BitVec 1 := Scalar.cmpi .eq arg1 c11_i32
  let v51 : BitVec 32 := Scalar.extui v50
  let c0_i32_21 : BitVec 32 := 0#32
  let v52 : BitVec 1 := Scalar.cmpi .ne v51 c0_i32_21
  v52

def cc1_transform_0 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S64x3x256x256_S64x196608 : S64x3x256x256.ShapeCasts S64x196608
  bcast_S_S64 : S_.BroadcastsInDim S64 (![] : Fin 0 → Fin S64.rank)
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  broadcasts_S64x1_S64x8192 : S64x1.Broadcasts S64x8192
  reduces_S64x8192_S64 : S64x8192.Reduces [1] S64
  bitsLt_bf16_f32 : FTy.bits .bf16 < FTy.bits .f32
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S2x64x1_S64x1_d0 : S2x64x1.ReducesTo [0] S64x1
  h_S_ : 0 < S_.numel
  reducesTo_S2x64x64_S64x64_d0 : S2x64x64.ReducesTo [0] S64x64
  bcast_S_S64x1 : S_.BroadcastsInDim S64x1 (![] : Fin 0 → Fin S64x1.rank)
  shapeCasts_S64x1_S1x64 : S64x1.ShapeCasts S1x64
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S64_d1 : S64x64.ReducesTo [1] S64
  bcast_S64_S64x1_0 : S64.BroadcastsInDim S64x1 (![0] : Fin 1 → Fin S64x1.rank)
  reduces_S64x1_S1 : S64x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S64x8192_S64x8192_S64x64_1_1_0_0_n_n_wf : DotDims.WF S64x8192 S64x8192 S64x64 [1] [1] [0] [0] [] []
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x196608.size a
  hwx0_0 : ∀ i : grid0.Coords, EltTy.bits .f32 = 32 ∨ (Rect.block (s := S64x196608) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x196608.size a
  hwx0_1 : ∀ i : grid0.Coords, EltTy.bits .f32 = 32 ∨ (Rect.block (s := S64x196608) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S2x64x64.size a
  hwx0_5 : ∀ i : grid0.Coords, EltTy.bits .f32 = 32 ∨ (Rect.block (s := S2x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x196608.size a
  hwx1_0 : ∀ i : grid1.Coords, EltTy.bits .f32 = 32 ∨ (Rect.block (s := S64x196608) S64x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S64x196608.size a
  hwx1_1 : ∀ i : grid1.Coords, EltTy.bits .f32 = 32 ∨ (Rect.block (s := S64x196608) S64x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S64x196608.size a
  hwx1_2 : ∀ i : grid1.Coords, EltTy.bits .f32 = 32 ∨ (Rect.block (s := S64x196608) S64x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x8192.size a ≤ S64x196608.size a
  hwx1_3 : ∀ i : grid1.Coords, EltTy.bits .f32 = 32 ∨ (Rect.block (s := S64x196608) S64x8192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S64x3x256x256 : Shape := ⟨4, ![64, 3, 256, 256]⟩
abbrev S64 : Shape := ⟨1, ![64]⟩
abbrev S_ : Shape := ⟨0, ![]⟩
abbrev S64x1x1x1 : Shape := ⟨4, ![64, 1, 1, 1]⟩
abbrev S64x1 : Shape := ⟨2, ![64, 1]⟩
abbrev S64x196608 : Shape := ⟨2, ![64, 196608]⟩
abbrev S196608x64 : Shape := ⟨2, ![196608, 64]⟩
abbrev S64x64 : Shape := ⟨2, ![64, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64, .f32⟩
  | .hbm, ⟨3, _⟩ => ⟨S64x3x256x256, .f32⟩
  | .hbm, ⟨4, _⟩ => ⟨S64x3x256x256, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64x1x1x1, .f32⟩
  | .hbm, ⟨9, _⟩ => ⟨S64x1, .f32⟩
  | .hbm, ⟨10, _⟩ => ⟨S64x3x256x256, .f32⟩
  | .hbm, ⟨11, _⟩ => ⟨S64x3x256x256, .f32⟩
  | .hbm, ⟨12, _⟩ => ⟨S64x3x256x256, .f32⟩
  | .hbm, ⟨13, _⟩ => ⟨S64x3x256x256, .f32⟩
  | .hbm, ⟨14, _⟩ => ⟨S64x196608, .f32⟩
  | .hbm, ⟨15, _⟩ => ⟨S64x196608, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x196608, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x196608, .f32⟩
  | .hbm, ⟨28, _⟩ => ⟨S_, .f32⟩
  | .hbm, ⟨29, _⟩ => ⟨S64, .f32⟩
  | .hbm, ⟨30, _⟩ => ⟨S196608x64, .f32⟩
  | .hbm, ⟨31, _⟩ => ⟨S64x64, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x1, .f32⟩
  | .hbm, ⟨40, _⟩ => ⟨S1x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64x1, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S64x64, .f32⟩
  | .hbm, ⟨64, _⟩ => ⟨S64x64, .f32⟩
  | .hbm, ⟨65, _⟩ => ⟨S64x196608, .f32⟩
  | .hbm, ⟨66, _⟩ => ⟨S64x196608, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S64x196608, .f32⟩
  | .hbm, ⟨74, _⟩ => ⟨S64x196608, .f32⟩
  | .hbm, ⟨75, _⟩ => ⟨S64x3x256x256, .f32⟩
  | .hbm, ⟨76, _⟩ => ⟨S64x3x256x256, .f32⟩
  | .hbm, ⟨77, _⟩ => ⟨S64x3x256x256, .f32⟩
  | .hbm, ⟨78, _⟩ => ⟨S64x3x256x256, .f32⟩
  | .hbm, ⟨79, _⟩ => ⟨S64x3x256x256, .f32⟩
  | .hbm, ⟨80, _⟩ => ⟨S64x3x256x256, .f32⟩
  | .hbm, ⟨81, _⟩ => ⟨S64x3x256x256, .f32⟩
  | .hbm, ⟨82, _⟩ => ⟨S64x3x256x256, .f32⟩
  | .hbm, ⟨83, _⟩ => ⟨S_, .f32⟩
  | .hbm, ⟨84, _⟩ => ⟨S64x3x256x256, .f32⟩
  | .hbm, ⟨85, _⟩ => ⟨S64x3x256x256, .f32⟩
  | .hbm, ⟨86, _⟩ => ⟨S64x3x256x256, .f32⟩
  | .hbm, ⟨87, _⟩ => ⟨S_, .f32⟩
  | .hbm, ⟨88, _⟩ => ⟨S64x3x256x256, .f32⟩
  | .hbm, ⟨89, _⟩ => ⟨S64x3x256x256, .f32⟩
  | .hbm, ⟨90, _⟩ => ⟨S64x3x256x256, .f32⟩
  | .hbm, ⟨91, _⟩ => ⟨S_, .f32⟩
  | .hbm, ⟨92, _⟩ => ⟨S64x3x256x256, .f32⟩
  | .hbm, ⟨93, _⟩ => ⟨S64x3x256x256, .f32⟩
  | .hbm, ⟨94, _⟩ => ⟨S64x3x256x256, .f32⟩
  | .hbm, ⟨95, _⟩ => ⟨S64x3x256x256, .f32⟩
  | .hbm, ⟨96, _⟩ => ⟨S64x3x256x256, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1x1x1_0 : S64.BroadcastsInDim S64x1x1x1 (![0] : Fin 1 → Fin S64x1x1x1.rank)
  bcast_S64_S64x1_0 : S64.BroadcastsInDim S64x1 (![0] : Fin 1 → Fin S64x1.rank)
  bcast_S64x1x1x1_S64x3x256x256_0_1_2_3 : S64x1x1x1.BroadcastsInDim S64x3x256x256 (![0, 1, 2, 3] : Fin 4 → Fin S64x3x256x256.rank)
  shapeCasts_S64x3x256x256_S64x196608 : S64x3x256x256.ShapeCasts S64x196608
  bcast_S_S64x1 : S_.BroadcastsInDim S64x1 (![] : Fin 0 → Fin S64x1.rank)
  reducesTo_S64x196608_S64_d1 : S64x196608.ReducesTo [1] S64
  h_S_ : 0 < S_.numel
  transposes_S64x196608_S196608x64_1_0 : S64x196608.Transposes [1, 0] S196608x64
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  bcast_S64x1_S64x196608_0_1 : S64x1.BroadcastsInDim S64x196608 (![0, 1] : Fin 2 → Fin S64x196608.rank)
  shapeCasts_S64x196608_S64x3x256x256 : S64x196608.ShapeCasts S64x3x256x256
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  dot_S64x196608_S196608x64_S64x64_1_0_0_1_n_n_wf : DotDims.WF S64x196608 S196608x64 S64x64 [1] [0] [0] [1] [] []
  dot_S64x64_S64x196608_S64x196608_1_0_0_1_n_n_wf : DotDims.WF S64x64 S64x196608 S64x196608 [1] [0] [0] [1] [] []

variable [Facts₀]

def dot_S64x196608_S196608x64_S64x64_1_0_0_1_n_n : DotDims S64x196608 S196608x64 S64x64 where
  lhsContracting := [1]
  rhsContracting := [0]
  lhsNonContracting := [0]
  rhsNonContracting := [1]
  lhsBatch := []
  rhsBatch := []
  wf := dot_S64x196608_S196608x64_S64x64_1_0_0_1_n_n_wf
def dot_S64x64_S64x196608_S64x196608_1_0_0_1_n_n : DotDims S64x64 S64x196608 S64x196608 where
  lhsContracting := [1]
  rhsContracting := [0]
  lhsNonContracting := [0]
  rhsNonContracting := [1]
  lhsBatch := []
  rhsBatch := []
  wf := dot_S64x64_S64x196608_S64x196608_1_0_0_1_n_n_wf

class Facts : Prop extends Facts₀ where

variable [Facts]
-- ==== Proof.LossTileMid.lean ====
/-
  The loss kernel's body on one tile of 8192 columns, away from both ends of a row of twelve tiles.

  A tile's body reads the four 64 x 8192 input blocks, the column of times and the 64 x 64 weights, forms for
  every entry the loss term  1/2 ((mean - (data - noise))^2 + (u^2 - (data - noise)^2)) + 1/2 logvar e^logvar,
  u the mixed data less the noised data over 1 - t + eps, sums each row's 8192 terms, and adds the 64 row
  sums to the running column of row sums it keeps between tiles.  Away from the first tile the running column
  is not reset, and away from the last it is not folded into the tile row's one result: so the inputs and the
  result's buffer come back as they were, and the running column comes back with one whole store over it.
-/
import proofs.«124021_j68367289418164_2_alg».proof.Proof.Gen.KernelIdeal.Launch
import proofs.«124021_j68367289418164_2_alg».proof.Proof.Gen.KernelIdeal.Skeleton
import proofs.«124021_j68367289418164_2_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.LossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of its row of twelve: the second grid coordinate is 0. -/
abbrev atFirst (i : grid1.Coords) : Prop :=
  (Scalar.cmpi .ne (Scalar.extui (Scalar.cmpi .eq (BitVec.ofNat 32 (i 1).val) 0#32)) 0#32) = 1#1
/-- The tile is the last of its row of twelve: the second grid coordinate is 11. -/
abbrev atLast (i : grid1.Coords) : Prop := k1_cond2 i = 1#1

/-- Of the 24 tiles, the first of a row are those numbered 0 and 12, -/
theorem atFirst_iff : ∀ t : Fin cfg1.N, atFirst (grid1.coords t) ↔ t.val % 12 = 0 :=
  (by decide +kernel : ∀ t : Fin grid1.N, atFirst (grid1.coords t) ↔ t.val % 12 = 0)
/-- and the last those numbered 11 and 23. -/
theorem atLast_iff : ∀ t : Fin cfg1.N, atLast (grid1.coords t) ↔ t.val % 12 = 11 :=
  (by decide +kernel : ∀ t : Fin grid1.N, atLast (grid1.coords t) ↔ t.val % 12 = 11)

set_option maxHeartbeats 4000000 in
/-- A middle tile: from the six input blocks at `x0 … x5`, the result's buffer at `xo` and the running column of
    row sums at `xs`, the body runs to the end with the inputs and the result's buffer as they were and the
    running column overwritten whole; what it is overwritten with is the list of pieces the run ends with. -/
noncomputable def midTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : ¬atFirst i) (hc1 : ¬atLast i)
    (x0 x1 x2 x3 : Vec F S64x8192 .f32) (x4 : Vec F S64x1 .f32) (x5 : Vec F S64x64 .f32) (xs : Vec F S64x1 .f32) :
    { LS : List (View.Piece (Elt F) S64x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, fun xo E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfo; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; isplitr; · ipureintro; exact harg8.read_unread _
      iexact Ho
    iexists _; iexact HS

end Cert.KernelIdeal.LossTile

end
-- ==== Proof.LossTileFirst.lean ====
/-
  The loss kernel's body on the first tile of a row of twelve: the running column of row sums is set to zero
  before the tile's row sums are added to it, so whatever it held before does not matter.
-/
import proofs.«124021_j68367289418164_2_alg».proof.Proof.LossTileMid

set_option maxRecDepth 16384

noncomputable section

namespace Cert.KernelIdeal.LossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row: from the six input blocks at `x0 … x5`, the result's buffer at `xo` and the running
    column at anything, the body runs to the end with the inputs and the result's buffer as they were and the
    running column overwritten whole (first by zeros, then by zeros plus the tile's row sums): the pieces the
    run ends with say by what. -/
noncomputable def firstTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : atFirst i) (hc1 : ¬atLast i)
    (x0 x1 x2 x3 : Vec F S64x8192 .f32) (x4 : Vec F S64x1 .f32) (x5 : Vec F S64x64 .f32) :
    { LS : List (View.Piece (Elt F) S64x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, fun xo E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; isplitr; · ipureintro; exact harg8.read_unread _
      iexact Ho
    iexists _; iexact HS

end Cert.KernelIdeal.LossTile

end
-- ==== Proof.LossTileLast.lean ====
/-
  The loss kernel's body on the last tile of a row of twelve: after the tile's row sums are added to the running
  column, the column's 64 entries are summed to the one number the row of tiles contributes, and that number is
  stored over the result's one-entry buffer (which is read first, and whose old contents do not matter).
-/
import proofs.«124021_j68367289418164_2_alg».proof.Proof.LossTileMid

set_option maxRecDepth 16384

noncomputable section

namespace Cert.KernelIdeal.LossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row: from the six input blocks at `x0 … x5`, the result's buffer at anything and the running
    column at `xs`, the body runs to the end with the inputs as they were, the running column overwritten whole
    and the result's buffer overwritten whole: the two lists of pieces the run ends with say by what. -/
noncomputable def lastTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : ¬atFirst i) (hc1 : atLast i)
    (x0 x1 x2 x3 : Vec F S64x8192 .f32) (x4 : Vec F S64x1 .f32) (x5 : Vec F S64x64 .f32) (xs : Vec F S64x1 .f32) :
    Σ' (LO : List (View.Piece (Elt F) S1x1x1 .f32)), { LS : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, ?_, fun E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; iexact Ho
    iexists _; iexact HS

end Cert.KernelIdeal.LossTile

end
-- ==== Proof.LossRegion.lean ====
/-
  The loss kernel over its 24 tiles (two rows of twelve), tile after tile.

  Between tiles the kernel keeps one column of 64 running row sums.  The first tile of a row starts it from zero,
  every tile adds its own 64 row sums to it, and the last tile of a row sums the column's 64 entries into the one
  number that row of tiles contributes, which is the only time the result's buffer is written.  This module says
  what the running column and the result's buffer hold after each tile, by recursion on the tile's number, states
  the invariant that carries the column from one tile to the next, and shows that the body, started from the
  invariant before a tile with every input block in place, ends in the invariant after it.
-/
import proofs.«124021_j68367289418164_2_alg».proof.Proof.LossTileFirst
import proofs.«124021_j68367289418164_2_alg».proof.Proof.LossTileLast

set_option maxRecDepth 16384

noncomputable section

namespace Cert.KernelIdeal.LossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers a tile's body is run on -/

abbrev sm_0 (t : Fin cfg1.N) : Memref sig .tc .vmem S64x8192 .f32 := win1_0.stage (cfg1.slots t 0)
abbrev sh_0 (t : Fin cfg1.N) : (sm_0 t).IsWhole := hstage1_0 ((cfg1.slots t 0).cast nbuf1_0)
abbrev sm_1 (t : Fin cfg1.N) : Memref sig .tc .vmem S64x8192 .f32 := win1_1.stage (cfg1.slots t 1)
abbrev sh_1 (t : Fin cfg1.N) : (sm_1 t).IsWhole := hstage1_1 ((cfg1.slots t 1).cast nbuf1_1)
abbrev sm_2 (t : Fin cfg1.N) : Memref sig .tc .vmem S64x8192 .f32 := win1_2.stage (cfg1.slots t 2)
abbrev sh_2 (t : Fin cfg1.N) : (sm_2 t).IsWhole := hstage1_2 ((cfg1.slots t 2).cast nbuf1_2)
abbrev sm_3 (t : Fin cfg1.N) : Memref sig .tc .vmem S64x8192 .f32 := win1_3.stage (cfg1.slots t 3)
abbrev sh_3 (t : Fin cfg1.N) : (sm_3 t).IsWhole := hstage1_3 ((cfg1.slots t 3).cast nbuf1_3)
abbrev sm_4 (t : Fin cfg1.N) : Memref sig .tc .vmem S64x1 .f32 := win1_4.stage (cfg1.slots t 4)
abbrev sh_4 (t : Fin cfg1.N) : (sm_4 t).IsWhole := hstage1_4 ((cfg1.slots t 4).cast nbuf1_4)
abbrev sm_5 (t : Fin cfg1.N) : Memref sig .tc .vmem S64x64 .f32 := win1_5.stage (cfg1.slots t 5)
abbrev sh_5 (t : Fin cfg1.N) : (sm_5 t).IsWhole := hstage1_5 ((cfg1.slots t 5).cast nbuf1_5)
abbrev sm_6 (t : Fin cfg1.N) : Memref sig .tc .vmem S1x1x1 .f32 := win1_6.stage (cfg1.slots t 6)
abbrev sh_6 (t : Fin cfg1.N) : (sm_6 t).IsWhole := hstage1_6 ((cfg1.slots t 6).cast nbuf1_6)
/-- The running column of row sums: a whole buffer of the kernel's own. -/
abbrev colMem : Memref sig .tc .vmem S64x1 .f32 := Memref.whole cc1_scratch0
abbrev colView : View sig .tc .vmem S64x1 .f32 := colMem.view
/-- One of the result's two one-entry buffers, through which its contents are stated (either would do). -/
abbrev outView : View sig .tc .vmem S1x1x1 .f32 := (Memref.whole cc1_stg6_0 : Memref sig .tc .vmem S1x1x1 .f32).view

/-- The last tile of a row is the only one at which the result's window is live, and the only one written back. -/
theorem live_last : ∀ t : Fin cfg1.N, atLast (grid1.coords t) → cfg1.idle 6 (grid1.coords t) = false := by decide +kernel
theorem idle_notLast : ∀ t : Fin cfg1.N, ¬atLast (grid1.coords t) → cfg1.idle 6 (grid1.coords t) = true := by decide +kernel
theorem noFlush_notLast : ∀ t : Fin cfg1.N, ¬atLast (grid1.coords t) → (cfg1.win 6).flush t = false := by decide +kernel
/-- The six inputs are live at every tile. -/
theorem live_in : ∀ (w : Fin 6) (t : Fin cfg1.N), cfg1.idle (w.castSucc) (grid1.coords t) = false := by decide +kernel

/-! ## What each kind of tile leaves -/

/-- The pieces a first tile ends with cover the running column, -/
theorem firstTile_cover (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : atFirst i) (hc1 : ¬atLast i) (x0 x1 x2 x3 : Vec F S64x8192 .f32) (x4 : Vec F S64x1 .f32) (x5 : Vec F S64x64 .f32) (y : S64x1.Idx) :
    ∃ pc ∈ (firstTile c i arg2 harg2 arg3 harg3 arg4 harg4 arg5 harg5 arg6 harg6 arg7 harg7 arg8 harg8 arg9 harg9 hc0 hc1 x0 x1 x2 x3 x4 x5).1, y ∈ pc.1.set :=
  View.cover_of_tiledL (firstTile c i arg2 harg2 arg3 harg3 arg4 harg4 arg5 harg5 arg6 harg6 arg7 harg7 arg8 harg8 arg9 harg9 hc0 hc1 x0 x1 x2 x3 x4 x5).1 S64x1.size (by sl_kernel_rfl) y
/-- so do a middle tile's, -/
theorem midTile_cover (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : ¬atLast i) (x0 x1 x2 x3 : Vec F S64x8192 .f32) (x4 : Vec F S64x1 .f32) (x5 : Vec F S64x64 .f32) (xs : Vec F S64x1 .f32) (y : S64x1.Idx) :
    ∃ pc ∈ (midTile c i arg2 harg2 arg3 harg3 arg4 harg4 arg5 harg5 arg6 harg6 arg7 harg7 arg8 harg8 arg9 harg9 hc0 hc1 x0 x1 x2 x3 x4 x5 xs).1, y ∈ pc.1.set :=
  View.cover_of_tiledL (midTile c i arg2 harg2 arg3 harg3 arg4 harg4 arg5 harg5 arg6 harg6 arg7 harg7 arg8 harg8 arg9 harg9 hc0 hc1 x0 x1 x2 x3 x4 x5 xs).1 S64x1.size (by sl_kernel_rfl) y
/-- and a last tile's; -/
theorem lastTile_cover_col (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) (y : S64x1.Idx) :
    ∃ pc ∈ (lastTile c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (lastTile c i arg2 harg2 arg3 harg3 arg4 harg4 arg5 harg5 arg6 harg6 arg7 harg7 arg8 harg8 arg9 harg9 hc0 hc1 x0 x1 x2 x3 x4 x5 xs).2.1 S64x1.size (by sl_kernel_rfl) y
/-- a last tile's pieces for the result's buffer cover its one entry. -/
theorem lastTile_cover_out (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) (y : S1x1x1.Idx) :
    ∃ pc ∈ (lastTile c i arg2 harg2 arg3 harg3 arg4 harg4 arg5 harg5 arg6 harg6 arg7 harg7 arg8 harg8 arg9 harg9 hc0 hc1 x0 x1 x2 x3 x4 x5 xs).1, y ∈ pc.1.set :=
  View.cover_of_tiledL (lastTile c i arg2 harg2 arg3 harg3 arg4 harg4 arg5 harg5 arg6 harg6 arg7 harg7 arg8 harg8 arg9 harg9 hc0 hc1 x0 x1 x2 x3 x4 x5 xs).1 S1x1x1.size (by sl_kernel_rfl) y

/-- The running column after a first tile: its pieces read back. -/
def colAfterFirst (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : atFirst i) (hc1 : ¬atLast i) (x0 x1 x2 x3 : Vec F S64x8192 .f32) (x4 : Vec F S64x1 .f32) (x5 : Vec F S64x64 .f32) : Vec F S64x1 .f32 :=
  colView.read (Elt F) (colView.writes (Elt F) colView.junk (firstTile c i arg2 harg2 arg3 harg3 arg4 harg4 arg5 harg5 arg6 harg6 arg7 harg7 arg8 harg8 arg9 harg9 hc0 hc1 x0 x1 x2 x3 x4 x5).1)
/-- After a middle tile, from what the tile before left in it. -/
def colAfterMid (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : ¬atLast i) (x0 x1 x2 x3 : Vec F S64x8192 .f32) (x4 : Vec F S64x1 .f32) (x5 : Vec F S64x64 .f32) (xs : Vec F S64x1 .f32) : Vec F S64x1 .f32 :=
  colView.read (Elt F) (colView.writes (Elt F) colView.junk (midTile c i arg2 harg2 arg3 harg3 arg4 harg4 arg5 harg5 arg6 harg6 arg7 harg7 arg8 harg8 arg9 harg9 hc0 hc1 x0 x1 x2 x3 x4 x5 xs).1)
/-- After a last tile. -/
def colAfterLast (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) : Vec F S64x1 .f32 :=
  colView.read (Elt F) (colView.writes (Elt F) colView.junk (lastTile c i arg2 harg2 arg3 harg3 arg4 harg4 arg5 harg5 arg6 harg6 arg7 harg7 arg8 harg8 arg9 harg9 hc0 hc1 x0 x1 x2 x3 x4 x5 xs).2.1)
/-- The result's one entry after a last tile. -/
def outAfterLast (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) : Vec F S1x1x1 .f32 :=
  outView.read (Elt F) (outView.writes (Elt F) outView.junk (lastTile c i arg2 harg2 arg3 harg3 arg4 harg4 arg5 harg5 arg6 harg6 arg7 harg7 arg8 harg8 arg9 harg9 hc0 hc1 x0 x1 x2 x3 x4 x5 xs).1)
/-- Away from a last tile the result's buffer is not written, not written back and not read at the next tile:
    nothing consults what is said of it there. -/
def outUnwritten : Vec F S1x1x1 .f32 := outView.read (Elt F) outView.junk

-- the entry contents of the region's arrays: the parameter the region is stated at
variable (V : (c : Dev nD) → (b : Ref sig .tc) → Buf (Elt F) ((c : Thread nD τ).loc b))

/-- Window `w`'s block at tile `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Tile after tile -/

/-- What the result's buffer and the running column hold after tile `n`: a first tile's column from nothing, a
    middle or last tile's from the column the tile before left. No tile is both first and last of its row. -/
def accAt (c : Dev nD) : (n : ℕ) → n < cfg1.N → Vec F S1x1x1 .f32 × Vec F S64x1 .f32
  | 0, hn => (outUnwritten, colAfterFirst c (grid1.coords ⟨0, hn⟩) (sm_0 ⟨0, hn⟩) (sh_0 ⟨0, hn⟩) (sm_1 ⟨0, hn⟩) (sh_1 ⟨0, hn⟩) (sm_2 ⟨0, hn⟩) (sh_2 ⟨0, hn⟩) (sm_3 ⟨0, hn⟩) (sh_3 ⟨0, hn⟩) (sm_4 ⟨0, hn⟩) (sh_4 ⟨0, hn⟩) (sm_5 ⟨0, hn⟩) (sh_5 ⟨0, hn⟩) (sm_6 ⟨0, hn⟩) (sh_6 ⟨0, hn⟩) colMem (Memref.isWhole_whole _) ((atFirst_iff ⟨0, hn⟩).mpr (Nat.zero_mod _)) (fun h => (fun h => by (try dsimp only at h); omega) ((atLast_iff ⟨0, hn⟩).mp h)) (blk V c 0 ⟨0, hn⟩) (blk V c 1 ⟨0, hn⟩) (blk V c 2 ⟨0, hn⟩) (blk V c 3 ⟨0, hn⟩) (blk V c 4 ⟨0, hn⟩) (blk V c 5 ⟨0, hn⟩))
  | n + 1, hn =>
    if h0 : (n + 1) % 12 = 0 then
      if h1 : (n + 1) % 12 = 11 then False.elim (by omega)
      else (outUnwritten, colAfterFirst c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) ((atFirst_iff ⟨n + 1, hn⟩).mpr h0) (fun h => h1 ((atLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩))
    else
      if h1 : (n + 1) % 12 = 11 then
        (outAfterLast c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2,
         colAfterLast c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2)
      else
        (outUnwritten, colAfterMid c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) (fun h => h1 ((atLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2)

/-- `accAt` at a first tile. -/
theorem accAt_first (c : Dev nD) (t : Fin cfg1.N) (h0 : t.val % 12 = 0) (h1 : ¬t.val % 12 = 11) :
    accAt V c t.val t.isLt = (outUnwritten, colAfterFirst c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) ((atFirst_iff t).mpr h0) (fun h => h1 ((atLast_iff t).mp h)) (blk V c 0 t) (blk V c 1 t) (blk V c 2 t) (blk V c 3 t) (blk V c 4 t) (blk V c 5 t)) := by
  obtain ⟨n, hn⟩ := t
  cases n with
  | zero => exact rfl
  | succ n => exact (dif_pos h0).trans ((dif_neg h1).trans rfl)

/-- `accAt` at a middle tile, over what the tile before left. -/
theorem accAt_mid (c : Dev nD) (t : Fin cfg1.N) (h0 : ¬t.val % 12 = 0) (h1 : ¬t.val % 12 = 11) :
    accAt V c t.val t.isLt = (outUnwritten, colAfterMid c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) (fun h => h1 ((atLast_iff t).mp h)) (blk V c 0 t) (blk V c 1 t) (blk V c 2 t) (blk V c 3 t) (blk V c 4 t) (blk V c 5 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a last tile, over what the tile before left. -/
theorem accAt_last (c : Dev nD) (t : Fin cfg1.N) (h0 : ¬t.val % 12 = 0) (h1 : t.val % 12 = 11) :
    accAt V c t.val t.isLt = (outAfterLast c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) ((atLast_iff t).mpr h1) (blk V c 0 t) (blk V c 1 t) (blk V c 2 t) (blk V c 3 t) (blk V c 4 t) (blk V c 5 t) (accAt V c (t.val - 1) (Nat.lt_of_le_of_lt (Nat.sub_le _ _) t.isLt)).2,
      colAfterLast c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) ((atLast_iff t).mpr h1) (blk V c 0 t) (blk V c 1 t) (blk V c 2 t) (blk V c 3 t) (blk V c 4 t) (blk V c 5 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between tiles -/

/-- Before the first tile: every scoped buffer no window of this region stages (the other region's buffers and
    this region's running column) at anything, and the generator register at some state. After tile `n`: the same,
    with the running column at what tile `n` left in it. -/
def carried (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c n hn).2)) ∗ (∃ r, prngReg c r))

theorem atEntry_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) colMem fullShare d)) ∗ (∃ r, prngReg c r)) := by
  unfold Pipeline.ΦA; rw [scopedRest1_eq]; simp only [colMem, owns_whole]; try rfl

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c n hn).2)) ∗ (∃ r, prngReg c r)) := rfl
theorem carried_pos (c : Dev nD) (n : ℕ) (h : n ≤ cfg1.N) (hz : n ≠ 0) :
    carried V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c (n - 1) (by omega)).2)) ∗ (∃ r, prngReg c r)) := by
  cases n with
  | zero => exact absurd rfl hz
  | succ n => rfl

/-! ## The proof data -/

/-- On core `c`: the arrays as the region finds them; after a tile each input's buffer at its block and the
    result's at `accAt`; the invariant `carried`; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (accAt V c t.val t.isLt).1
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem carried_castSucc (c : Dev nD) (t : Fin cfg1.N) :
    (dat1 V c).Φ t.castSucc = carried V c t.val (Nat.le_of_lt t.isLt) := by
  dsimp only [dat1]; simp only [Fin.coe_castSucc]
theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) : (dat1 V c).after 4 t = blk V c 4 t := by dsimp only [dat1]
theorem after1_5 (c : Dev nD) (t : Fin cfg1.N) : (dat1 V c).after 5 t = blk V c 5 t := by dsimp only [dat1]
theorem after1_6 (c : Dev nD) (t : Fin cfg1.N) : (dat1 V c).after 6 t = (accAt V c t.val t.isLt).1 := by dsimp only [dat1]

/-- Each input's current buffer holds its block at every tile, fetched there or not: where it is not fetched its
    block index has not moved. -/
theorem before1_0 (c : Dev nD) (t : Fin cfg1.N) (d) : (dat1 V c).before 0 t d = blk V c 0 t :=
  ((dat1 V c).before_in_eq_fetched 0 rfl (fun _ => rfl) (fun _ _ _ => rfl) (fun t => by rw [after1_0]; unfold Dat.blockOf blk; rw [A_eq1]; try rfl) t d).trans
    (by unfold Dat.fetched Dat.blockOf blk; rw [A_eq1]; try rfl)
theorem before1_1 (c : Dev nD) (t : Fin cfg1.N) (d) : (dat1 V c).before 1 t d = blk V c 1 t :=
  ((dat1 V c).before_in_eq_fetched 1 rfl (fun _ => rfl) (fun _ _ _ => rfl) (fun t => by rw [after1_1]; unfold Dat.blockOf blk; rw [A_eq1]; try rfl) t d).trans
    (by unfold Dat.fetched Dat.blockOf blk; rw [A_eq1]; try rfl)
theorem before1_2 (c : Dev nD) (t : Fin cfg1.N) (d) : (dat1 V c).before 2 t d = blk V c 2 t :=
  ((dat1 V c).before_in_eq_fetched 2 rfl (fun _ => rfl) (fun _ _ _ => rfl) (fun t => by rw [after1_2]; unfold Dat.blockOf blk; rw [A_eq1]; try rfl) t d).trans
    (by unfold Dat.fetched Dat.blockOf blk; rw [A_eq1]; try rfl)
theorem before1_3 (c : Dev nD) (t : Fin cfg1.N) (d) : (dat1 V c).before 3 t d = blk V c 3 t :=
  ((dat1 V c).before_in_eq_fetched 3 rfl (fun _ => rfl) (fun _ _ _ => rfl) (fun t => by rw [after1_3]; unfold Dat.blockOf blk; rw [A_eq1]; try rfl) t d).trans
    (by unfold Dat.fetched Dat.blockOf blk; rw [A_eq1]; try rfl)
theorem before1_4 (c : Dev nD) (t : Fin cfg1.N) (d) : (dat1 V c).before 4 t d = blk V c 4 t :=
  ((dat1 V c).before_in_eq_fetched 4 rfl (fun _ => rfl) (fun _ _ _ => rfl) (fun t => by rw [after1_4]; unfold Dat.blockOf blk; rw [A_eq1]; try rfl) t d).trans
    (by unfold Dat.fetched Dat.blockOf blk; rw [A_eq1]; try rfl)
theorem before1_5 (c : Dev nD) (t : Fin cfg1.N) (d) : (dat1 V c).before 5 t d = blk V c 5 t :=
  ((dat1 V c).before_in_eq_fetched 5 rfl (fun _ => rfl) (fun _ _ _ => rfl) (fun t => by rw [after1_5]; unfold Dat.blockOf blk; rw [A_eq1]; try rfl) t d).trans
    (by unfold Dat.fetched Dat.blockOf blk; rw [A_eq1]; try rfl)

end Cert.KernelIdeal.LossTile

end
-- ==== Proof.LossBody.lean ====
/-
  One tile of the loss kernel, started from the invariant before it with every input block in its buffer, ends in
  the invariant after it: by cases on whether the tile is the first, the last, or neither of its row of twelve.
-/
import proofs.«124021_j68367289418164_2_alg».proof.Proof.LossRegion

set_option maxRecDepth 16384

noncomputable section

namespace Cert.KernelIdeal.LossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each of the six input windows is live at every tile. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-- What a tile's body is started from, the windows one by one, -/
def tilePre (c : Dev nD) (t : Fin cfg1.N) : sProp 𝕄 :=
  iprop((dat1 V c).Φ t.castSucc ∗ (dat1 V c).owesAt () t.castSucc
    ∗ (∃ d, owns (c : Thread nD τ) (sm_0 t) fullShare ((dat1 V c).before 0 t d))
    ∗ (∃ d, owns (c : Thread nD τ) (sm_1 t) fullShare ((dat1 V c).before 1 t d))
    ∗ (∃ d, owns (c : Thread nD τ) (sm_2 t) fullShare ((dat1 V c).before 2 t d))
    ∗ (∃ d, owns (c : Thread nD τ) (sm_3 t) fullShare ((dat1 V c).before 3 t d))
    ∗ (∃ d, owns (c : Thread nD τ) (sm_4 t) fullShare ((dat1 V c).before 4 t d))
    ∗ (∃ d, owns (c : Thread nD τ) (sm_5 t) fullShare ((dat1 V c).before 5 t d))
    ∗ (∃ d, owns (c : Thread nD τ) (sm_6 t) fullShare ((dat1 V c).before 6 t d)))

/-- and what it ends in. -/
def tilePost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any tile. The inputs' buffers hold their blocks; the tile's number says which kind of tile it is;
    the invariant hands the body the running column at what the tile before left (at anything before the very
    first tile), and takes it back at what this tile leaves; the result's buffer is handed back as found except at
    a last tile, where it is overwritten; the core owes nothing throughout. -/
theorem tile_sound (c : Dev nD) (t : Fin cfg1.N) :
    tilePre V c t ⊢ wp frame (wpE (defs₀ (F := F)) Variants.none c none) Set.univ (bodyAt1 t) (fun _ => tilePost V c t) := by
  unfold tilePre tilePost bodyAt1
  simp only [before1_0, before1_1, before1_2, before1_3, before1_4, before1_5]
  rw [show (dat1 V c).owesAt () t.succ = (dat1 V c).owesAt () t.castSucc from rfl]
  rw [show (dat1 V c).Φ t.succ = carried V c (t.val + 1) t.isLt from rfl, carried_succ]
  have hN : t.val < 24 := lt_of_lt_of_eq t.isLt (show cfg1.N = 24 from N_1)
  rw [show (dat1 V c).leavesExact 0 t = owns (c : Thread nD τ) (sm_0 t) fullShare ((dat1 V c).after 0 t) from by
    unfold Dat.leavesExact; rw [live1_0 t], after1_0]
  rw [show (dat1 V c).leavesExact 1 t = owns (c : Thread nD τ) (sm_1 t) fullShare ((dat1 V c).after 1 t) from by
    unfold Dat.leavesExact; rw [live1_1 t], after1_1]
  rw [show (dat1 V c).leavesExact 2 t = owns (c : Thread nD τ) (sm_2 t) fullShare ((dat1 V c).after 2 t) from by
    unfold Dat.leavesExact; rw [live1_2 t], after1_2]
  rw [show (dat1 V c).leavesExact 3 t = owns (c : Thread nD τ) (sm_3 t) fullShare ((dat1 V c).after 3 t) from by
    unfold Dat.leavesExact; rw [live1_3 t], after1_3]
  rw [show (dat1 V c).leavesExact 4 t = owns (c : Thread nD τ) (sm_4 t) fullShare ((dat1 V c).after 4 t) from by
    unfold Dat.leavesExact; rw [live1_4 t], after1_4]
  rw [show (dat1 V c).leavesExact 5 t = owns (c : Thread nD τ) (sm_5 t) fullShare ((dat1 V c).after 5 t) from by
    unfold Dat.leavesExact; rw [live1_5 t], after1_5]
  by_cases h0 : t.val % 12 = 0
  · have h1 : ¬t.val % 12 = 11 := by omega
    rw [Dat.leavesExact_idle (dat1 V c) 6 t (idle_notLast t (fun h => h1 ((atLast_iff t).mp h))) (noFlush_notLast t (fun h => h1 ((atLast_iff t).mp h)))]
    rw [accAt_first V c t h0 h1]
    unfold colAfterFirst; (try dsimp only)
    by_cases hz : t.val = 0
    · rw [carried_castSucc V c t, carried_zero V c _ _ hz, atEntry_eq]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstTile c (grid1.coords t) _ _ _ _ _ _ _ _ _ _ _ _ _ _ _ _ ((atFirst_iff t).mpr h0) (fun h => h1 ((atLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (firstTile_cover c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstTile c (grid1.coords t) _ _ _ _ _ _ _ _ _ _ _ _ _ _ _ _ ((atFirst_iff t).mpr h0) (fun h => h1 ((atLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (firstTile_cover c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 12 = 11
    · rw [show (dat1 V c).leavesExact 6 t = owns (c : Thread nD τ) (sm_6 t) fullShare ((dat1 V c).after 6 t) from by
        unfold Dat.leavesExact; rw [live_last t ((atLast_iff t).mpr h1)], after1_6]
      rw [accAt_last V c t h0 h1]
      unfold outAfterLast colAfterLast; (try dsimp only)
      rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((lastTile c (grid1.coords t) _ _ _ _ _ _ _ _ _ _ _ _ _ _ _ _ (fun h => h0 ((atFirst_iff t).mp h)) ((atLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (lastTile_cover_col c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lastTile_cover_out c _ _ _ _ _ _ _ _ _ _ _ _ _ _ _ _ _ _ _ _ _ _ _ _ _ _)
    · rw [Dat.leavesExact_idle (dat1 V c) 6 t (idle_notLast t (fun h => h1 ((atLast_iff t).mp h))) (noFlush_notLast t (fun h => h1 ((atLast_iff t).mp h)))]
      rw [accAt_mid V c t h0 h1]
      unfold colAfterMid; (try dsimp only)
      rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((midTile c (grid1.coords t) _ _ _ _ _ _ _ _ _ _ _ _ _ _ _ _ (fun h => h0 ((atFirst_iff t).mp h)) (fun h => h1 ((atLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (midTile_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of region 1 at every tile. -/
theorem body_obligation1 (c : Dev nD) : BodyObligation (dat1 (F := F) V c) (defs₀ (F := F)) Variants.none () Set.univ := fun t => by
  rw [bigSep_W1, bigSep_W1]
  exact tile_sound V c t

/-- What the launch hands the region is the invariant before the first tile. -/
theorem enter1 (c : Dev nD) : Pipeline.ΦA spec1 c ⊢ (dat1 V c).Φ 0 := by
  rw [show (dat1 V c).Φ 0 = carried V c 0 (Nat.zero_le _) from rfl, carried_zero V c 0 _ rfl]
  try exact Idealize.SL.BI.Entails.refl _

/-- After the last tile the invariant gives back what the launch handed in: what the running column holds is
    forgotten. -/
theorem leave1 (c : Dev nD) : (dat1 V c).Φ (Fin.last cfg1.N) ⊢ Pipeline.ΦA spec1 c := by
  have hne : (Fin.last cfg1.N).val ≠ 0 := by rw [Fin.val_last]; have : cfg1.N = 24 := N_1; omega
  rw [show (dat1 V c).Φ (Fin.last cfg1.N) = carried V c (Fin.last cfg1.N).val (Nat.le_of_lt_succ (Fin.last cfg1.N).isLt) from rfl,
    carried_pos V c _ _ hne, atEntry_eq]
  iintro ⟨⟨R0, R1, R2, R3, R4, R5, R6, R7, R8, R9, R10, R11, R12, R13, HS⟩, Hg⟩
  isplitl [R0 R1 R2 R3 R4 R5 R6 R7 R8 R9 R10 R11 R12 R13 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists _; iexact HS
  iexact Hg

end Cert.KernelIdeal.LossTile

end
-- ==== Proof.WholeRun.lean ====
/-
  The whole program, from launch to return: three stretches of host operations around the two kernel regions.

  Between two items every buffer outside the regions' own holds a known array: the launch contents, then what the
  host operations before the first region compute from them (the four inputs flattened to 64 x 196608, the scaled
  time column), then the first region's three arrays of partial sums written over, then what the host operations
  between the regions compute (the weights), then the second region's array of two partial sums, then the final
  mean.  This module names those contents item by item, states each region as the passage from one to the next,
  and concludes: every execution ends, nothing faults, and every such buffer ends holding the last of them — the
  arguments among them, which nothing writes, and the result.
  It is stated for any proof data of the first region that describes its arrays, its body and its invariant.
-/
import proofs.«124021_j68367289418164_2_alg».proof.Proof.LossBody
import proofs.«124021_j68367289418164_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Whole

open Cert.KernelIdeal
open Cert.KernelIdeal.Gen (cellOf_inj launch0 launch1 main_chain hostOps0 hostOps1 hostOps2 hostOps0_sub hostOps1_sub hostOps2_sub
  hostOps0_fresh hostOps1_fresh hostOps2_fresh hostOps0_writes hostOps1_writes hostOps2_writes hostOps0_W hostOps1_W hostOps2_W)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The contents of the cores' buffers when a region is entered. -/
abbrev EntryOf (G : FTy → Type) : Type := (c : Dev nD) → (b : Ref sig .tc) → Buf (Elt G) ((c : Thread nD τ).loc b)

-- the first region's proof data, at any entry contents, and what is known of it
variable (dat0 : EntryOf F → (c : Dev nD) → Dat τ (Elt F) Unit ℕ (UR sig nD τ) ℕ cfg0 c)
  (hA0 : ∀ (V : EntryOf F) (c : Dev nD) (w : Fin cfg0.W), (dat0 V c).A w = V c (Pipeline.arrRef spec0 w))
  (hq0 : ∀ (V : EntryOf F) (c : Dev nD) (w : Fin cfg0.W), (dat0 V c).q w = fullShare)
  (howed0 : ∀ (V : EntryOf F) (c : Dev nD) (t : Fin (cfg0.N + 1)), (dat0 V c).owed t = 0)
  (hrec0 : ∀ (V : EntryOf F) (c : Dev nD) (t : Fin (cfg0.N + 1)), (dat0 V c).recorded t = Set.univ)
  (hbody0 : ∀ (V : EntryOf F) (c : Dev nD), BodyObligation (dat0 V c) (defs₀ (F := F)) Variants.none () Set.univ)
  (henter0 : ∀ (V : EntryOf F) (c : Dev nD), Pipeline.ΦA spec0 c ⊢ (dat0 V c).Φ 0)
  (hleave0 : ∀ (V : EntryOf F) (c : Dev nD), (dat0 V c).Φ (Fin.last cfg0.N) ⊢ Pipeline.ΦA spec0 c)

variable (m : (ℓ : Loc nD τ sig) → Buf (Elt F) ℓ) (ρ : Dev nD → PrngReg)

/-! ## What the buffers hold between items -/

/-- At launch. -/
abbrev U0 : Dev nD → Valuation τ sig (Elt F) := fun c b => m ((c : Dev nD), b)
/-- After the host operations before the first region. -/
abbrev U1 : Dev nD → Valuation τ sig (Elt F) := fun c => StableHlo.after hostOps0 (U0 m c)
abbrev E1 : EntryOf F := fun c b => U1 m c b
/-- After the first region: its arrays at what it leaves, every other buffer as before. -/
def U2 (c : Dev nD) : Valuation τ sig (Elt F) :=
  Pipeline.withArrays spec0 c (U1 m c) fun w => (dat0 (E1 m) c).arrAt w cfg0.N
theorem U2_arr (c : Dev nD) (w : Fin cfg0.W) :
    U2 dat0 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 dat0 m c (Proc.devRef .tc b) = U1 m c (Proc.devRef .tc b) := by
  unfold U2; exact Pipeline.withArrays_of_ne spec0 c _ _ b hb
abbrev E2 : EntryOf F := fun c b => U2 dat0 m c b
theorem left0 (c : Dev nD) (w : Fin cfg0.W) : (dat0 (E1 m) c).arrAt w cfg0.N = E2 dat0 m c (Pipeline.arrRef spec0 w) :=
  (U2_arr dat0 m c w).symm
theorem kept0 (c : Dev nD) : ∀ b, b ∉ Finset.univ.image (Pipeline.arrRef spec0) → E2 dat0 m c b = E1 m c b :=
  fun b hb => U2_of_ne dat0 m c b fun w e => hb (Finset.mem_image.mpr ⟨w, Finset.mem_univ _, e⟩)
/-- After the host operations between the regions. -/
abbrev U3 : Dev nD → Valuation τ sig (Elt F) := fun c => StableHlo.after hostOps1 (U2 dat0 m c)
abbrev E3 : EntryOf F := fun c b => U3 dat0 m c b
/-- After the second region. -/
def U4 (c : Dev nD) : Valuation τ sig (Elt F) :=
  Pipeline.withArrays spec1 c (U3 dat0 m c) fun w => (LossTile.dat1 (E3 dat0 m) c).arrAt w cfg1.N
theorem U4_arr (c : Dev nD) (w : Fin cfg1.W) :
    U4 dat0 m c (Proc.devRef .tc (Pipeline.arrRef spec1 w)) = (LossTile.dat1 (E3 dat0 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 dat0 m c (Proc.devRef .tc b) = U3 dat0 m c (Proc.devRef .tc b) := by
  unfold U4; exact Pipeline.withArrays_of_ne spec1 c _ _ b hb
abbrev E4 : EntryOf F := fun c b => U4 dat0 m c b
theorem left1 (c : Dev nD) (w : Fin cfg1.W) : (LossTile.dat1 (E3 dat0 m) c).arrAt w cfg1.N = E4 dat0 m c (Pipeline.arrRef spec1 w) :=
  (U4_arr dat0 m c w).symm
theorem kept1 (c : Dev nD) : ∀ b, b ∉ Finset.univ.image (Pipeline.arrRef spec1) → E4 dat0 m c b = E3 dat0 m c b :=
  fun b hb => U4_of_ne dat0 m c b fun w e => hb (Finset.mem_image.mpr ⟨w, Finset.mem_univ _, e⟩)
/-- After the host operations after the second region: at the return. -/
abbrev U5 : Dev nD → Valuation τ sig (Elt F) := fun c => StableHlo.after hostOps2 (U4 dat0 m c)

/-- No item writes an argument: the host operations write only their own results, and no argument is an array of
    either region. -/
theorem U5_arg (c : Dev nD) (a : Ref sig .tc) (h0 : a ∉ hostOps0_W) (h1 : a ∉ hostOps1_W) (h2 : a ∉ hostOps2_W)
    (hr0 : ∀ w, Pipeline.arrRef spec0 w ≠ a) (hr1 : ∀ w, Pipeline.arrRef spec1 w ≠ a) :
    U5 dat0 m c (Proc.devRef .tc a) = m ((c : Thread nD τ).loc a) :=
  calc U5 dat0 m c (Proc.devRef .tc a)
    _ = U4 dat0 m c (Proc.devRef .tc a) := StableHlo.after_of_writes_sub hostOps2 _ hostOps2_writes h2
    _ = U3 dat0 m c (Proc.devRef .tc a) := U4_of_ne dat0 m c a hr1
    _ = U2 dat0 m c (Proc.devRef .tc a) := StableHlo.after_of_writes_sub hostOps1 _ hostOps1_writes h1
    _ = U1 m c (Proc.devRef .tc a) := U2_of_ne dat0 m c a hr0
    _ = U0 m c (Proc.devRef .tc a) := StableHlo.after_of_writes_sub hostOps0 _ hostOps0_writes h0
    _ = m ((c : Thread nD τ).loc a) := rfl

/-! ## The two regions' data together, and what rides beside the buffers -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => LossTile.dat1 (E3 dat0 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- The first region: entered with every buffer at `U1`, left with every buffer at `U2`. Its arrays are taken out of
    the buffers at entry and put back at what the region leaves; the generator register goes into the region's
    invariant and comes back; nothing is owed; the kernel has no semaphore of its own. -/
def item0 : Pipeline.RegionSeg (pcfgs (F := F)) adm (pdats dat0 m) () defs₀ 𝒱₀ L lv 0 where
  win := launch0.win.to₀
  block_pos := launch0.block_pos
  stage_whole := launch0.stage_whole
  K := PEmpty
  osem k := k.elim
  ho := Pipeline.OwnSemFacts.none _
  hbody c := (hbody0 (E1 m) c).loose
  hwaits := Pipeline.hwaits_of_owed_zero _ _ _ _ L lv 0 fun c t => howed0 (E1 m) c t
  pre c := iprop(StableHlo.held (c : Thread nD τ) (Pipeline.ucRefs τ sig) (U1 m c) ∗ Beside c)
  post c := iprop(StableHlo.held (c : Thread nD τ) (Pipeline.ucRefs τ sig) (U2 dat0 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats dat0 m) launch0.win launch0.arr_whole c
      ((pdats dat0 m 0 c).share_full fun w => hq0 (E1 m) c w) (E1 m c) fun w => hA0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 m 0 c).owed 0 = 0 from howed0 (E1 m) c 0]
      icases HO with ⟨%W, HO⟩; iexists W; isplitr
      · ipureintro; intro x _; left
        rw [show (pdats dat0 m 0 c).recorded 0 = Set.univ from hrec0 (E1 m) c 0]; trivial
      iexact HO
    isplitl [Hp]; · iexact Hp
    iexact Hrest
  hin c := by
    refine .trans ?_ (henter0 (E1 m) c)
    unfold Pipeline.ΦA
    iintro ⟨Hp, -, Hr⟩
    isplitl [Hr]; · iexact Hr
    iexact Hp
  hout c := by
    rw [Pipeline.ownSems0_none]
    refine (hleave0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 m) ((pdats dat0 m 0 c).share_full fun w => hq0 (E1 m) c w)
      (E1 m c) (E2 dat0 m c) ((pdats dat0 m 0 c).arrAt · cfg0.N) (left0 dat0 m c) (kept0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 m 0 c).owed (Fin.last _) = 0 from howed0 (E1 m) c _]
    icases HO with ⟨%W, -, HO⟩; iexists W; iexact HO

set_option backward.isDefEq.respectTransparency.types false in
/-- The second region: entered with every buffer at `U3`, left with every buffer at `U4`. -/
def item1 : Pipeline.RegionSeg (pcfgs (F := F)) adm (pdats dat0 m) () defs₀ 𝒱₀ L lv 1 where
  win := launch1.win.to₀
  block_pos := launch1.block_pos
  stage_whole := launch1.stage_whole
  K := PEmpty
  osem k := k.elim
  ho := Pipeline.OwnSemFacts.none _
  hbody c := (LossTile.body_obligation1 (E3 dat0 m) c).loose
  hwaits := Pipeline.hwaits_of_owed_zero _ _ _ _ L lv 1 fun _ _ => rfl
  pre c := iprop(StableHlo.held (c : Thread nD τ) (Pipeline.ucRefs τ sig) (U3 dat0 m c) ∗ Beside c)
  post c := iprop(StableHlo.held (c : Thread nD τ) (Pipeline.ucRefs τ sig) (U4 dat0 m c) ∗ Beside c)
  X c := iprop(∃ r, prngReg c r)
  Y c := iprop(∃ r, prngReg c r)
  Z c := Pipeline.unscopedRest (Ix := Unit) (Name := ℕ) (U := UR sig nD τ) (Lvl := ℕ) spec1 c (E3 dat0 m c)
  hentry c := by
    rw [Pipeline.ownSems0_none]
    have hsplit := Pipeline.arrays_of_unscopedBufs (p := 1) (pcfgs (F := F)) adm (pdats dat0 m) launch1.win launch1.arr_whole c
      ((pdats dat0 m 1 c).share_full fun _ => rfl) (E3 dat0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (LossTile.enter1 (E3 dat0 m) c)
    unfold Pipeline.ΦA
    iintro ⟨Hp, -, Hr⟩
    isplitl [Hr]; · iexact Hr
    iexact Hp
  hout c := by
    rw [Pipeline.ownSems0_none]
    refine (LossTile.leave1 (E3 dat0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 m) ((pdats dat0 m 1 c).share_full fun _ => rfl)
      (E3 dat0 m c) (E4 dat0 m c) ((pdats dat0 m 1 c).arrAt · cfg1.N) (left1 dat0 m c) (kept1 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The program's five items in order. -/
abbrev items : List (Pipeline.Seg (pcfgs (F := F)) adm (pdats dat0 m) () defs₀ 𝒱₀ L lv) :=
  [ .host (hostItem hostOps0 hostOps0_sub hostOps0_fresh (U0 m)),
    .region (item0 dat0 hA0 hq0 howed0 hrec0 hbody0 henter0 hleave0 m),
    .host (hostItem hostOps1 hostOps1_sub hostOps1_fresh (U2 dat0 m)),
    .region (item1 dat0 m),
    .host (hostItem hostOps2 hostOps2_sub hostOps2_fresh (U4 dat0 m)) ]
theorem main_is_items (c : Dev nD) : main (F := F) c = Pipeline.Seg.run (items dat0 hA0 hq0 howed0 hrec0 hbody0 henter0 hleave0 m) :=
  (main_chain c).trans (by chain_rfl)

include hA0 hq0 howed0 hrec0 hbody0 henter0 hleave0 in
set_option backward.isDefEq.respectTransparency.types false in
/-- From any memory with zero counters, every weakly fair execution of the program on the cores ends, nothing
    faults, and every buffer outside the regions' own ends at `U5`. -/
theorem runs_to_U5 : θ_run defs (onTc (τ := τ) (main (F := F))) ⟨m, fun _ => 0, ρ⟩ (fun r => ∀ c : Dev nD,
      ∀ b ∈ Pipeline.ucRefs τ sig, r.2.mem (((c : Thread nD τ)).1, b) = U5 dat0 m c b) :=
  Pipeline.θ_run_regions_kit (pcfgs (F := F)) adm (pdats dat0 m) () cellOf_inj emb₁ defs₀ 𝒱₀ L lv m ρ main
    (items dat0 hA0 hq0 howed0 hrec0 hbody0 henter0 hleave0 m)
    (fun c Q => by rw [main_is_items dat0 hA0 hq0 howed0 hrec0 hbody0 henter0 hleave0 m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Beside c))
    (Tₙ := fun c => iprop(StableHlo.held (c : Thread nD τ) (Pipeline.ucRefs τ sig) (U5 dat0 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (U5 dat0 m c) ∗ Beside c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U5 dat0 m c b)
    (hfin := fun c s' => by
      iintro ⟨⟨Hh, -⟩, HSI⟩
      unfold StableHlo.held
      imodintro
      iapply (pointsTo_read_all (Pipeline.ucRefs τ sig) (fun b => (((c : Thread nD τ)).1, b)) (U5 dat0 m c) s')
      isplitl [Hh] <;> iassumption)
    (hQ := fun s h c => h c)

end Cert.KernelIdeal.Whole

end
-- ==== Proof.CrossTileMid.lean ====
/-
  The cross-statistics kernel's body on one tile of 8192 columns, away from both ends of a row of twelve tiles.

  A tile's body reads the 64 x 8192 blocks of data and of noise and the column of 64 times t, forms the noised
  block  noise + t (data - noise),  and adds to three running sums it keeps between tiles: to the first column
  the 64 row sums of the data block's squares, to the second column the 64 row sums of the noised block's
  squares, and to the 64 x 64 matrix the products of the noised block's rows with the data block's rows, both
  blocks rounded to bfloat16 first.  Away from the first tile the running sums are not reset, and away from
  the last they are not copied into the three results: so the inputs and the three results' buffers come back
  as they were, and each running sum comes back with one whole store over it.
-/
import proofs.«124021_j68367289418164_2_alg».proof.Proof.Gen.KernelIdeal.Launch
import proofs.«124021_j68367289418164_2_alg».proof.Proof.Gen.KernelIdeal.Skeleton
import proofs.«124021_j68367289418164_2_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.CrossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of its row of twelve: the second grid coordinate is 0. -/
abbrev atFirst (i : grid0.Coords) : Prop :=
  (Scalar.cmpi .ne (Scalar.extui (Scalar.cmpi .eq (BitVec.ofNat 32 (i 1).val) 0#32)) 0#32) = 1#1
/-- The tile is the last of its row of twelve: the second grid coordinate is 11. -/
abbrev atLast (i : grid0.Coords) : Prop := k0_cond2 i = 1#1

/-- Of the 24 tiles, the first of a row are those numbered 0 and 12, -/
theorem atFirst_iff : ∀ t : Fin cfg0.N, atFirst (grid0.coords t) ↔ t.val % 12 = 0 :=
  (by decide +kernel : ∀ t : Fin grid0.N, atFirst (grid0.coords t) ↔ t.val % 12 = 0)
/-- and the last those numbered 11 and 23. -/
theorem atLast_iff : ∀ t : Fin cfg0.N, atLast (grid0.coords t) ↔ t.val % 12 = 11 :=
  (by decide +kernel : ∀ t : Fin grid0.N, atLast (grid0.coords t) ↔ t.val % 12 = 11)

set_option maxHeartbeats 4000000 in
/-- A middle tile: from the data and noise blocks at `x0`, `x1`, the column of times at `x2`, the three results'
    buffers at `xo5`, `xo6`, `xo7` and the three running sums at `xs8`, `xs9`, `xs10`, the body runs to the end
    with the inputs and the results' buffers as they were and each running sum overwritten whole; what each is
    overwritten with is the list of pieces the run ends with for it. -/
noncomputable def midTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : ¬atFirst i) (hc1 : ¬atLast i)
    (x0 x1 : Vec F S64x8192 .f32) (x2 : Vec F S64x1 .f32) (xs8 xs9 : Vec F S64x1 .f32) (xs10 : Vec F S64x64 .f32) :
    Σ' (L8 : List (View.Piece (Elt F) S64x1 .f32)) (L9 : List (View.Piece (Elt F) S64x1 .f32)), { L10 : List (View.Piece (Elt F) S64x64 .f32) //
      ∀ (xo5 xo6 : Vec F S1x64x1 .f32) (xo7 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, fun xo5 xo6 xo7 E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.KernelIdeal.CrossTile

end
-- ==== Proof.CrossTileFirst.lean ====
/-
  The cross-statistics kernel's body on the first tile of a row of twelve: the three running sums are set to
  zero before the tile's sums are added to them, so whatever they held before does not matter.
-/
import proofs.«124021_j68367289418164_2_alg».proof.Proof.CrossTileMid

set_option maxRecDepth 16384

noncomputable section

namespace Cert.KernelIdeal.CrossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row: from the data and noise blocks at `x0`, `x1`, the column of times at `x2`, the three
    results' buffers at `xo5`, `xo6`, `xo7` and the three running sums at anything, the body runs to the end with
    the inputs and the results' buffers as they were and each running sum overwritten whole (first by zeros,
    then by zeros plus the tile's sums): the pieces the run ends with say by what. -/
noncomputable def firstTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : atFirst i) (hc1 : ¬atLast i)
    (x0 x1 : Vec F S64x8192 .f32) (x2 : Vec F S64x1 .f32) :
    Σ' (L8 : List (View.Piece (Elt F) S64x1 .f32)) (L9 : List (View.Piece (Elt F) S64x1 .f32)), { L10 : List (View.Piece (Elt F) S64x64 .f32) //
      ∀ (xo5 xo6 : Vec F S1x64x1 .f32) (xo7 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, fun xo5 xo6 xo7 E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.KernelIdeal.CrossTile

end
-- ==== Proof.CrossTileLast.lean ====
/-
  The cross-statistics kernel's body on the last tile of a row of twelve: after the tile's sums are added to the
  three running sums, each running sum is copied whole over its result's buffer (the two columns as 1 x 64 x 1
  blocks, the matrix as a 1 x 64 x 64 block); each result's buffer is read first, and its old contents do not
  matter.
-/
import proofs.«124021_j68367289418164_2_alg».proof.Proof.CrossTileMid

set_option maxRecDepth 16384

noncomputable section

namespace Cert.KernelIdeal.CrossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row: from the data and noise blocks at `x0`, `x1`, the column of times at `x2`, the three
    results' buffers at anything and the three running sums at `xs8`, `xs9`, `xs10`, the body runs to the end with
    the inputs as they were, each running sum overwritten whole and each result's buffer overwritten whole: the
    six lists of pieces the run ends with say by what. -/
noncomputable def lastTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : ¬atFirst i) (hc1 : atLast i)
    (x0 x1 : Vec F S64x8192 .f32) (x2 : Vec F S64x1 .f32) (xs8 xs9 : Vec F S64x1 .f32) (xs10 : Vec F S64x64 .f32) :
    Σ' (L5 : List (View.Piece (Elt F) S1x64x1 .f32)) (L6 : List (View.Piece (Elt F) S1x64x1 .f32)) (L7 : List (View.Piece (Elt F) S1x64x64 .f32)) (L8 : List (View.Piece (Elt F) S64x1 .f32)) (L9 : List (View.Piece (Elt F) S64x1 .f32)), { L10 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

end Cert.KernelIdeal.CrossTile

end
-- ==== Proof.CrossRegion.lean ====
/-
  The cross-statistics kernel over its 24 tiles (two rows of twelve), tile after tile.

  Between tiles the kernel keeps three running sums: a column of 64 row sums of the data's squares, a column of 64
  row sums of the noised data's squares, and a 64 x 64 matrix of the noised rows against the data rows.  The
  first tile of a row starts the three from zero, every tile adds its own sums to them, and the last tile of a
  row copies the three into that row's three results, which is the only time the results' buffers are written.
  This module says what the running sums and the results' buffers hold after each tile, by recursion on the
  tile's number, states the invariant that carries the running sums from one tile to the next, and gives the
  data the region's run is stated over.
-/
import proofs.«124021_j68367289418164_2_alg».proof.Proof.CrossTileFirst
import proofs.«124021_j68367289418164_2_alg».proof.Proof.CrossTileLast

set_option maxRecDepth 16384

noncomputable section

namespace Cert.KernelIdeal.CrossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers a tile's body is run on -/

abbrev sm_0 (t : Fin cfg0.N) : Memref sig .tc .vmem S64x8192 .f32 := win0_0.stage (cfg0.slots t 0)
abbrev sh_0 (t : Fin cfg0.N) : (sm_0 t).IsWhole := hstage0_0 ((cfg0.slots t 0).cast nbuf0_0)
abbrev sm_1 (t : Fin cfg0.N) : Memref sig .tc .vmem S64x8192 .f32 := win0_1.stage (cfg0.slots t 1)
abbrev sh_1 (t : Fin cfg0.N) : (sm_1 t).IsWhole := hstage0_1 ((cfg0.slots t 1).cast nbuf0_1)
abbrev sm_2 (t : Fin cfg0.N) : Memref sig .tc .vmem S64x1 .f32 := win0_2.stage (cfg0.slots t 2)
abbrev sh_2 (t : Fin cfg0.N) : (sm_2 t).IsWhole := hstage0_2 ((cfg0.slots t 2).cast nbuf0_2)
abbrev sm_3 (t : Fin cfg0.N) : Memref sig .tc .vmem S1x64x1 .f32 := win0_3.stage (cfg0.slots t 3)
abbrev sh_3 (t : Fin cfg0.N) : (sm_3 t).IsWhole := hstage0_3 ((cfg0.slots t 3).cast nbuf0_3)
abbrev sm_4 (t : Fin cfg0.N) : Memref sig .tc .vmem S1x64x1 .f32 := win0_4.stage (cfg0.slots t 4)
abbrev sh_4 (t : Fin cfg0.N) : (sm_4 t).IsWhole := hstage0_4 ((cfg0.slots t 4).cast nbuf0_4)
abbrev sm_5 (t : Fin cfg0.N) : Memref sig .tc .vmem S1x64x64 .f32 := win0_5.stage (cfg0.slots t 5)
abbrev sh_5 (t : Fin cfg0.N) : (sm_5 t).IsWhole := hstage0_5 ((cfg0.slots t 5).cast nbuf0_5)
/-- The three running sums: whole buffers of the kernel's own. -/
abbrev d2Mem : Memref sig .tc .vmem S64x1 .f32 := Memref.whole cc0_scratch0
abbrev n2Mem : Memref sig .tc .vmem S64x1 .f32 := Memref.whole cc0_scratch1
abbrev crMem : Memref sig .tc .vmem S64x64 .f32 := Memref.whole cc0_scratch2
abbrev d2View : View sig .tc .vmem S64x1 .f32 := d2Mem.view
abbrev n2View : View sig .tc .vmem S64x1 .f32 := n2Mem.view
abbrev crView : View sig .tc .vmem S64x64 .f32 := crMem.view
/-- One of each result's two block buffers, through which its contents are stated (either would do). -/
abbrev o5View : View sig .tc .vmem S1x64x1 .f32 := (Memref.whole cc0_stg3_0 : Memref sig .tc .vmem S1x64x1 .f32).view
abbrev o6View : View sig .tc .vmem S1x64x1 .f32 := (Memref.whole cc0_stg4_0 : Memref sig .tc .vmem S1x64x1 .f32).view
abbrev o7View : View sig .tc .vmem S1x64x64 .f32 := (Memref.whole cc0_stg5_0 : Memref sig .tc .vmem S1x64x64 .f32).view

/-- The last tile of a row is the only one at which the three results' windows are live, and the only one written
    back. -/
theorem live_last3 : ∀ t : Fin cfg0.N, atLast (grid0.coords t) → cfg0.idle 3 (grid0.coords t) = false := by decide +kernel
theorem live_last4 : ∀ t : Fin cfg0.N, atLast (grid0.coords t) → cfg0.idle 4 (grid0.coords t) = false := by decide +kernel
theorem live_last5 : ∀ t : Fin cfg0.N, atLast (grid0.coords t) → cfg0.idle 5 (grid0.coords t) = false := by decide +kernel
theorem idle_notLast3 : ∀ t : Fin cfg0.N, ¬atLast (grid0.coords t) → cfg0.idle 3 (grid0.coords t) = true := by decide +kernel
theorem idle_notLast4 : ∀ t : Fin cfg0.N, ¬atLast (grid0.coords t) → cfg0.idle 4 (grid0.coords t) = true := by decide +kernel
theorem idle_notLast5 : ∀ t : Fin cfg0.N, ¬atLast (grid0.coords t) → cfg0.idle 5 (grid0.coords t) = true := by decide +kernel
theorem noFlush_notLast3 : ∀ t : Fin cfg0.N, ¬atLast (grid0.coords t) → (cfg0.win 3).flush t = false := by decide +kernel
theorem noFlush_notLast4 : ∀ t : Fin cfg0.N, ¬atLast (grid0.coords t) → (cfg0.win 4).flush t = false := by decide +kernel
theorem noFlush_notLast5 : ∀ t : Fin cfg0.N, ¬atLast (grid0.coords t) → (cfg0.win 5).flush t = false := by decide +kernel
/-- The three inputs are live at every tile. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-! ## What each kind of tile leaves -/

/-- The pieces a first tile ends with for the first running column cover it, -/
theorem firstTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x1.Idx) :
    ∃ pc ∈ (firstTile c i arg2 harg2 arg3 harg3 arg4 harg4 arg5 harg5 arg6 harg6 arg7 harg7 arg8 harg8 arg9 harg9 arg10 harg10 hc0 hc1 x0 x1 x2).1, y ∈ pc.1.set :=
  View.cover_of_tiledL (firstTile c i arg2 harg2 arg3 harg3 arg4 harg4 arg5 harg5 arg6 harg6 arg7 harg7 arg8 harg8 arg9 harg9 arg10 harg10 hc0 hc1 x0 x1 x2).1 S64x1.size (by sl_kernel_rfl) y
/-- those for the second running column cover it, -/
theorem firstTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x1.Idx) :
    ∃ pc ∈ (firstTile c i arg2 harg2 arg3 harg3 arg4 harg4 arg5 harg5 arg6 harg6 arg7 harg7 arg8 harg8 arg9 harg9 arg10 harg10 hc0 hc1 x0 x1 x2).2.1, y ∈ pc.1.set :=
  View.cover_of_tiledL (firstTile c i arg2 harg2 arg3 harg3 arg4 harg4 arg5 harg5 arg6 harg6 arg7 harg7 arg8 harg8 arg9 harg9 arg10 harg10 hc0 hc1 x0 x1 x2).2.1 S64x1.size (by sl_kernel_rfl) y
/-- and those for the running matrix cover it; -/
theorem firstTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x64.Idx) :
    ∃ pc ∈ (firstTile c i arg2 harg2 arg3 harg3 arg4 harg4 arg5 harg5 arg6 harg6 arg7 harg7 arg8 harg8 arg9 harg9 arg10 harg10 hc0 hc1 x0 x1 x2).2.2.1, y ∈ pc.1.set :=
  View.cover_of_tiledL (firstTile c i arg2 harg2 arg3 harg3 arg4 harg4 arg5 harg5 arg6 harg6 arg7 harg7 arg8 harg8 arg9 harg9 arg10 harg10 hc0 hc1 x0 x1 x2).2.2.1 S64x64.size (by sl_kernel_rfl) y
/-- so do a middle tile's three lists, -/
theorem midTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x1.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).1 S64x1.size (by sl_kernel_rfl) y
/-- (the second column) -/
theorem midTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x1.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).2.1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).2.1 S64x1.size (by sl_kernel_rfl) y
/-- (the matrix) -/
theorem midTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x64.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).2.2.1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).2.2.1 S64x64.size (by sl_kernel_rfl) y
/-- and a last tile's six: the first result's block, -/
theorem lastTile_cover_o5 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).1 S1x64x1.size (by sl_kernel_rfl) y
/-- the second result's block, -/
theorem lastTile_cover_o6 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.1 S1x64x1.size (by sl_kernel_rfl) y
/-- the third result's block, -/
theorem lastTile_cover_o7 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x64.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.1 S1x64x64.size (by sl_kernel_rfl) y
/-- the first running column, -/
theorem lastTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.1 S64x1.size (by sl_kernel_rfl) y
/-- the second running column, -/
theorem lastTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.2.1 S64x1.size (by sl_kernel_rfl) y
/-- the running matrix. -/
theorem lastTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x64.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.2.2.1 S64x64.size (by sl_kernel_rfl) y

/-- What the three results' buffers and the three running sums hold after a tile. -/
structure Sums (F : FTy → Type) where
  /-- the first result's block: the row sums of the data's squares over a row of tiles -/
  outD2 : Vec F S1x64x1 .f32
  /-- the second result's block: the row sums of the noised data's squares over a row of tiles -/
  outN2 : Vec F S1x64x1 .f32
  /-- the third result's block: the noised rows against the data rows over a row of tiles -/
  outCross : Vec F S1x64x64 .f32
  /-- the first running column -/
  accD2 : Vec F S64x1 .f32
  /-- the second running column -/
  accN2 : Vec F S64x1 .f32
  /-- the running matrix -/
  accCross : Vec F S64x64 .f32

/-- Away from a last tile a result's buffer is not written, not written back and not read at the next tile:
    nothing consults what is said of it there. -/
def o5Unwritten : Vec F S1x64x1 .f32 := o5View.read (Elt F) o5View.junk
def o6Unwritten : Vec F S1x64x1 .f32 := o6View.read (Elt F) o6View.junk
def o7Unwritten : Vec F S1x64x64 .f32 := o7View.read (Elt F) o7View.junk

/-- After a first tile: each running sum is its pieces read back. -/
def afterFirst (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) : Sums F :=
  ⟨o5Unwritten, o6Unwritten, o7Unwritten,
   d2View.read (Elt F) (d2View.writes (Elt F) d2View.junk (firstTile c i arg2 harg2 arg3 harg3 arg4 harg4 arg5 harg5 arg6 harg6 arg7 harg7 arg8 harg8 arg9 harg9 arg10 harg10 hc0 hc1 x0 x1 x2).1),
   n2View.read (Elt F) (n2View.writes (Elt F) n2View.junk (firstTile c i arg2 harg2 arg3 harg3 arg4 harg4 arg5 harg5 arg6 harg6 arg7 harg7 arg8 harg8 arg9 harg9 arg10 harg10 hc0 hc1 x0 x1 x2).2.1),
   crView.read (Elt F) (crView.writes (Elt F) crView.junk (firstTile c i arg2 harg2 arg3 harg3 arg4 harg4 arg5 harg5 arg6 harg6 arg7 harg7 arg8 harg8 arg9 harg9 arg10 harg10 hc0 hc1 x0 x1 x2).2.2.1)⟩
/-- After a middle tile, from what the tile before left in the running sums. -/
def afterMid (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) : Sums F :=
  ⟨o5Unwritten, o6Unwritten, o7Unwritten,
   d2View.read (Elt F) (d2View.writes (Elt F) d2View.junk (midTile c i arg2 harg2 arg3 harg3 arg4 harg4 arg5 harg5 arg6 harg6 arg7 harg7 arg8 harg8 arg9 harg9 arg10 harg10 hc0 hc1 x0 x1 x2 xs8 xs9 xs10).1),
   n2View.read (Elt F) (n2View.writes (Elt F) n2View.junk (midTile c i arg2 harg2 arg3 harg3 arg4 harg4 arg5 harg5 arg6 harg6 arg7 harg7 arg8 harg8 arg9 harg9 arg10 harg10 hc0 hc1 x0 x1 x2 xs8 xs9 xs10).2.1),
   crView.read (Elt F) (crView.writes (Elt F) crView.junk (midTile c i arg2 harg2 arg3 harg3 arg4 harg4 arg5 harg5 arg6 harg6 arg7 harg7 arg8 harg8 arg9 harg9 arg10 harg10 hc0 hc1 x0 x1 x2 xs8 xs9 xs10).2.2.1)⟩
/-- After a last tile: the three results' blocks and the three running sums. -/
def afterLast (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) : Sums F :=
  ⟨o5View.read (Elt F) (o5View.writes (Elt F) o5View.junk (lastTile c i arg2 harg2 arg3 harg3 arg4 harg4 arg5 harg5 arg6 harg6 arg7 harg7 arg8 harg8 arg9 harg9 arg10 harg10 hc0 hc1 x0 x1 x2 xs8 xs9 xs10).1),
   o6View.read (Elt F) (o6View.writes (Elt F) o6View.junk (lastTile c i arg2 harg2 arg3 harg3 arg4 harg4 arg5 harg5 arg6 harg6 arg7 harg7 arg8 harg8 arg9 harg9 arg10 harg10 hc0 hc1 x0 x1 x2 xs8 xs9 xs10).2.1),
   o7View.read (Elt F) (o7View.writes (Elt F) o7View.junk (lastTile c i arg2 harg2 arg3 harg3 arg4 harg4 arg5 harg5 arg6 harg6 arg7 harg7 arg8 harg8 arg9 harg9 arg10 harg10 hc0 hc1 x0 x1 x2 xs8 xs9 xs10).2.2.1),
   d2View.read (Elt F) (d2View.writes (Elt F) d2View.junk (lastTile c i arg2 harg2 arg3 harg3 arg4 harg4 arg5 harg5 arg6 harg6 arg7 harg7 arg8 harg8 arg9 harg9 arg10 harg10 hc0 hc1 x0 x1 x2 xs8 xs9 xs10).2.2.2.1),
   n2View.read (Elt F) (n2View.writes (Elt F) n2View.junk (lastTile c i arg2 harg2 arg3 harg3 arg4 harg4 arg5 harg5 arg6 harg6 arg7 harg7 arg8 harg8 arg9 harg9 arg10 harg10 hc0 hc1 x0 x1 x2 xs8 xs9 xs10).2.2.2.2.1),
   crView.read (Elt F) (crView.writes (Elt F) crView.junk (lastTile c i arg2 harg2 arg3 harg3 arg4 harg4 arg5 harg5 arg6 harg6 arg7 harg7 arg8 harg8 arg9 harg9 arg10 harg10 hc0 hc1 x0 x1 x2 xs8 xs9 xs10).2.2.2.2.2.1)⟩

-- the entry contents of the region's arrays: the parameter the region is stated at
variable (V : (c : Dev nD) → (b : Ref sig .tc) → Buf (Elt F) ((c : Thread nD τ).loc b))

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Tile after tile -/

/-- What the results' buffers and the running sums hold after tile `n`: a first tile's sums from nothing, a middle
    or last tile's from the sums the tile before left. No tile is both first and last of its row. -/
def accAt (c : Dev nD) : (n : ℕ) → n < cfg0.N → Sums F
  | 0, hn => afterFirst c (grid0.coords ⟨0, hn⟩) (sm_0 ⟨0, hn⟩) (sh_0 ⟨0, hn⟩) (sm_1 ⟨0, hn⟩) (sh_1 ⟨0, hn⟩) (sm_2 ⟨0, hn⟩) (sh_2 ⟨0, hn⟩) (sm_3 ⟨0, hn⟩) (sh_3 ⟨0, hn⟩) (sm_4 ⟨0, hn⟩) (sh_4 ⟨0, hn⟩) (sm_5 ⟨0, hn⟩) (sh_5 ⟨0, hn⟩) d2Mem (Memref.isWhole_whole _) n2Mem (Memref.isWhole_whole _) crMem (Memref.isWhole_whole _) ((atFirst_iff ⟨0, hn⟩).mpr (Nat.zero_mod _)) (fun h => (fun h => by (try dsimp only at h); omega) ((atLast_iff ⟨0, hn⟩).mp h)) (blk V c 0 ⟨0, hn⟩) (blk V c 1 ⟨0, hn⟩) (blk V c 2 ⟨0, hn⟩)
  | n + 1, hn =>
    if h0 : (n + 1) % 12 = 0 then
      if h1 : (n + 1) % 12 = 11 then False.elim (by omega)
      else afterFirst c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) ((atFirst_iff ⟨n + 1, hn⟩).mpr h0) (fun h => h1 ((atLast_iff ⟨n + 1, hn⟩).mp h)) (blk V c 0 ⟨n + 1, hn⟩) (blk V c 1 ⟨n + 1, hn⟩) (blk V c 2 ⟨n + 1, hn⟩)
    else
      if h1 : (n + 1) % 12 = 11 then
        afterLast c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (accAt c n (Nat.lt_of_succ_lt hn)).accD2 (accAt c n (Nat.lt_of_succ_lt hn)).accN2 (accAt c n (Nat.lt_of_succ_lt hn)).accCross
      else
        afterMid c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) (fun h => h0 ((atFirst_iff ⟨n + 1, hn⟩).mp h)) (fun h => h1 ((atLast_iff ⟨n + 1, hn⟩).mp h)) (blk V c 0 ⟨n + 1, hn⟩) (blk V c 1 ⟨n + 1, hn⟩) (blk V c 2 ⟨n + 1, hn⟩) (accAt c n (Nat.lt_of_succ_lt hn)).accD2 (accAt c n (Nat.lt_of_succ_lt hn)).accN2 (accAt c n (Nat.lt_of_succ_lt hn)).accCross

/-- `accAt` at a first tile. -/
theorem accAt_first (c : Dev nD) (t : Fin cfg0.N) (h0 : t.val % 12 = 0) (h1 : ¬t.val % 12 = 11) :
    accAt V c t.val t.isLt = afterFirst c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) ((atFirst_iff t).mpr h0) (fun h => h1 ((atLast_iff t).mp h)) (blk V c 0 t) (blk V c 1 t) (blk V c 2 t) := by
  obtain ⟨n, hn⟩ := t
  cases n with
  | zero => exact rfl
  | succ n => exact (dif_pos h0).trans ((dif_neg h1).trans rfl)

/-- `accAt` at a middle tile, over what the tile before left. -/
theorem accAt_mid (c : Dev nD) (t : Fin cfg0.N) (h0 : ¬t.val % 12 = 0) (h1 : ¬t.val % 12 = 11) :
    accAt V c t.val t.isLt = afterMid c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) (fun h => h0 ((atFirst_iff t).mp h)) (fun h => h1 ((atLast_iff t).mp h)) (blk V c 0 t) (blk V c 1 t) (blk V c 2 t) (accAt V c (t.val - 1) (Nat.lt_of_le_of_lt (Nat.sub_le _ _) t.isLt)).accD2 (accAt V c (t.val - 1) (Nat.lt_of_le_of_lt (Nat.sub_le _ _) t.isLt)).accN2 (accAt V c (t.val - 1) (Nat.lt_of_le_of_lt (Nat.sub_le _ _) t.isLt)).accCross := by
  obtain ⟨n, hn⟩ := t
  cases n with
  | zero => exact (by exfalso; (try dsimp only at h0); exact absurd (Nat.zero_mod _) h0)
  | succ n => exact (dif_neg h0).trans ((dif_neg h1).trans rfl)

/-- `accAt` at a last tile, over what the tile before left. -/
theorem accAt_last (c : Dev nD) (t : Fin cfg0.N) (h0 : ¬t.val % 12 = 0) (h1 : t.val % 12 = 11) :
    accAt V c t.val t.isLt = afterLast c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) (fun h => h0 ((atFirst_iff t).mp h)) ((atLast_iff t).mpr h1) (blk V c 0 t) (blk V c 1 t) (blk V c 2 t) (accAt V c (t.val - 1) (Nat.lt_of_le_of_lt (Nat.sub_le _ _) t.isLt)).accD2 (accAt V c (t.val - 1) (Nat.lt_of_le_of_lt (Nat.sub_le _ _) t.isLt)).accN2 (accAt V c (t.val - 1) (Nat.lt_of_le_of_lt (Nat.sub_le _ _) t.isLt)).accCross := by
  obtain ⟨n, hn⟩ := t
  cases n with
  | zero => exact (by exfalso; (try dsimp only at h0); exact absurd (Nat.zero_mod _) h0)
  | succ n => exact (dif_neg h0).trans ((dif_pos h1).trans rfl)

/-! ## The invariant between tiles -/

/-- Before the first tile: every scoped buffer no window of this region stages (this region's three running sums
    and the other region's buffers) at anything, and the generator register at some state. After tile `n`: the
    same, with the three running sums at what tile `n` left in them. -/
def carried (c : Dev nD) : (n : ℕ) → n ≤ cfg0.N → sProp 𝕄
  | 0, _ => Pipeline.ΦA spec0 c
  | n + 1, hn => iprop(iprop(owns (c : Thread nD τ) d2Mem fullShare (accAt V c n hn).accD2 ∗ owns (c : Thread nD τ) n2Mem fullShare (accAt V c n hn).accN2 ∗ owns (c : Thread nD τ) crMem fullShare (accAt V c n hn).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

theorem atEntry_eq (c : Dev nD) :
    (Pipeline.ΦA spec0 c : sProp 𝕄)
      = iprop(iprop((∃ d, owns (c : Thread nD τ) d2Mem fullShare d) ∗ (∃ d, owns (c : Thread nD τ) n2Mem fullShare d) ∗ (∃ d, owns (c : Thread nD τ) crMem fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [d2Mem, n2Mem, crMem, owns_whole]; try rfl

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) d2Mem fullShare (accAt V c n hn).accD2 ∗ owns (c : Thread nD τ) n2Mem fullShare (accAt V c n hn).accN2 ∗ owns (c : Thread nD τ) crMem fullShare (accAt V c n hn).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := rfl
theorem carried_pos (c : Dev nD) (n : ℕ) (h : n ≤ cfg0.N) (hz : n ≠ 0) :
    carried V c n h = iprop(iprop(owns (c : Thread nD τ) d2Mem fullShare (accAt V c (n - 1) (by omega)).accD2 ∗ owns (c : Thread nD τ) n2Mem fullShare (accAt V c (n - 1) (by omega)).accN2 ∗ owns (c : Thread nD τ) crMem fullShare (accAt V c (n - 1) (by omega)).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data -/

/-- On core `c`: the arrays as the region finds them; after a tile each input's buffer at its block and each
    result's at `accAt`; the invariant `carried`; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (accAt V c t.val t.isLt).outD2
    | ⟨4, _⟩ => (accAt V c t.val t.isLt).outN2
    | ⟨5, _⟩ => (accAt V c t.val t.isLt).outCross
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem carried_castSucc (c : Dev nD) (t : Fin cfg0.N) :
    (dat0 V c).Φ t.castSucc = carried V c t.val (Nat.le_of_lt t.isLt) := by
  dsimp only [dat0]; simp only [Fin.coe_castSucc]
theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = (accAt V c t.val t.isLt).outD2 := by dsimp only [dat0]
theorem after0_4 (c : Dev nD) (t : Fin cfg0.N) : (dat0 V c).after 4 t = (accAt V c t.val t.isLt).outN2 := by dsimp only [dat0]
theorem after0_5 (c : Dev nD) (t : Fin cfg0.N) : (dat0 V c).after 5 t = (accAt V c t.val t.isLt).outCross := by dsimp only [dat0]
theorem owed0_fun (c : Dev nD) : (dat0 V c).owed = fun _ => 0 := by dsimp only [dat0]
theorem q0_fun (c : Dev nD) : (dat0 V c).q = fun _ => fullShare := by dsimp only [dat0]
theorem owed0 (c : Dev nD) (t : Fin (cfg0.N + 1)) : (dat0 V c).owed t = 0 := by dsimp only [dat0]
theorem q0 (c : Dev nD) (w : Fin cfg0.W) : (dat0 V c).q w = fullShare := by dsimp only [dat0]
theorem rec0 (c : Dev nD) (t : Fin (cfg0.N + 1)) : (dat0 V c).recorded t = Set.univ := rfl

/-- Each input's current buffer holds its block at every tile, fetched there or not: where it is not fetched its
    block index has not moved. -/
theorem before0_0 (c : Dev nD) (t : Fin cfg0.N) (d) : (dat0 V c).before 0 t d = blk V c 0 t :=
  ((dat0 V c).before_in_eq_fetched 0 rfl (fun _ => rfl) (fun _ _ _ => rfl) (fun t => by rw [after0_0]; unfold Dat.blockOf blk; rw [A_eq0]; try rfl) t d).trans
    (by unfold Dat.fetched Dat.blockOf blk; rw [A_eq0]; try rfl)
theorem before0_1 (c : Dev nD) (t : Fin cfg0.N) (d) : (dat0 V c).before 1 t d = blk V c 1 t :=
  ((dat0 V c).before_in_eq_fetched 1 rfl (fun _ => rfl) (fun _ _ _ => rfl) (fun t => by rw [after0_1]; unfold Dat.blockOf blk; rw [A_eq0]; try rfl) t d).trans
    (by unfold Dat.fetched Dat.blockOf blk; rw [A_eq0]; try rfl)
theorem before0_2 (c : Dev nD) (t : Fin cfg0.N) (d) : (dat0 V c).before 2 t d = blk V c 2 t :=
  ((dat0 V c).before_in_eq_fetched 2 rfl (fun _ => rfl) (fun _ _ _ => rfl) (fun t => by rw [after0_2]; unfold Dat.blockOf blk; rw [A_eq0]; try rfl) t d).trans
    (by unfold Dat.fetched Dat.blockOf blk; rw [A_eq0]; try rfl)

end Cert.KernelIdeal.CrossTile

end
-- ==== Proof.CrossBody.lean ====
/-
  One tile of the cross-statistics kernel, started from the invariant before it with every input block in its
  buffer, ends in the invariant after it: by cases on whether the tile is the first, the last, or neither of its
  row of twelve.
-/
import proofs.«124021_j68367289418164_2_alg».proof.Proof.CrossRegion

set_option maxRecDepth 16384

noncomputable section

namespace Cert.KernelIdeal.CrossTile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a tile's body is started from, the windows one by one, -/
def tilePre (c : Dev nD) (t : Fin cfg0.N) : sProp 𝕄 :=
  iprop((dat0 V c).Φ t.castSucc ∗ (dat0 V c).owesAt () t.castSucc
    ∗ (∃ d, owns (c : Thread nD τ) (sm_0 t) fullShare ((dat0 V c).before 0 t d))
    ∗ (∃ d, owns (c : Thread nD τ) (sm_1 t) fullShare ((dat0 V c).before 1 t d))
    ∗ (∃ d, owns (c : Thread nD τ) (sm_2 t) fullShare ((dat0 V c).before 2 t d))
    ∗ (∃ d, owns (c : Thread nD τ) (sm_3 t) fullShare ((dat0 V c).before 3 t d))
    ∗ (∃ d, owns (c : Thread nD τ) (sm_4 t) fullShare ((dat0 V c).before 4 t d))
    ∗ (∃ d, owns (c : Thread nD τ) (sm_5 t) fullShare ((dat0 V c).before 5 t d)))

/-- and what it ends in. -/
def tilePost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any tile. The inputs' buffers hold their blocks; the tile's number says which kind of tile it is;
    the invariant hands the body the three running sums at what the tile before left (at anything before the
    very first tile), and takes them back at what this tile leaves; the three results' buffers are handed back
    as found except at a last tile, where each is overwritten; the core owes nothing throughout. -/
theorem tile_sound (c : Dev nD) (t : Fin cfg0.N) :
    tilePre V c t ⊢ wp frame (wpE (defs₀ (F := F)) Variants.none c none) Set.univ (bodyAt0 t) (fun _ => tilePost V c t) := by
  unfold tilePre tilePost bodyAt0
  simp only [before0_0, before0_1, before0_2]
  rw [show (dat0 V c).owesAt () t.succ = (dat0 V c).owesAt () t.castSucc from rfl]
  rw [show (dat0 V c).Φ t.succ = carried V c (t.val + 1) t.isLt from rfl, carried_succ]
  have hN : t.val < 24 := lt_of_lt_of_eq t.isLt (show cfg0.N = 24 from N_0)
  rw [show (dat0 V c).leavesExact 0 t = owns (c : Thread nD τ) (sm_0 t) fullShare ((dat0 V c).after 0 t) from by
    unfold Dat.leavesExact; rw [live0_0 t], after0_0]
  rw [show (dat0 V c).leavesExact 1 t = owns (c : Thread nD τ) (sm_1 t) fullShare ((dat0 V c).after 1 t) from by
    unfold Dat.leavesExact; rw [live0_1 t], after0_1]
  rw [show (dat0 V c).leavesExact 2 t = owns (c : Thread nD τ) (sm_2 t) fullShare ((dat0 V c).after 2 t) from by
    unfold Dat.leavesExact; rw [live0_2 t], after0_2]
  by_cases h0 : t.val % 12 = 0
  · have h1 : ¬t.val % 12 = 11 := by omega
    rw [Dat.leavesExact_idle (dat0 V c) 3 t (idle_notLast3 t (fun h => h1 ((atLast_iff t).mp h))) (noFlush_notLast3 t (fun h => h1 ((atLast_iff t).mp h)))]
    rw [Dat.leavesExact_idle (dat0 V c) 4 t (idle_notLast4 t (fun h => h1 ((atLast_iff t).mp h))) (noFlush_notLast4 t (fun h => h1 ((atLast_iff t).mp h)))]
    rw [Dat.leavesExact_idle (dat0 V c) 5 t (idle_notLast5 t (fun h => h1 ((atLast_iff t).mp h))) (noFlush_notLast5 t (fun h => h1 ((atLast_iff t).mp h)))]
    rw [accAt_first V c t h0 h1]
    unfold afterFirst; (try dsimp only)
    by_cases hz : t.val = 0
    · rw [carried_castSucc V c t, carried_zero V c _ _ hz, atEntry_eq]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((firstTile c (grid0.coords t) _ _ _ _ _ _ _ _ _ _ _ _ _ _ _ _ _ _ ((atFirst_iff t).mpr h0) (fun h => h1 ((atLast_iff t).mp h)) (blk V c 0 t) (blk V c 1 t) (blk V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexact S8
      isplitl [S9]; · iexact S9
      isplitl [S10]; · iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (firstTile_cover_d2 c _ _ _ _ _ _ _ _ _ _ _ _ _ _ _ _ _ _ _ _ _ _ _ _)
          isplitl [S9]
          · unfold owns; iexists _; isplitr
            swap; · iexact S9
            ipureintro; exact View.read_writes_of_cover _ _ _ _ _ (firstTile_cover_n2 c _ _ _ _ _ _ _ _ _ _ _ _ _ _ _ _ _ _ _ _ _ _ _ _)
          isplitl [S10]
          · unfold owns; iexists _; isplitr
            swap; · iexact S10
            ipureintro; exact View.read_writes_of_cover _ _ _ _ _ (firstTile_cover_cr c _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((firstTile c (grid0.coords t) _ _ _ _ _ _ _ _ _ _ _ _ _ _ _ _ _ _ ((atFirst_iff t).mpr h0) (fun h => h1 ((atLast_iff t).mp h)) (blk V c 0 t) (blk V c 1 t) (blk V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexists _; iexact S8
      isplitl [S9]; · iexists _; iexact S9
      isplitl [S10]; · iexists _; iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (firstTile_cover_d2 c _ _ _ _ _ _ _ _ _ _ _ _ _ _ _ _ _ _ _ _ _ _ _ _)
          isplitl [S9]
          · unfold owns; iexists _; isplitr
            swap; · iexact S9
            ipureintro; exact View.read_writes_of_cover _ _ _ _ _ (firstTile_cover_n2 c _ _ _ _ _ _ _ _ _ _ _ _ _ _ _ _ _ _ _ _ _ _ _ _)
          isplitl [S10]
          · unfold owns; iexists _; isplitr
            swap; · iexact S10
            ipureintro; exact View.read_writes_of_cover _ _ _ _ _ (firstTile_cover_cr c _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 12 = 11
    · rw [show (dat0 V c).leavesExact 3 t = owns (c : Thread nD τ) (sm_3 t) fullShare ((dat0 V c).after 3 t) from by
        unfold Dat.leavesExact; rw [live_last3 t ((atLast_iff t).mpr h1)], after0_3]
      rw [show (dat0 V c).leavesExact 4 t = owns (c : Thread nD τ) (sm_4 t) fullShare ((dat0 V c).after 4 t) from by
        unfold Dat.leavesExact; rw [live_last4 t ((atLast_iff t).mpr h1)], after0_4]
      rw [show (dat0 V c).leavesExact 5 t = owns (c : Thread nD τ) (sm_5 t) fullShare ((dat0 V c).after 5 t) from by
        unfold Dat.leavesExact; rw [live_last5 t ((atLast_iff t).mpr h1)], after0_5]
      rw [accAt_last V c t h0 h1]
      unfold afterLast; (try dsimp only)
      rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((lastTile c (grid0.coords t) _ _ _ _ _ _ _ _ _ _ _ _ _ _ _ _ _ _ (fun h => h0 ((atFirst_iff t).mp h)) ((atLast_iff t).mpr h1) (blk V c 0 t) (blk V c 1 t) (blk V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [S8]; · iexact S8
      isplitl [S9]; · iexact S9
      isplitl [S10]; · iexact S10
      iintro ⟨H0, H1, H2, ⟨%e5, H3⟩, ⟨%e6, H4⟩, ⟨%e7, H5⟩, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (lastTile_cover_d2 c _ _ _ _ _ _ _ _ _ _ _ _ _ _ _ _ _ _ _ _ _ _ _ _ _ _ _)
          isplitl [S9]
          · unfold owns; iexists _; isplitr
            swap; · iexact S9
            ipureintro; exact View.read_writes_of_cover _ _ _ _ _ (lastTile_cover_n2 c _ _ _ _ _ _ _ _ _ _ _ _ _ _ _ _ _ _ _ _ _ _ _ _ _ _ _)
          isplitl [S10]
          · unfold owns; iexists _; isplitr
            swap; · iexact S10
            ipureintro; exact View.read_writes_of_cover _ _ _ _ _ (lastTile_cover_cr c _ _ _ _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (lastTile_cover_o5 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (lastTile_cover_o6 c _ _ _ _ _ _ _ _ _ _ _ _ _ _ _ _ _ _ _ _ _ _ _ _ _ _ _)
      unfold owns; iexists _; isplitr
      swap; · iexact H5
      ipureintro; exact View.read_writes_of_cover _ _ _ _ _ (lastTile_cover_o7 c _ _ _ _ _ _ _ _ _ _ _ _ _ _ _ _ _ _ _ _ _ _ _ _ _ _ _)
    · rw [Dat.leavesExact_idle (dat0 V c) 3 t (idle_notLast3 t (fun h => h1 ((atLast_iff t).mp h))) (noFlush_notLast3 t (fun h => h1 ((atLast_iff t).mp h)))]
      rw [Dat.leavesExact_idle (dat0 V c) 4 t (idle_notLast4 t (fun h => h1 ((atLast_iff t).mp h))) (noFlush_notLast4 t (fun h => h1 ((atLast_iff t).mp h)))]
      rw [Dat.leavesExact_idle (dat0 V c) 5 t (idle_notLast5 t (fun h => h1 ((atLast_iff t).mp h))) (noFlush_notLast5 t (fun h => h1 ((atLast_iff t).mp h)))]
      rw [accAt_mid V c t h0 h1]
      unfold afterMid; (try dsimp only)
      rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((midTile c (grid0.coords t) _ _ _ _ _ _ _ _ _ _ _ _ _ _ _ _ _ _ (fun h => h0 ((atFirst_iff t).mp h)) (fun h => h1 ((atLast_iff t).mp h)) (blk V c 0 t) (blk V c 1 t) (blk V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexact S8
      isplitl [S9]; · iexact S9
      isplitl [S10]; · iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (midTile_cover_d2 c _ _ _ _ _ _ _ _ _ _ _ _ _ _ _ _ _ _ _ _ _ _ _ _ _ _ _)
          isplitl [S9]
          · unfold owns; iexists _; isplitr
            swap; · iexact S9
            ipureintro; exact View.read_writes_of_cover _ _ _ _ _ (midTile_cover_n2 c _ _ _ _ _ _ _ _ _ _ _ _ _ _ _ _ _ _ _ _ _ _ _ _ _ _ _)
          isplitl [S10]
          · unfold owns; iexists _; isplitr
            swap; · iexact S10
            ipureintro; exact View.read_writes_of_cover _ _ _ _ _ (midTile_cover_cr c _ _ _ _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The body obligation of region 0 at every tile. -/
theorem body_obligation0 (c : Dev nD) : BodyObligation (dat0 (F := F) V c) (defs₀ (F := F)) Variants.none () Set.univ := fun t => by
  rw [bigSep_W0, bigSep_W0]
  exact tile_sound V c t

/-- What the launch hands the region is the invariant before the first tile. -/
theorem enter0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last tile the invariant gives back what the launch handed in: what the three running sums hold is
    forgotten. -/
theorem leave0 (c : Dev nD) : (dat0 V c).Φ (Fin.last cfg0.N) ⊢ Pipeline.ΦA spec0 c := by
  have hne : (Fin.last cfg0.N).val ≠ 0 := by rw [Fin.val_last]; have : cfg0.N = 24 := N_0; omega
  rw [show (dat0 V c).Φ (Fin.last cfg0.N) = carried V c (Fin.last cfg0.N).val (Nat.le_of_lt_succ (Fin.last cfg0.N).isLt) from rfl,
    carried_pos V c _ _ hne, atEntry_eq]
  iintro ⟨⟨S8, S9, S10, R0, R1, R2, R3, R4, R5, R6, R7, R8, R9, R10, R11, R12⟩, Hg⟩
  isplitl [S8 S9 S10 R0 R1 R2 R3 R4 R5 R6 R7 R8 R9 R10 R11 R12]
  · isplitl [S8]; · iexists _; iexact S8
    isplitl [S9]; · iexists _; iexact S9
    isplitl [S10]; · iexists _; iexact S10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  iexact Hg

end Cert.KernelIdeal.CrossTile

end
-- ==== Proof.BitsLossTileMid.lean ====
/-
  The loss kernel's body on one tile of 8192 columns, away from both ends of a row of twelve tiles.

  A tile's body reads the four 64 x 8192 input blocks, the column of times and the 64 x 64 weights, forms for
  every entry the loss term  1/2 ((mean - (data - noise))^2 + (u^2 - (data - noise)^2)) + 1/2 logvar e^logvar,
  u the mixed data less the noised data over 1 - t + eps, sums each row's 8192 terms, and adds the 64 row
  sums to the running column of row sums it keeps between tiles.  Away from the first tile the running column
  is not reset, and away from the last it is not folded into the tile row's one result: so the inputs and the
  result's buffer come back as they were, and the running column comes back with one whole store over it.
-/
import proofs.«124021_j68367289418164_2_alg».proof.Proof.Gen.Kernel.Launch
import proofs.«124021_j68367289418164_2_alg».proof.Proof.Gen.Kernel.Skeleton
import proofs.«124021_j68367289418164_2_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.LossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of its row of twelve: the second grid coordinate is 0. -/
abbrev atFirst (i : grid1.Coords) : Prop :=
  (Scalar.cmpi .ne (Scalar.extui (Scalar.cmpi .eq (BitVec.ofNat 32 (i 1).val) 0#32)) 0#32) = 1#1
/-- The tile is the last of its row of twelve: the second grid coordinate is 11. -/
abbrev atLast (i : grid1.Coords) : Prop := k1_cond2 i = 1#1

/-- Of the 24 tiles, the first of a row are those numbered 0 and 12, -/
theorem atFirst_iff : ∀ t : Fin cfg1.N, atFirst (grid1.coords t) ↔ t.val % 12 = 0 :=
  (by decide +kernel : ∀ t : Fin grid1.N, atFirst (grid1.coords t) ↔ t.val % 12 = 0)
/-- and the last those numbered 11 and 23. -/
theorem atLast_iff : ∀ t : Fin cfg1.N, atLast (grid1.coords t) ↔ t.val % 12 = 11 :=
  (by decide +kernel : ∀ t : Fin grid1.N, atLast (grid1.coords t) ↔ t.val % 12 = 11)

set_option maxHeartbeats 4000000 in
/-- A middle tile: from the six input blocks at `x0 … x5`, the result's buffer at `xo` and the running column of
    row sums at `xs`, the body runs to the end with the inputs and the result's buffer as they were and the
    running column overwritten whole; what it is overwritten with is the list of pieces the run ends with. -/
noncomputable def midTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : ¬atFirst i) (hc1 : ¬atLast i)
    (x0 x1 x2 x3 : Vec F S64x8192 .f32) (x4 : Vec F S64x1 .f32) (x5 : Vec F S64x64 .f32) (xs : Vec F S64x1 .f32) :
    { LS : List (View.Piece (Elt F) S64x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, fun xo E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfo; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; isplitr; · ipureintro; exact harg8.read_unread _
      iexact Ho
    iexists _; iexact HS

end Cert.Kernel.LossTile

end
-- ==== Proof.BitsLossTileFirst.lean ====
/-
  The loss kernel's body on the first tile of a row of twelve: the running column of row sums is set to zero
  before the tile's row sums are added to it, so whatever it held before does not matter.
-/
import proofs.«124021_j68367289418164_2_alg».proof.Proof.BitsLossTileMid

set_option maxRecDepth 16384

noncomputable section

namespace Cert.Kernel.LossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row: from the six input blocks at `x0 … x5`, the result's buffer at `xo` and the running
    column at anything, the body runs to the end with the inputs and the result's buffer as they were and the
    running column overwritten whole (first by zeros, then by zeros plus the tile's row sums): the pieces the
    run ends with say by what. -/
noncomputable def firstTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : atFirst i) (hc1 : ¬atLast i)
    (x0 x1 x2 x3 : Vec F S64x8192 .f32) (x4 : Vec F S64x1 .f32) (x5 : Vec F S64x64 .f32) :
    { LS : List (View.Piece (Elt F) S64x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, fun xo E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; isplitr; · ipureintro; exact harg8.read_unread _
      iexact Ho
    iexists _; iexact HS

end Cert.Kernel.LossTile

end
-- ==== Proof.BitsLossTileLast.lean ====
/-
  The loss kernel's body on the last tile of a row of twelve: after the tile's row sums are added to the running
  column, the column's 64 entries are summed to the one number the row of tiles contributes, and that number is
  stored over the result's one-entry buffer (which is read first, and whose old contents do not matter).
-/
import proofs.«124021_j68367289418164_2_alg».proof.Proof.BitsLossTileMid

set_option maxRecDepth 16384

noncomputable section

namespace Cert.Kernel.LossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row: from the six input blocks at `x0 … x5`, the result's buffer at anything and the running
    column at `xs`, the body runs to the end with the inputs as they were, the running column overwritten whole
    and the result's buffer overwritten whole: the two lists of pieces the run ends with say by what. -/
noncomputable def lastTile (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole)
    (hc0 : ¬atFirst i) (hc1 : atLast i)
    (x0 x1 x2 x3 : Vec F S64x8192 .f32) (x4 : Vec F S64x1 .f32) (x5 : Vec F S64x64 .f32) (xs : Vec F S64x1 .f32) :
    Σ' (LO : List (View.Piece (Elt F) S1x1x1 .f32)), { LS : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, ?_, fun E K => ?run⟩
  case run =>
    simp only [cc1__mix_loss_kernel_eq_skeleton]; unfold cc1__mix_loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Ho]
    · iexists _; iexact Ho
    iexists _; iexact HS

end Cert.Kernel.LossTile

end
-- ==== Proof.BitsLossRegion.lean ====
/-
  The loss kernel over its 24 tiles (two rows of twelve), tile after tile.

  Between tiles the kernel keeps one column of 64 running row sums.  The first tile of a row starts it from zero,
  every tile adds its own 64 row sums to it, and the last tile of a row sums the column's 64 entries into the one
  number that row of tiles contributes, which is the only time the result's buffer is written.  This module says
  what the running column and the result's buffer hold after each tile, by recursion on the tile's number, states
  the invariant that carries the column from one tile to the next, and shows that the body, started from the
  invariant before a tile with every input block in place, ends in the invariant after it.
-/
import proofs.«124021_j68367289418164_2_alg».proof.Proof.BitsLossTileFirst
import proofs.«124021_j68367289418164_2_alg».proof.Proof.BitsLossTileLast

set_option maxRecDepth 16384

noncomputable section

namespace Cert.Kernel.LossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers a tile's body is run on -/

abbrev sm_0 (t : Fin cfg1.N) : Memref sig .tc .vmem S64x8192 .f32 := win1_0.stage (cfg1.slots t 0)
abbrev sh_0 (t : Fin cfg1.N) : (sm_0 t).IsWhole := hstage1_0 ((cfg1.slots t 0).cast nbuf1_0)
abbrev sm_1 (t : Fin cfg1.N) : Memref sig .tc .vmem S64x8192 .f32 := win1_1.stage (cfg1.slots t 1)
abbrev sh_1 (t : Fin cfg1.N) : (sm_1 t).IsWhole := hstage1_1 ((cfg1.slots t 1).cast nbuf1_1)
abbrev sm_2 (t : Fin cfg1.N) : Memref sig .tc .vmem S64x8192 .f32 := win1_2.stage (cfg1.slots t 2)
abbrev sh_2 (t : Fin cfg1.N) : (sm_2 t).IsWhole := hstage1_2 ((cfg1.slots t 2).cast nbuf1_2)
abbrev sm_3 (t : Fin cfg1.N) : Memref sig .tc .vmem S64x8192 .f32 := win1_3.stage (cfg1.slots t 3)
abbrev sh_3 (t : Fin cfg1.N) : (sm_3 t).IsWhole := hstage1_3 ((cfg1.slots t 3).cast nbuf1_3)
abbrev sm_4 (t : Fin cfg1.N) : Memref sig .tc .vmem S64x1 .f32 := win1_4.stage (cfg1.slots t 4)
abbrev sh_4 (t : Fin cfg1.N) : (sm_4 t).IsWhole := hstage1_4 ((cfg1.slots t 4).cast nbuf1_4)
abbrev sm_5 (t : Fin cfg1.N) : Memref sig .tc .vmem S64x64 .f32 := win1_5.stage (cfg1.slots t 5)
abbrev sh_5 (t : Fin cfg1.N) : (sm_5 t).IsWhole := hstage1_5 ((cfg1.slots t 5).cast nbuf1_5)
abbrev sm_6 (t : Fin cfg1.N) : Memref sig .tc .vmem S1x1x1 .f32 := win1_6.stage (cfg1.slots t 6)
abbrev sh_6 (t : Fin cfg1.N) : (sm_6 t).IsWhole := hstage1_6 ((cfg1.slots t 6).cast nbuf1_6)
/-- The running column of row sums: a whole buffer of the kernel's own. -/
abbrev colMem : Memref sig .tc .vmem S64x1 .f32 := Memref.whole cc1_scratch0
abbrev colView : View sig .tc .vmem S64x1 .f32 := colMem.view
/-- One of the result's two one-entry buffers, through which its contents are stated (either would do). -/
abbrev outView : View sig .tc .vmem S1x1x1 .f32 := (Memref.whole cc1_stg6_0 : Memref sig .tc .vmem S1x1x1 .f32).view

/-- The last tile of a row is the only one at which the result's window is live, and the only one written back. -/
theorem live_last : ∀ t : Fin cfg1.N, atLast (grid1.coords t) → cfg1.idle 6 (grid1.coords t) = false := by decide +kernel
theorem idle_notLast : ∀ t : Fin cfg1.N, ¬atLast (grid1.coords t) → cfg1.idle 6 (grid1.coords t) = true := by decide +kernel
theorem noFlush_notLast : ∀ t : Fin cfg1.N, ¬atLast (grid1.coords t) → (cfg1.win 6).flush t = false := by decide +kernel
/-- The six inputs are live at every tile. -/
theorem live_in : ∀ (w : Fin 6) (t : Fin cfg1.N), cfg1.idle (w.castSucc) (grid1.coords t) = false := by decide +kernel

/-! ## What each kind of tile leaves -/

/-- The pieces a first tile ends with cover the running column, -/
theorem firstTile_cover (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : atFirst i) (hc1 : ¬atLast i) (x0 x1 x2 x3 : Vec F S64x8192 .f32) (x4 : Vec F S64x1 .f32) (x5 : Vec F S64x64 .f32) (y : S64x1.Idx) :
    ∃ pc ∈ (firstTile c i arg2 harg2 arg3 harg3 arg4 harg4 arg5 harg5 arg6 harg6 arg7 harg7 arg8 harg8 arg9 harg9 hc0 hc1 x0 x1 x2 x3 x4 x5).1, y ∈ pc.1.set :=
  View.cover_of_tiledL (firstTile c i arg2 harg2 arg3 harg3 arg4 harg4 arg5 harg5 arg6 harg6 arg7 harg7 arg8 harg8 arg9 harg9 hc0 hc1 x0 x1 x2 x3 x4 x5).1 S64x1.size (by sl_kernel_rfl) y
/-- so do a middle tile's, -/
theorem midTile_cover (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : ¬atLast i) (x0 x1 x2 x3 : Vec F S64x8192 .f32) (x4 : Vec F S64x1 .f32) (x5 : Vec F S64x64 .f32) (xs : Vec F S64x1 .f32) (y : S64x1.Idx) :
    ∃ pc ∈ (midTile c i arg2 harg2 arg3 harg3 arg4 harg4 arg5 harg5 arg6 harg6 arg7 harg7 arg8 harg8 arg9 harg9 hc0 hc1 x0 x1 x2 x3 x4 x5 xs).1, y ∈ pc.1.set :=
  View.cover_of_tiledL (midTile c i arg2 harg2 arg3 harg3 arg4 harg4 arg5 harg5 arg6 harg6 arg7 harg7 arg8 harg8 arg9 harg9 hc0 hc1 x0 x1 x2 x3 x4 x5 xs).1 S64x1.size (by sl_kernel_rfl) y
/-- and a last tile's; -/
theorem lastTile_cover_col (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) (y : S64x1.Idx) :
    ∃ pc ∈ (lastTile c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (lastTile c i arg2 harg2 arg3 harg3 arg4 harg4 arg5 harg5 arg6 harg6 arg7 harg7 arg8 harg8 arg9 harg9 hc0 hc1 x0 x1 x2 x3 x4 x5 xs).2.1 S64x1.size (by sl_kernel_rfl) y
/-- a last tile's pieces for the result's buffer cover its one entry. -/
theorem lastTile_cover_out (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) (y : S1x1x1.Idx) :
    ∃ pc ∈ (lastTile c i arg2 harg2 arg3 harg3 arg4 harg4 arg5 harg5 arg6 harg6 arg7 harg7 arg8 harg8 arg9 harg9 hc0 hc1 x0 x1 x2 x3 x4 x5 xs).1, y ∈ pc.1.set :=
  View.cover_of_tiledL (lastTile c i arg2 harg2 arg3 harg3 arg4 harg4 arg5 harg5 arg6 harg6 arg7 harg7 arg8 harg8 arg9 harg9 hc0 hc1 x0 x1 x2 x3 x4 x5 xs).1 S1x1x1.size (by sl_kernel_rfl) y

/-- The running column after a first tile: its pieces read back. -/
def colAfterFirst (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : atFirst i) (hc1 : ¬atLast i) (x0 x1 x2 x3 : Vec F S64x8192 .f32) (x4 : Vec F S64x1 .f32) (x5 : Vec F S64x64 .f32) : Vec F S64x1 .f32 :=
  colView.read (Elt F) (colView.writes (Elt F) colView.junk (firstTile c i arg2 harg2 arg3 harg3 arg4 harg4 arg5 harg5 arg6 harg6 arg7 harg7 arg8 harg8 arg9 harg9 hc0 hc1 x0 x1 x2 x3 x4 x5).1)
/-- After a middle tile, from what the tile before left in it. -/
def colAfterMid (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : ¬atLast i) (x0 x1 x2 x3 : Vec F S64x8192 .f32) (x4 : Vec F S64x1 .f32) (x5 : Vec F S64x64 .f32) (xs : Vec F S64x1 .f32) : Vec F S64x1 .f32 :=
  colView.read (Elt F) (colView.writes (Elt F) colView.junk (midTile c i arg2 harg2 arg3 harg3 arg4 harg4 arg5 harg5 arg6 harg6 arg7 harg7 arg8 harg8 arg9 harg9 hc0 hc1 x0 x1 x2 x3 x4 x5 xs).1)
/-- After a last tile. -/
def colAfterLast (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) : Vec F S64x1 .f32 :=
  colView.read (Elt F) (colView.writes (Elt F) colView.junk (lastTile c i arg2 harg2 arg3 harg3 arg4 harg4 arg5 harg5 arg6 harg6 arg7 harg7 arg8 harg8 arg9 harg9 hc0 hc1 x0 x1 x2 x3 x4 x5 xs).2.1)
/-- The result's one entry after a last tile. -/
def outAfterLast (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) : Vec F S1x1x1 .f32 :=
  outView.read (Elt F) (outView.writes (Elt F) outView.junk (lastTile c i arg2 harg2 arg3 harg3 arg4 harg4 arg5 harg5 arg6 harg6 arg7 harg7 arg8 harg8 arg9 harg9 hc0 hc1 x0 x1 x2 x3 x4 x5 xs).1)
/-- Away from a last tile the result's buffer is not written, not written back and not read at the next tile:
    nothing consults what is said of it there. -/
def outUnwritten : Vec F S1x1x1 .f32 := outView.read (Elt F) outView.junk

-- the entry contents of the region's arrays: the parameter the region is stated at
variable (V : (c : Dev nD) → (b : Ref sig .tc) → Buf (Elt F) ((c : Thread nD τ).loc b))

/-- Window `w`'s block at tile `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Tile after tile -/

/-- What the result's buffer and the running column hold after tile `n`: a first tile's column from nothing, a
    middle or last tile's from the column the tile before left. No tile is both first and last of its row. -/
def accAt (c : Dev nD) : (n : ℕ) → n < cfg1.N → Vec F S1x1x1 .f32 × Vec F S64x1 .f32
  | 0, hn => (outUnwritten, colAfterFirst c (grid1.coords ⟨0, hn⟩) (sm_0 ⟨0, hn⟩) (sh_0 ⟨0, hn⟩) (sm_1 ⟨0, hn⟩) (sh_1 ⟨0, hn⟩) (sm_2 ⟨0, hn⟩) (sh_2 ⟨0, hn⟩) (sm_3 ⟨0, hn⟩) (sh_3 ⟨0, hn⟩) (sm_4 ⟨0, hn⟩) (sh_4 ⟨0, hn⟩) (sm_5 ⟨0, hn⟩) (sh_5 ⟨0, hn⟩) (sm_6 ⟨0, hn⟩) (sh_6 ⟨0, hn⟩) colMem (Memref.isWhole_whole _) ((atFirst_iff ⟨0, hn⟩).mpr (Nat.zero_mod _)) (fun h => (fun h => by (try dsimp only at h); omega) ((atLast_iff ⟨0, hn⟩).mp h)) (blk V c 0 ⟨0, hn⟩) (blk V c 1 ⟨0, hn⟩) (blk V c 2 ⟨0, hn⟩) (blk V c 3 ⟨0, hn⟩) (blk V c 4 ⟨0, hn⟩) (blk V c 5 ⟨0, hn⟩))
  | n + 1, hn =>
    if h0 : (n + 1) % 12 = 0 then
      if h1 : (n + 1) % 12 = 11 then False.elim (by omega)
      else (outUnwritten, colAfterFirst c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) ((atFirst_iff ⟨n + 1, hn⟩).mpr h0) (fun h => h1 ((atLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩))
    else
      if h1 : (n + 1) % 12 = 11 then
        (outAfterLast c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2,
         colAfterLast c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2)
      else
        (outUnwritten, colAfterMid c (grid1.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) (sm_6 ⟨n + 1, hn⟩) (sh_6 ⟨n + 1, hn⟩) colMem (Memref.isWhole_whole _) (fun h => h0 ((atFirst_iff ⟨n + 1, hn⟩).mp h)) (fun h => h1 ((atLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn)).2)

/-- `accAt` at a first tile. -/
theorem accAt_first (c : Dev nD) (t : Fin cfg1.N) (h0 : t.val % 12 = 0) (h1 : ¬t.val % 12 = 11) :
    accAt V c t.val t.isLt = (outUnwritten, colAfterFirst c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) ((atFirst_iff t).mpr h0) (fun h => h1 ((atLast_iff t).mp h)) (blk V c 0 t) (blk V c 1 t) (blk V c 2 t) (blk V c 3 t) (blk V c 4 t) (blk V c 5 t)) := by
  obtain ⟨n, hn⟩ := t
  cases n with
  | zero => exact rfl
  | succ n => exact (dif_pos h0).trans ((dif_neg h1).trans rfl)

/-- `accAt` at a middle tile, over what the tile before left. -/
theorem accAt_mid (c : Dev nD) (t : Fin cfg1.N) (h0 : ¬t.val % 12 = 0) (h1 : ¬t.val % 12 = 11) :
    accAt V c t.val t.isLt = (outUnwritten, colAfterMid c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) (fun h => h1 ((atLast_iff t).mp h)) (blk V c 0 t) (blk V c 1 t) (blk V c 2 t) (blk V c 3 t) (blk V c 4 t) (blk V c 5 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a last tile, over what the tile before left. -/
theorem accAt_last (c : Dev nD) (t : Fin cfg1.N) (h0 : ¬t.val % 12 = 0) (h1 : t.val % 12 = 11) :
    accAt V c t.val t.isLt = (outAfterLast c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) ((atLast_iff t).mpr h1) (blk V c 0 t) (blk V c 1 t) (blk V c 2 t) (blk V c 3 t) (blk V c 4 t) (blk V c 5 t) (accAt V c (t.val - 1) (Nat.lt_of_le_of_lt (Nat.sub_le _ _) t.isLt)).2,
      colAfterLast c (grid1.coords t) (sm_0 t) (sh_0 t) (sm_1 t) (sh_1 t) (sm_2 t) (sh_2 t) (sm_3 t) (sh_3 t) (sm_4 t) (sh_4 t) (sm_5 t) (sh_5 t) (sm_6 t) (sh_6 t) colMem (Memref.isWhole_whole _) (fun h => h0 ((atFirst_iff t).mp h)) ((atLast_iff t).mpr h1) (blk V c 0 t) (blk V c 1 t) (blk V c 2 t) (blk V c 3 t) (blk V c 4 t) (blk V c 5 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between tiles -/

/-- Before the first tile: every scoped buffer no window of this region stages (the other region's buffers and
    this region's running column) at anything, and the generator register at some state. After tile `n`: the same,
    with the running column at what tile `n` left in it. -/
def carried (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c n hn).2)) ∗ (∃ r, prngReg c r))

theorem atEntry_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) colMem fullShare d)) ∗ (∃ r, prngReg c r)) := by
  unfold Pipeline.ΦA; rw [scopedRest1_eq]; simp only [colMem, owns_whole]; try rfl

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c n hn).2)) ∗ (∃ r, prngReg c r)) := rfl
theorem carried_pos (c : Dev nD) (n : ℕ) (h : n ≤ cfg1.N) (hz : n ≠ 0) :
    carried V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) colMem fullShare ((accAt V c (n - 1) (by omega)).2)) ∗ (∃ r, prngReg c r)) := by
  cases n with
  | zero => exact absurd rfl hz
  | succ n => rfl

/-! ## The proof data -/

/-- On core `c`: the arrays as the region finds them; after a tile each input's buffer at its block and the
    result's at `accAt`; the invariant `carried`; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (accAt V c t.val t.isLt).1
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem carried_castSucc (c : Dev nD) (t : Fin cfg1.N) :
    (dat1 V c).Φ t.castSucc = carried V c t.val (Nat.le_of_lt t.isLt) := by
  dsimp only [dat1]; simp only [Fin.coe_castSucc]
theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) : (dat1 V c).after 4 t = blk V c 4 t := by dsimp only [dat1]
theorem after1_5 (c : Dev nD) (t : Fin cfg1.N) : (dat1 V c).after 5 t = blk V c 5 t := by dsimp only [dat1]
theorem after1_6 (c : Dev nD) (t : Fin cfg1.N) : (dat1 V c).after 6 t = (accAt V c t.val t.isLt).1 := by dsimp only [dat1]

/-- Each input's current buffer holds its block at every tile, fetched there or not: where it is not fetched its
    block index has not moved. -/
theorem before1_0 (c : Dev nD) (t : Fin cfg1.N) (d) : (dat1 V c).before 0 t d = blk V c 0 t :=
  ((dat1 V c).before_in_eq_fetched 0 rfl (fun _ => rfl) (fun _ _ _ => rfl) (fun t => by rw [after1_0]; unfold Dat.blockOf blk; rw [A_eq1]; try rfl) t d).trans
    (by unfold Dat.fetched Dat.blockOf blk; rw [A_eq1]; try rfl)
theorem before1_1 (c : Dev nD) (t : Fin cfg1.N) (d) : (dat1 V c).before 1 t d = blk V c 1 t :=
  ((dat1 V c).before_in_eq_fetched 1 rfl (fun _ => rfl) (fun _ _ _ => rfl) (fun t => by rw [after1_1]; unfold Dat.blockOf blk; rw [A_eq1]; try rfl) t d).trans
    (by unfold Dat.fetched Dat.blockOf blk; rw [A_eq1]; try rfl)
theorem before1_2 (c : Dev nD) (t : Fin cfg1.N) (d) : (dat1 V c).before 2 t d = blk V c 2 t :=
  ((dat1 V c).before_in_eq_fetched 2 rfl (fun _ => rfl) (fun _ _ _ => rfl) (fun t => by rw [after1_2]; unfold Dat.blockOf blk; rw [A_eq1]; try rfl) t d).trans
    (by unfold Dat.fetched Dat.blockOf blk; rw [A_eq1]; try rfl)
theorem before1_3 (c : Dev nD) (t : Fin cfg1.N) (d) : (dat1 V c).before 3 t d = blk V c 3 t :=
  ((dat1 V c).before_in_eq_fetched 3 rfl (fun _ => rfl) (fun _ _ _ => rfl) (fun t => by rw [after1_3]; unfold Dat.blockOf blk; rw [A_eq1]; try rfl) t d).trans
    (by unfold Dat.fetched Dat.blockOf blk; rw [A_eq1]; try rfl)
theorem before1_4 (c : Dev nD) (t : Fin cfg1.N) (d) : (dat1 V c).before 4 t d = blk V c 4 t :=
  ((dat1 V c).before_in_eq_fetched 4 rfl (fun _ => rfl) (fun _ _ _ => rfl) (fun t => by rw [after1_4]; unfold Dat.blockOf blk; rw [A_eq1]; try rfl) t d).trans
    (by unfold Dat.fetched Dat.blockOf blk; rw [A_eq1]; try rfl)
theorem before1_5 (c : Dev nD) (t : Fin cfg1.N) (d) : (dat1 V c).before 5 t d = blk V c 5 t :=
  ((dat1 V c).before_in_eq_fetched 5 rfl (fun _ => rfl) (fun _ _ _ => rfl) (fun t => by rw [after1_5]; unfold Dat.blockOf blk; rw [A_eq1]; try rfl) t d).trans
    (by unfold Dat.fetched Dat.blockOf blk; rw [A_eq1]; try rfl)

end Cert.Kernel.LossTile

end
-- ==== Proof.BitsLossBody.lean ====
/-
  One tile of the loss kernel, started from the invariant before it with every input block in its buffer, ends in
  the invariant after it: by cases on whether the tile is the first, the last, or neither of its row of twelve.
-/
import proofs.«124021_j68367289418164_2_alg».proof.Proof.BitsLossRegion

set_option maxRecDepth 16384

noncomputable section

namespace Cert.Kernel.LossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each of the six input windows is live at every tile. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-- What a tile's body is started from, the windows one by one, -/
def tilePre (c : Dev nD) (t : Fin cfg1.N) : sProp 𝕄 :=
  iprop((dat1 V c).Φ t.castSucc ∗ (dat1 V c).owesAt () t.castSucc
    ∗ (∃ d, owns (c : Thread nD τ) (sm_0 t) fullShare ((dat1 V c).before 0 t d))
    ∗ (∃ d, owns (c : Thread nD τ) (sm_1 t) fullShare ((dat1 V c).before 1 t d))
    ∗ (∃ d, owns (c : Thread nD τ) (sm_2 t) fullShare ((dat1 V c).before 2 t d))
    ∗ (∃ d, owns (c : Thread nD τ) (sm_3 t) fullShare ((dat1 V c).before 3 t d))
    ∗ (∃ d, owns (c : Thread nD τ) (sm_4 t) fullShare ((dat1 V c).before 4 t d))
    ∗ (∃ d, owns (c : Thread nD τ) (sm_5 t) fullShare ((dat1 V c).before 5 t d))
    ∗ (∃ d, owns (c : Thread nD τ) (sm_6 t) fullShare ((dat1 V c).before 6 t d)))

/-- and what it ends in. -/
def tilePost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any tile. The inputs' buffers hold their blocks; the tile's number says which kind of tile it is;
    the invariant hands the body the running column at what the tile before left (at anything before the very
    first tile), and takes it back at what this tile leaves; the result's buffer is handed back as found except at
    a last tile, where it is overwritten; the core owes nothing throughout. -/
theorem tile_sound (c : Dev nD) (t : Fin cfg1.N) :
    tilePre V c t ⊢ wp frame (wpE (defs₀ (F := F)) Variants.none c none) Set.univ (bodyAt1 t) (fun _ => tilePost V c t) := by
  unfold tilePre tilePost bodyAt1
  simp only [before1_0, before1_1, before1_2, before1_3, before1_4, before1_5]
  rw [show (dat1 V c).owesAt () t.succ = (dat1 V c).owesAt () t.castSucc from rfl]
  rw [show (dat1 V c).Φ t.succ = carried V c (t.val + 1) t.isLt from rfl, carried_succ]
  have hN : t.val < 24 := lt_of_lt_of_eq t.isLt (show cfg1.N = 24 from N_1)
  rw [show (dat1 V c).leavesExact 0 t = owns (c : Thread nD τ) (sm_0 t) fullShare ((dat1 V c).after 0 t) from by
    unfold Dat.leavesExact; rw [live1_0 t], after1_0]
  rw [show (dat1 V c).leavesExact 1 t = owns (c : Thread nD τ) (sm_1 t) fullShare ((dat1 V c).after 1 t) from by
    unfold Dat.leavesExact; rw [live1_1 t], after1_1]
  rw [show (dat1 V c).leavesExact 2 t = owns (c : Thread nD τ) (sm_2 t) fullShare ((dat1 V c).after 2 t) from by
    unfold Dat.leavesExact; rw [live1_2 t], after1_2]
  rw [show (dat1 V c).leavesExact 3 t = owns (c : Thread nD τ) (sm_3 t) fullShare ((dat1 V c).after 3 t) from by
    unfold Dat.leavesExact; rw [live1_3 t], after1_3]
  rw [show (dat1 V c).leavesExact 4 t = owns (c : Thread nD τ) (sm_4 t) fullShare ((dat1 V c).after 4 t) from by
    unfold Dat.leavesExact; rw [live1_4 t], after1_4]
  rw [show (dat1 V c).leavesExact 5 t = owns (c : Thread nD τ) (sm_5 t) fullShare ((dat1 V c).after 5 t) from by
    unfold Dat.leavesExact; rw [live1_5 t], after1_5]
  by_cases h0 : t.val % 12 = 0
  · have h1 : ¬t.val % 12 = 11 := by omega
    rw [Dat.leavesExact_idle (dat1 V c) 6 t (idle_notLast t (fun h => h1 ((atLast_iff t).mp h))) (noFlush_notLast t (fun h => h1 ((atLast_iff t).mp h)))]
    rw [accAt_first V c t h0 h1]
    unfold colAfterFirst; (try dsimp only)
    by_cases hz : t.val = 0
    · rw [carried_castSucc V c t, carried_zero V c _ _ hz, atEntry_eq]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstTile c (grid1.coords t) _ _ _ _ _ _ _ _ _ _ _ _ _ _ _ _ ((atFirst_iff t).mpr h0) (fun h => h1 ((atLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (firstTile_cover c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((firstTile c (grid1.coords t) _ _ _ _ _ _ _ _ _ _ _ _ _ _ _ _ ((atFirst_iff t).mpr h0) (fun h => h1 ((atLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (firstTile_cover c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 12 = 11
    · rw [show (dat1 V c).leavesExact 6 t = owns (c : Thread nD τ) (sm_6 t) fullShare ((dat1 V c).after 6 t) from by
        unfold Dat.leavesExact; rw [live_last t ((atLast_iff t).mpr h1)], after1_6]
      rw [accAt_last V c t h0 h1]
      unfold outAfterLast colAfterLast; (try dsimp only)
      rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((lastTile c (grid1.coords t) _ _ _ _ _ _ _ _ _ _ _ _ _ _ _ _ (fun h => h0 ((atFirst_iff t).mp h)) ((atLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (lastTile_cover_col c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lastTile_cover_out c _ _ _ _ _ _ _ _ _ _ _ _ _ _ _ _ _ _ _ _ _ _ _ _ _ _)
    · rw [Dat.leavesExact_idle (dat1 V c) 6 t (idle_notLast t (fun h => h1 ((atLast_iff t).mp h))) (noFlush_notLast t (fun h => h1 ((atLast_iff t).mp h)))]
      rw [accAt_mid V c t h0 h1]
      unfold colAfterMid; (try dsimp only)
      rw [carried_castSucc V c t, carried_pos V c _ _ hz]
      iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((midTile c (grid1.coords t) _ _ _ _ _ _ _ _ _ _ _ _ _ _ _ _ (fun h => h0 ((atFirst_iff t).mp h)) (fun h => h1 ((atLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 R5 R6 R7 R8 R9 R10 R11 R12 R13 HS Hg]
      · isplitl [R0 R1 R2 R3 R4 R5 R6 R7 R8 R9 R10 R11 R12 R13 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          unfold owns; iexists _; isplitr
          swap; · iexact HS
          ipureintro; exact View.read_writes_of_cover _ _ _ _ _ (midTile_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of region 1 at every tile. -/
theorem body_obligation1 (c : Dev nD) : BodyObligation (dat1 (F := F) V c) (defs₀ (F := F)) Variants.none () Set.univ := fun t => by
  rw [bigSep_W1, bigSep_W1]
  exact tile_sound V c t

/-- What the launch hands the region is the invariant before the first tile. -/
theorem enter1 (c : Dev nD) : Pipeline.ΦA spec1 c ⊢ (dat1 V c).Φ 0 := by
  rw [show (dat1 V c).Φ 0 = carried V c 0 (Nat.zero_le _) from rfl, carried_zero V c 0 _ rfl]
  try exact Idealize.SL.BI.Entails.refl _

/-- After the last tile the invariant gives back what the launch handed in: what the running column holds is
    forgotten. -/
theorem leave1 (c : Dev nD) : (dat1 V c).Φ (Fin.last cfg1.N) ⊢ Pipeline.ΦA spec1 c := by
  have hne : (Fin.last cfg1.N).val ≠ 0 := by rw [Fin.val_last]; have : cfg1.N = 24 := N_1; omega
  rw [show (dat1 V c).Φ (Fin.last cfg1.N) = carried V c (Fin.last cfg1.N).val (Nat.le_of_lt_succ (Fin.last cfg1.N).isLt) from rfl,
    carried_pos V c _ _ hne, atEntry_eq]
  iintro ⟨⟨R0, R1, R2, R3, R4, R5, R6, R7, R8, R9, R10, R11, R12, R13, HS⟩, Hg⟩
  isplitl [R0 R1 R2 R3 R4 R5 R6 R7 R8 R9 R10 R11 R12 R13 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists _; iexact HS
  iexact Hg

end Cert.Kernel.LossTile

end
-- ==== Proof.BitsWholeRun.lean ====
/-
  The whole program, from launch to return: three stretches of host operations around the two kernel regions.

  Between two items every buffer outside the regions' own holds a known array: the launch contents, then what the
  host operations before the first region compute from them (the four inputs flattened to 64 x 196608, the scaled
  time column), then the first region's three arrays of partial sums written over, then what the host operations
  between the regions compute (the weights), then the second region's array of two partial sums, then the final
  mean.  This module names those contents item by item, states each region as the passage from one to the next,
  and concludes: every execution ends, nothing faults, and every such buffer ends holding the last of them — the
  arguments among them, which nothing writes, and the result.
  It is stated for any proof data of the first region that describes its arrays, its body and its invariant.
-/
import proofs.«124021_j68367289418164_2_alg».proof.Proof.BitsLossBody
import proofs.«124021_j68367289418164_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Whole

open Cert.Kernel
open Cert.Kernel.Gen (cellOf_inj launch0 launch1 main_chain hostOps0 hostOps1 hostOps2 hostOps0_sub hostOps1_sub hostOps2_sub
  hostOps0_fresh hostOps1_fresh hostOps2_fresh hostOps0_writes hostOps1_writes hostOps2_writes hostOps0_W hostOps1_W hostOps2_W)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The contents of the cores' buffers when a region is entered. -/
abbrev EntryOf (G : FTy → Type) : Type := (c : Dev nD) → (b : Ref sig .tc) → Buf (Elt G) ((c : Thread nD τ).loc b)

-- the first region's proof data, at any entry contents, and what is known of it
variable (dat0 : EntryOf F → (c : Dev nD) → Dat τ (Elt F) Unit ℕ (UR sig nD τ) ℕ cfg0 c)
  (hA0 : ∀ (V : EntryOf F) (c : Dev nD) (w : Fin cfg0.W), (dat0 V c).A w = V c (Pipeline.arrRef spec0 w))
  (hq0 : ∀ (V : EntryOf F) (c : Dev nD) (w : Fin cfg0.W), (dat0 V c).q w = fullShare)
  (howed0 : ∀ (V : EntryOf F) (c : Dev nD) (t : Fin (cfg0.N + 1)), (dat0 V c).owed t = 0)
  (hrec0 : ∀ (V : EntryOf F) (c : Dev nD) (t : Fin (cfg0.N + 1)), (dat0 V c).recorded t = Set.univ)
  (hbody0 : ∀ (V : EntryOf F) (c : Dev nD), BodyObligation (dat0 V c) (defs₀ (F := F)) Variants.none () Set.univ)
  (henter0 : ∀ (V : EntryOf F) (c : Dev nD), Pipeline.ΦA spec0 c ⊢ (dat0 V c).Φ 0)
  (hleave0 : ∀ (V : EntryOf F) (c : Dev nD), (dat0 V c).Φ (Fin.last cfg0.N) ⊢ Pipeline.ΦA spec0 c)

variable (m : (ℓ : Loc nD τ sig) → Buf (Elt F) ℓ) (ρ : Dev nD → PrngReg)

/-! ## What the buffers hold between items -/

/-- At launch. -/
abbrev U0 : Dev nD → Valuation τ sig (Elt F) := fun c b => m ((c : Dev nD), b)
/-- After the host operations before the first region. -/
abbrev U1 : Dev nD → Valuation τ sig (Elt F) := fun c => StableHlo.after hostOps0 (U0 m c)
abbrev E1 : EntryOf F := fun c b => U1 m c b
/-- After the first region: its arrays at what it leaves, every other buffer as before. -/
def U2 (c : Dev nD) : Valuation τ sig (Elt F) :=
  Pipeline.withArrays spec0 c (U1 m c) fun w => (dat0 (E1 m) c).arrAt w cfg0.N
theorem U2_arr (c : Dev nD) (w : Fin cfg0.W) :
    U2 dat0 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 dat0 m c (Proc.devRef .tc b) = U1 m c (Proc.devRef .tc b) := by
  unfold U2; exact Pipeline.withArrays_of_ne spec0 c _ _ b hb
abbrev E2 : EntryOf F := fun c b => U2 dat0 m c b
theorem left0 (c : Dev nD) (w : Fin cfg0.W) : (dat0 (E1 m) c).arrAt w cfg0.N = E2 dat0 m c (Pipeline.arrRef spec0 w) :=
  (U2_arr dat0 m c w).symm
theorem kept0 (c : Dev nD) : ∀ b, b ∉ Finset.univ.image (Pipeline.arrRef spec0) → E2 dat0 m c b = E1 m c b :=
  fun b hb => U2_of_ne dat0 m c b fun w e => hb (Finset.mem_image.mpr ⟨w, Finset.mem_univ _, e⟩)
/-- After the host operations between the regions. -/
abbrev U3 : Dev nD → Valuation τ sig (Elt F) := fun c => StableHlo.after hostOps1 (U2 dat0 m c)
abbrev E3 : EntryOf F := fun c b => U3 dat0 m c b
/-- After the second region. -/
def U4 (c : Dev nD) : Valuation τ sig (Elt F) :=
  Pipeline.withArrays spec1 c (U3 dat0 m c) fun w => (LossTile.dat1 (E3 dat0 m) c).arrAt w cfg1.N
theorem U4_arr (c : Dev nD) (w : Fin cfg1.W) :
    U4 dat0 m c (Proc.devRef .tc (Pipeline.arrRef spec1 w)) = (LossTile.dat1 (E3 dat0 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 dat0 m c (Proc.devRef .tc b) = U3 dat0 m c (Proc.devRef .tc b) := by
  unfold U4; exact Pipeline.withArrays_of_ne spec1 c _ _ b hb
abbrev E4 : EntryOf F := fun c b => U4 dat0 m c b
theorem left1 (c : Dev nD) (w : Fin cfg1.W) : (LossTile.dat1 (E3 dat0 m) c).arrAt w cfg1.N = E4 dat0 m c (Pipeline.arrRef spec1 w) :=
  (U4_arr dat0 m c w).symm
theorem kept1 (c : Dev nD) : ∀ b, b ∉ Finset.univ.image (Pipeline.arrRef spec1) → E4 dat0 m c b = E3 dat0 m c b :=
  fun b hb => U4_of_ne dat0 m c b fun w e => hb (Finset.mem_image.mpr ⟨w, Finset.mem_univ _, e⟩)
/-- After the host operations after the second region: at the return. -/
abbrev U5 : Dev nD → Valuation τ sig (Elt F) := fun c => StableHlo.after hostOps2 (U4 dat0 m c)

/-- No item writes an argument: the host operations write only their own results, and no argument is an array of
    either region. -/
theorem U5_arg (c : Dev nD) (a : Ref sig .tc) (h0 : a ∉ hostOps0_W) (h1 : a ∉ hostOps1_W) (h2 : a ∉ hostOps2_W)
    (hr0 : ∀ w, Pipeline.arrRef spec0 w ≠ a) (hr1 : ∀ w, Pipeline.arrRef spec1 w ≠ a) :
    U5 dat0 m c (Proc.devRef .tc a) = m ((c : Thread nD τ).loc a) :=
  calc U5 dat0 m c (Proc.devRef .tc a)
    _ = U4 dat0 m c (Proc.devRef .tc a) := StableHlo.after_of_writes_sub hostOps2 _ hostOps2_writes h2
    _ = U3 dat0 m c (Proc.devRef .tc a) := U4_of_ne dat0 m c a hr1
    _ = U2 dat0 m c (Proc.devRef .tc a) := StableHlo.after_of_writes_sub hostOps1 _ hostOps1_writes h1
    _ = U1 m c (Proc.devRef .tc a) := U2_of_ne dat0 m c a hr0
    _ = U0 m c (Proc.devRef .tc a) := StableHlo.after_of_writes_sub hostOps0 _ hostOps0_writes h0
    _ = m ((c : Thread nD τ).loc a) := rfl

/-! ## The two regions' data together, and what rides beside the buffers -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => LossTile.dat1 (E3 dat0 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- The first region: entered with every buffer at `U1`, left with every buffer at `U2`. Its arrays are taken out of
    the buffers at entry and put back at what the region leaves; the generator register goes into the region's
    invariant and comes back; nothing is owed; the kernel has no semaphore of its own. -/
def item0 : Pipeline.RegionSeg (pcfgs (F := F)) adm (pdats dat0 m) () defs₀ 𝒱₀ L lv 0 where
  win := launch0.win.to₀
  block_pos := launch0.block_pos
  stage_whole := launch0.stage_whole
  K := PEmpty
  osem k := k.elim
  ho := Pipeline.OwnSemFacts.none _
  hbody c := (hbody0 (E1 m) c).loose
  hwaits := Pipeline.hwaits_of_owed_zero _ _ _ _ L lv 0 fun c t => howed0 (E1 m) c t
  pre c := iprop(StableHlo.held (c : Thread nD τ) (Pipeline.ucRefs τ sig) (U1 m c) ∗ Beside c)
  post c := iprop(StableHlo.held (c : Thread nD τ) (Pipeline.ucRefs τ sig) (U2 dat0 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats dat0 m) launch0.win launch0.arr_whole c
      ((pdats dat0 m 0 c).share_full fun w => hq0 (E1 m) c w) (E1 m c) fun w => hA0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 m 0 c).owed 0 = 0 from howed0 (E1 m) c 0]
      icases HO with ⟨%W, HO⟩; iexists W; isplitr
      · ipureintro; intro x _; left
        rw [show (pdats dat0 m 0 c).recorded 0 = Set.univ from hrec0 (E1 m) c 0]; trivial
      iexact HO
    isplitl [Hp]; · iexact Hp
    iexact Hrest
  hin c := by
    refine .trans ?_ (henter0 (E1 m) c)
    unfold Pipeline.ΦA
    iintro ⟨Hp, -, Hr⟩
    isplitl [Hr]; · iexact Hr
    iexact Hp
  hout c := by
    rw [Pipeline.ownSems0_none]
    refine (hleave0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 m) ((pdats dat0 m 0 c).share_full fun w => hq0 (E1 m) c w)
      (E1 m c) (E2 dat0 m c) ((pdats dat0 m 0 c).arrAt · cfg0.N) (left0 dat0 m c) (kept0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 m 0 c).owed (Fin.last _) = 0 from howed0 (E1 m) c _]
    icases HO with ⟨%W, -, HO⟩; iexists W; iexact HO

set_option backward.isDefEq.respectTransparency.types false in
/-- The second region: entered with every buffer at `U3`, left with every buffer at `U4`. -/
def item1 : Pipeline.RegionSeg (pcfgs (F := F)) adm (pdats dat0 m) () defs₀ 𝒱₀ L lv 1 where
  win := launch1.win.to₀
  block_pos := launch1.block_pos
  stage_whole := launch1.stage_whole
  K := PEmpty
  osem k := k.elim
  ho := Pipeline.OwnSemFacts.none _
  hbody c := (LossTile.body_obligation1 (E3 dat0 m) c).loose
  hwaits := Pipeline.hwaits_of_owed_zero _ _ _ _ L lv 1 fun _ _ => rfl
  pre c := iprop(StableHlo.held (c : Thread nD τ) (Pipeline.ucRefs τ sig) (U3 dat0 m c) ∗ Beside c)
  post c := iprop(StableHlo.held (c : Thread nD τ) (Pipeline.ucRefs τ sig) (U4 dat0 m c) ∗ Beside c)
  X c := iprop(∃ r, prngReg c r)
  Y c := iprop(∃ r, prngReg c r)
  Z c := Pipeline.unscopedRest (Ix := Unit) (Name := ℕ) (U := UR sig nD τ) (Lvl := ℕ) spec1 c (E3 dat0 m c)
  hentry c := by
    rw [Pipeline.ownSems0_none]
    have hsplit := Pipeline.arrays_of_unscopedBufs (p := 1) (pcfgs (F := F)) adm (pdats dat0 m) launch1.win launch1.arr_whole c
      ((pdats dat0 m 1 c).share_full fun _ => rfl) (E3 dat0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (LossTile.enter1 (E3 dat0 m) c)
    unfold Pipeline.ΦA
    iintro ⟨Hp, -, Hr⟩
    isplitl [Hr]; · iexact Hr
    iexact Hp
  hout c := by
    rw [Pipeline.ownSems0_none]
    refine (LossTile.leave1 (E3 dat0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 m) ((pdats dat0 m 1 c).share_full fun _ => rfl)
      (E3 dat0 m c) (E4 dat0 m c) ((pdats dat0 m 1 c).arrAt · cfg1.N) (left1 dat0 m c) (kept1 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The program's five items in order. -/
abbrev items : List (Pipeline.Seg (pcfgs (F := F)) adm (pdats dat0 m) () defs₀ 𝒱₀ L lv) :=
  [ .host (hostItem hostOps0 hostOps0_sub hostOps0_fresh (U0 m)),
    .region (item0 dat0 hA0 hq0 howed0 hrec0 hbody0 henter0 hleave0 m),
    .host (hostItem hostOps1 hostOps1_sub hostOps1_fresh (U2 dat0 m)),
    .region (item1 dat0 m),
    .host (hostItem hostOps2 hostOps2_sub hostOps2_fresh (U4 dat0 m)) ]
theorem main_is_items (c : Dev nD) : main (F := F) c = Pipeline.Seg.run (items dat0 hA0 hq0 howed0 hrec0 hbody0 henter0 hleave0 m) :=
  (main_chain c).trans (by chain_rfl)

include hA0 hq0 howed0 hrec0 hbody0 henter0 hleave0 in
set_option backward.isDefEq.respectTransparency.types false in
/-- From any memory with zero counters, every weakly fair execution of the program on the cores ends, nothing
    faults, and every buffer outside the regions' own ends at `U5`. -/
theorem runs_to_U5 : θ_run defs (onTc (τ := τ) (main (F := F))) ⟨m, fun _ => 0, ρ⟩ (fun r => ∀ c : Dev nD,
      ∀ b ∈ Pipeline.ucRefs τ sig, r.2.mem (((c : Thread nD τ)).1, b) = U5 dat0 m c b) :=
  Pipeline.θ_run_regions_kit (pcfgs (F := F)) adm (pdats dat0 m) () cellOf_inj emb₁ defs₀ 𝒱₀ L lv m ρ main
    (items dat0 hA0 hq0 howed0 hrec0 hbody0 henter0 hleave0 m)
    (fun c Q => by rw [main_is_items dat0 hA0 hq0 howed0 hrec0 hbody0 henter0 hleave0 m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Beside c))
    (Tₙ := fun c => iprop(StableHlo.held (c : Thread nD τ) (Pipeline.ucRefs τ sig) (U5 dat0 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (U5 dat0 m c) ∗ Beside c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U5 dat0 m c b)
    (hfin := fun c s' => by
      iintro ⟨⟨Hh, -⟩, HSI⟩
      unfold StableHlo.held
      imodintro
      iapply (pointsTo_read_all (Pipeline.ucRefs τ sig) (fun b => (((c : Thread nD τ)).1, b)) (U5 dat0 m c) s')
      isplitl [Hh] <;> iassumption)
    (hQ := fun s h c => h c)

end Cert.Kernel.Whole

end
-- ==== Proof.BitsCrossTileMid.lean ====
/-
  The cross-statistics kernel's body on one tile of 8192 columns, away from both ends of a row of twelve tiles.

  A tile's body reads the 64 x 8192 blocks of data and of noise and the column of 64 times t, forms the noised
  block  noise + t (data - noise),  and adds to three running sums it keeps between tiles: to the first column
  the 64 row sums of the data block's squares, to the second column the 64 row sums of the noised block's
  squares, and to the 64 x 64 matrix the products of the noised block's rows with the data block's rows, both
  blocks rounded to bfloat16 first.  Away from the first tile the running sums are not reset, and away from
  the last they are not copied into the three results: so the inputs and the three results' buffers come back
  as they were, and each running sum comes back with one whole store over it.
-/
import proofs.«124021_j68367289418164_2_alg».proof.Proof.Gen.Kernel.Launch
import proofs.«124021_j68367289418164_2_alg».proof.Proof.Gen.Kernel.Skeleton
import proofs.«124021_j68367289418164_2_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.CrossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of its row of twelve: the second grid coordinate is 0. -/
abbrev atFirst (i : grid0.Coords) : Prop :=
  (Scalar.cmpi .ne (Scalar.extui (Scalar.cmpi .eq (BitVec.ofNat 32 (i 1).val) 0#32)) 0#32) = 1#1
/-- The tile is the last of its row of twelve: the second grid coordinate is 11. -/
abbrev atLast (i : grid0.Coords) : Prop := k0_cond2 i = 1#1

/-- Of the 24 tiles, the first of a row are those numbered 0 and 12, -/
theorem atFirst_iff : ∀ t : Fin cfg0.N, atFirst (grid0.coords t) ↔ t.val % 12 = 0 :=
  (by decide +kernel : ∀ t : Fin grid0.N, atFirst (grid0.coords t) ↔ t.val % 12 = 0)
/-- and the last those numbered 11 and 23. -/
theorem atLast_iff : ∀ t : Fin cfg0.N, atLast (grid0.coords t) ↔ t.val % 12 = 11 :=
  (by decide +kernel : ∀ t : Fin grid0.N, atLast (grid0.coords t) ↔ t.val % 12 = 11)

set_option maxHeartbeats 4000000 in
/-- A middle tile: from the data and noise blocks at `x0`, `x1`, the column of times at `x2`, the three results'
    buffers at `xo5`, `xo6`, `xo7` and the three running sums at `xs8`, `xs9`, `xs10`, the body runs to the end
    with the inputs and the results' buffers as they were and each running sum overwritten whole; what each is
    overwritten with is the list of pieces the run ends with for it. -/
noncomputable def midTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : ¬atFirst i) (hc1 : ¬atLast i)
    (x0 x1 : Vec F S64x8192 .f32) (x2 : Vec F S64x1 .f32) (xs8 xs9 : Vec F S64x1 .f32) (xs10 : Vec F S64x64 .f32) :
    Σ' (L8 : List (View.Piece (Elt F) S64x1 .f32)) (L9 : List (View.Piece (Elt F) S64x1 .f32)), { L10 : List (View.Piece (Elt F) S64x64 .f32) //
      ∀ (xo5 xo6 : Vec F S1x64x1 .f32) (xo7 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, fun xo5 xo6 xo7 E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.Kernel.CrossTile

end
-- ==== Proof.BitsCrossTileFirst.lean ====
/-
  The cross-statistics kernel's body on the first tile of a row of twelve: the three running sums are set to
  zero before the tile's sums are added to them, so whatever they held before does not matter.
-/
import proofs.«124021_j68367289418164_2_alg».proof.Proof.BitsCrossTileMid

set_option maxRecDepth 16384

noncomputable section

namespace Cert.Kernel.CrossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a row: from the data and noise blocks at `x0`, `x1`, the column of times at `x2`, the three
    results' buffers at `xo5`, `xo6`, `xo7` and the three running sums at anything, the body runs to the end with
    the inputs and the results' buffers as they were and each running sum overwritten whole (first by zeros,
    then by zeros plus the tile's sums): the pieces the run ends with say by what. -/
noncomputable def firstTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : atFirst i) (hc1 : ¬atLast i)
    (x0 x1 : Vec F S64x8192 .f32) (x2 : Vec F S64x1 .f32) :
    Σ' (L8 : List (View.Piece (Elt F) S64x1 .f32)) (L9 : List (View.Piece (Elt F) S64x1 .f32)), { L10 : List (View.Piece (Elt F) S64x64 .f32) //
      ∀ (xo5 xo6 : Vec F S1x64x1 .f32) (xo7 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, fun xo5 xo6 xo7 E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.Kernel.CrossTile

end
-- ==== Proof.BitsCrossTileLast.lean ====
/-
  The cross-statistics kernel's body on the last tile of a row of twelve: after the tile's sums are added to the
  three running sums, each running sum is copied whole over its result's buffer (the two columns as 1 x 64 x 1
  blocks, the matrix as a 1 x 64 x 64 block); each result's buffer is read first, and its old contents do not
  matter.
-/
import proofs.«124021_j68367289418164_2_alg».proof.Proof.BitsCrossTileMid

set_option maxRecDepth 16384

noncomputable section

namespace Cert.Kernel.CrossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a row: from the data and noise blocks at `x0`, `x1`, the column of times at `x2`, the three
    results' buffers at anything and the three running sums at `xs8`, `xs9`, `xs10`, the body runs to the end with
    the inputs as they were, each running sum overwritten whole and each result's buffer overwritten whole: the
    six lists of pieces the run ends with say by what. -/
noncomputable def lastTile (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole)
    (hc0 : ¬atFirst i) (hc1 : atLast i)
    (x0 x1 : Vec F S64x8192 .f32) (x2 : Vec F S64x1 .f32) (xs8 xs9 : Vec F S64x1 .f32) (xs10 : Vec F S64x64 .f32) :
    Σ' (L5 : List (View.Piece (Elt F) S1x64x1 .f32)) (L6 : List (View.Piece (Elt F) S1x64x1 .f32)) (L7 : List (View.Piece (Elt F) S1x64x64 .f32)) (L8 : List (View.Piece (Elt F) S64x1 .f32)) (L9 : List (View.Piece (Elt F) S64x1 .f32)), { L10 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__cross_kernel_eq_skeleton]; unfold cc0__cross_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

end Cert.Kernel.CrossTile

end
-- ==== Proof.BitsCrossRegion.lean ====
/-
  The cross-statistics kernel over its 24 tiles (two rows of twelve), tile after tile.

  Between tiles the kernel keeps three running sums: a column of 64 row sums of the data's squares, a column of 64
  row sums of the noised data's squares, and a 64 x 64 matrix of the noised rows against the data rows.  The
  first tile of a row starts the three from zero, every tile adds its own sums to them, and the last tile of a
  row copies the three into that row's three results, which is the only time the results' buffers are written.
  This module says what the running sums and the results' buffers hold after each tile, by recursion on the
  tile's number, states the invariant that carries the running sums from one tile to the next, and gives the
  data the region's run is stated over.
-/
import proofs.«124021_j68367289418164_2_alg».proof.Proof.BitsCrossTileFirst
import proofs.«124021_j68367289418164_2_alg».proof.Proof.BitsCrossTileLast

set_option maxRecDepth 16384

noncomputable section

namespace Cert.Kernel.CrossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers a tile's body is run on -/

abbrev sm_0 (t : Fin cfg0.N) : Memref sig .tc .vmem S64x8192 .f32 := win0_0.stage (cfg0.slots t 0)
abbrev sh_0 (t : Fin cfg0.N) : (sm_0 t).IsWhole := hstage0_0 ((cfg0.slots t 0).cast nbuf0_0)
abbrev sm_1 (t : Fin cfg0.N) : Memref sig .tc .vmem S64x8192 .f32 := win0_1.stage (cfg0.slots t 1)
abbrev sh_1 (t : Fin cfg0.N) : (sm_1 t).IsWhole := hstage0_1 ((cfg0.slots t 1).cast nbuf0_1)
abbrev sm_2 (t : Fin cfg0.N) : Memref sig .tc .vmem S64x1 .f32 := win0_2.stage (cfg0.slots t 2)
abbrev sh_2 (t : Fin cfg0.N) : (sm_2 t).IsWhole := hstage0_2 ((cfg0.slots t 2).cast nbuf0_2)
abbrev sm_3 (t : Fin cfg0.N) : Memref sig .tc .vmem S1x64x1 .f32 := win0_3.stage (cfg0.slots t 3)
abbrev sh_3 (t : Fin cfg0.N) : (sm_3 t).IsWhole := hstage0_3 ((cfg0.slots t 3).cast nbuf0_3)
abbrev sm_4 (t : Fin cfg0.N) : Memref sig .tc .vmem S1x64x1 .f32 := win0_4.stage (cfg0.slots t 4)
abbrev sh_4 (t : Fin cfg0.N) : (sm_4 t).IsWhole := hstage0_4 ((cfg0.slots t 4).cast nbuf0_4)
abbrev sm_5 (t : Fin cfg0.N) : Memref sig .tc .vmem S1x64x64 .f32 := win0_5.stage (cfg0.slots t 5)
abbrev sh_5 (t : Fin cfg0.N) : (sm_5 t).IsWhole := hstage0_5 ((cfg0.slots t 5).cast nbuf0_5)
/-- The three running sums: whole buffers of the kernel's own. -/
abbrev d2Mem : Memref sig .tc .vmem S64x1 .f32 := Memref.whole cc0_scratch0
abbrev n2Mem : Memref sig .tc .vmem S64x1 .f32 := Memref.whole cc0_scratch1
abbrev crMem : Memref sig .tc .vmem S64x64 .f32 := Memref.whole cc0_scratch2
abbrev d2View : View sig .tc .vmem S64x1 .f32 := d2Mem.view
abbrev n2View : View sig .tc .vmem S64x1 .f32 := n2Mem.view
abbrev crView : View sig .tc .vmem S64x64 .f32 := crMem.view
/-- One of each result's two block buffers, through which its contents are stated (either would do). -/
abbrev o5View : View sig .tc .vmem S1x64x1 .f32 := (Memref.whole cc0_stg3_0 : Memref sig .tc .vmem S1x64x1 .f32).view
abbrev o6View : View sig .tc .vmem S1x64x1 .f32 := (Memref.whole cc0_stg4_0 : Memref sig .tc .vmem S1x64x1 .f32).view
abbrev o7View : View sig .tc .vmem S1x64x64 .f32 := (Memref.whole cc0_stg5_0 : Memref sig .tc .vmem S1x64x64 .f32).view

/-- The last tile of a row is the only one at which the three results' windows are live, and the only one written
    back. -/
theorem live_last3 : ∀ t : Fin cfg0.N, atLast (grid0.coords t) → cfg0.idle 3 (grid0.coords t) = false := by decide +kernel
theorem live_last4 : ∀ t : Fin cfg0.N, atLast (grid0.coords t) → cfg0.idle 4 (grid0.coords t) = false := by decide +kernel
theorem live_last5 : ∀ t : Fin cfg0.N, atLast (grid0.coords t) → cfg0.idle 5 (grid0.coords t) = false := by decide +kernel
theorem idle_notLast3 : ∀ t : Fin cfg0.N, ¬atLast (grid0.coords t) → cfg0.idle 3 (grid0.coords t) = true := by decide +kernel
theorem idle_notLast4 : ∀ t : Fin cfg0.N, ¬atLast (grid0.coords t) → cfg0.idle 4 (grid0.coords t) = true := by decide +kernel
theorem idle_notLast5 : ∀ t : Fin cfg0.N, ¬atLast (grid0.coords t) → cfg0.idle 5 (grid0.coords t) = true := by decide +kernel
theorem noFlush_notLast3 : ∀ t : Fin cfg0.N, ¬atLast (grid0.coords t) → (cfg0.win 3).flush t = false := by decide +kernel
theorem noFlush_notLast4 : ∀ t : Fin cfg0.N, ¬atLast (grid0.coords t) → (cfg0.win 4).flush t = false := by decide +kernel
theorem noFlush_notLast5 : ∀ t : Fin cfg0.N, ¬atLast (grid0.coords t) → (cfg0.win 5).flush t = false := by decide +kernel
/-- The three inputs are live at every tile. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-! ## What each kind of tile leaves -/

/-- The pieces a first tile ends with for the first running column cover it, -/
theorem firstTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x1.Idx) :
    ∃ pc ∈ (firstTile c i arg2 harg2 arg3 harg3 arg4 harg4 arg5 harg5 arg6 harg6 arg7 harg7 arg8 harg8 arg9 harg9 arg10 harg10 hc0 hc1 x0 x1 x2).1, y ∈ pc.1.set :=
  View.cover_of_tiledL (firstTile c i arg2 harg2 arg3 harg3 arg4 harg4 arg5 harg5 arg6 harg6 arg7 harg7 arg8 harg8 arg9 harg9 arg10 harg10 hc0 hc1 x0 x1 x2).1 S64x1.size (by sl_kernel_rfl) y
/-- those for the second running column cover it, -/
theorem firstTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x1.Idx) :
    ∃ pc ∈ (firstTile c i arg2 harg2 arg3 harg3 arg4 harg4 arg5 harg5 arg6 harg6 arg7 harg7 arg8 harg8 arg9 harg9 arg10 harg10 hc0 hc1 x0 x1 x2).2.1, y ∈ pc.1.set :=
  View.cover_of_tiledL (firstTile c i arg2 harg2 arg3 harg3 arg4 harg4 arg5 harg5 arg6 harg6 arg7 harg7 arg8 harg8 arg9 harg9 arg10 harg10 hc0 hc1 x0 x1 x2).2.1 S64x1.size (by sl_kernel_rfl) y
/-- and those for the running matrix cover it; -/
theorem firstTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) (y : S64x64.Idx) :
    ∃ pc ∈ (firstTile c i arg2 harg2 arg3 harg3 arg4 harg4 arg5 harg5 arg6 harg6 arg7 harg7 arg8 harg8 arg9 harg9 arg10 harg10 hc0 hc1 x0 x1 x2).2.2.1, y ∈ pc.1.set :=
  View.cover_of_tiledL (firstTile c i arg2 harg2 arg3 harg3 arg4 harg4 arg5 harg5 arg6 harg6 arg7 harg7 arg8 harg8 arg9 harg9 arg10 harg10 hc0 hc1 x0 x1 x2).2.2.1 S64x64.size (by sl_kernel_rfl) y
/-- so do a middle tile's three lists, -/
theorem midTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x1.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).1 S64x1.size (by sl_kernel_rfl) y
/-- (the second column) -/
theorem midTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x1.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).2.1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).2.1 S64x1.size (by sl_kernel_rfl) y
/-- (the matrix) -/
theorem midTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) (y : S64x64.Idx) :
    ∃ pc ∈ (midTile c i arg2 harg2 arg3 harg3 arg4 harg4 arg5 harg5 arg6 harg6 arg7 harg7 arg8 harg8 arg9 harg9 arg10 harg10 hc0 hc1 x0 x1 x2 xs8 xs9 xs10).2.2.1, y ∈ pc.1.set :=
  View.cover_of_tiledL (midTile c i arg2 harg2 arg3 harg3 arg4 harg4 arg5 harg5 arg6 harg6 arg7 harg7 arg8 harg8 arg9 harg9 arg10 harg10 hc0 hc1 x0 x1 x2 xs8 xs9 xs10).2.2.1 S64x64.size (by sl_kernel_rfl) y
/-- and a last tile's six: the first result's block, -/
theorem lastTile_cover_o5 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).1 S1x64x1.size (by sl_kernel_rfl) y
/-- the second result's block, -/
theorem lastTile_cover_o6 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.1 S1x64x1.size (by sl_kernel_rfl) y
/-- the third result's block, -/
theorem lastTile_cover_o7 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S1x64x64.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.1 S1x64x64.size (by sl_kernel_rfl) y
/-- the first running column, -/
theorem lastTile_cover_d2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.1 S64x1.size (by sl_kernel_rfl) y
/-- the second running column, -/
theorem lastTile_cover_n2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x1.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.2.1 S64x1.size (by sl_kernel_rfl) y
/-- the running matrix. -/
theorem lastTile_cover_cr (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) (y : S64x64.Idx) :
    ∃ pc ∈ (lastTile c i arg2 harg2 arg3 harg3 arg4 harg4 arg5 harg5 arg6 harg6 arg7 harg7 arg8 harg8 arg9 harg9 arg10 harg10 hc0 hc1 x0 x1 x2 xs8 xs9 xs10).2.2.2.2.2.1, y ∈ pc.1.set :=
  View.cover_of_tiledL (lastTile c i arg2 harg2 arg3 harg3 arg4 harg4 arg5 harg5 arg6 harg6 arg7 harg7 arg8 harg8 arg9 harg9 arg10 harg10 hc0 hc1 x0 x1 x2 xs8 xs9 xs10).2.2.2.2.2.1 S64x64.size (by sl_kernel_rfl) y

/-- What the three results' buffers and the three running sums hold after a tile. -/
structure Sums (F : FTy → Type) where
  /-- the first result's block: the row sums of the data's squares over a row of tiles -/
  outD2 : Vec F S1x64x1 .f32
  /-- the second result's block: the row sums of the noised data's squares over a row of tiles -/
  outN2 : Vec F S1x64x1 .f32
  /-- the third result's block: the noised rows against the data rows over a row of tiles -/
  outCross : Vec F S1x64x64 .f32
  /-- the first running column -/
  accD2 : Vec F S64x1 .f32
  /-- the second running column -/
  accN2 : Vec F S64x1 .f32
  /-- the running matrix -/
  accCross : Vec F S64x64 .f32

/-- Away from a last tile a result's buffer is not written, not written back and not read at the next tile:
    nothing consults what is said of it there. -/
def o5Unwritten : Vec F S1x64x1 .f32 := o5View.read (Elt F) o5View.junk
def o6Unwritten : Vec F S1x64x1 .f32 := o6View.read (Elt F) o6View.junk
def o7Unwritten : Vec F S1x64x64 .f32 := o7View.read (Elt F) o7View.junk

/-- After a first tile: each running sum is its pieces read back. -/
def afterFirst (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) : Sums F :=
  ⟨o5Unwritten, o6Unwritten, o7Unwritten,
   d2View.read (Elt F) (d2View.writes (Elt F) d2View.junk (firstTile c i arg2 harg2 arg3 harg3 arg4 harg4 arg5 harg5 arg6 harg6 arg7 harg7 arg8 harg8 arg9 harg9 arg10 harg10 hc0 hc1 x0 x1 x2).1),
   n2View.read (Elt F) (n2View.writes (Elt F) n2View.junk (firstTile c i arg2 harg2 arg3 harg3 arg4 harg4 arg5 harg5 arg6 harg6 arg7 harg7 arg8 harg8 arg9 harg9 arg10 harg10 hc0 hc1 x0 x1 x2).2.1),
   crView.read (Elt F) (crView.writes (Elt F) crView.junk (firstTile c i arg2 harg2 arg3 harg3 arg4 harg4 arg5 harg5 arg6 harg6 arg7 harg7 arg8 harg8 arg9 harg9 arg10 harg10 hc0 hc1 x0 x1 x2).2.2.1)⟩
/-- After a middle tile, from what the tile before left in the running sums. -/
def afterMid (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) : Sums F :=
  ⟨o5Unwritten, o6Unwritten, o7Unwritten,
   d2View.read (Elt F) (d2View.writes (Elt F) d2View.junk (midTile c i arg2 harg2 arg3 harg3 arg4 harg4 arg5 harg5 arg6 harg6 arg7 harg7 arg8 harg8 arg9 harg9 arg10 harg10 hc0 hc1 x0 x1 x2 xs8 xs9 xs10).1),
   n2View.read (Elt F) (n2View.writes (Elt F) n2View.junk (midTile c i arg2 harg2 arg3 harg3 arg4 harg4 arg5 harg5 arg6 harg6 arg7 harg7 arg8 harg8 arg9 harg9 arg10 harg10 hc0 hc1 x0 x1 x2 xs8 xs9 xs10).2.1),
   crView.read (Elt F) (crView.writes (Elt F) crView.junk (midTile c i arg2 harg2 arg3 harg3 arg4 harg4 arg5 harg5 arg6 harg6 arg7 harg7 arg8 harg8 arg9 harg9 arg10 harg10 hc0 hc1 x0 x1 x2 xs8 xs9 xs10).2.2.1)⟩
/-- After a last tile: the three results' blocks and the three running sums. -/
def afterLast (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) : Sums F :=
  ⟨o5View.read (Elt F) (o5View.writes (Elt F) o5View.junk (lastTile c i arg2 harg2 arg3 harg3 arg4 harg4 arg5 harg5 arg6 harg6 arg7 harg7 arg8 harg8 arg9 harg9 arg10 harg10 hc0 hc1 x0 x1 x2 xs8 xs9 xs10).1),
   o6View.read (Elt F) (o6View.writes (Elt F) o6View.junk (lastTile c i arg2 harg2 arg3 harg3 arg4 harg4 arg5 harg5 arg6 harg6 arg7 harg7 arg8 harg8 arg9 harg9 arg10 harg10 hc0 hc1 x0 x1 x2 xs8 xs9 xs10).2.1),
   o7View.read (Elt F) (o7View.writes (Elt F) o7View.junk (lastTile c i arg2 harg2 arg3 harg3 arg4 harg4 arg5 harg5 arg6 harg6 arg7 harg7 arg8 harg8 arg9 harg9 arg10 harg10 hc0 hc1 x0 x1 x2 xs8 xs9 xs10).2.2.1),
   d2View.read (Elt F) (d2View.writes (Elt F) d2View.junk (lastTile c i arg2 harg2 arg3 harg3 arg4 harg4 arg5 harg5 arg6 harg6 arg7 harg7 arg8 harg8 arg9 harg9 arg10 harg10 hc0 hc1 x0 x1 x2 xs8 xs9 xs10).2.2.2.1),
   n2View.read (Elt F) (n2View.writes (Elt F) n2View.junk (lastTile c i arg2 harg2 arg3 harg3 arg4 harg4 arg5 harg5 arg6 harg6 arg7 harg7 arg8 harg8 arg9 harg9 arg10 harg10 hc0 hc1 x0 x1 x2 xs8 xs9 xs10).2.2.2.2.1),
   crView.read (Elt F) (crView.writes (Elt F) crView.junk (lastTile c i arg2 harg2 arg3 harg3 arg4 harg4 arg5 harg5 arg6 harg6 arg7 harg7 arg8 harg8 arg9 harg9 arg10 harg10 hc0 hc1 x0 x1 x2 xs8 xs9 xs10).2.2.2.2.2.1)⟩

-- the entry contents of the region's arrays: the parameter the region is stated at
variable (V : (c : Dev nD) → (b : Ref sig .tc) → Buf (Elt F) ((c : Thread nD τ).loc b))

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Tile after tile -/

/-- What the results' buffers and the running sums hold after tile `n`: a first tile's sums from nothing, a middle
    or last tile's from the sums the tile before left. No tile is both first and last of its row. -/
def accAt (c : Dev nD) : (n : ℕ) → n < cfg0.N → Sums F
  | 0, hn => afterFirst c (grid0.coords ⟨0, hn⟩) (sm_0 ⟨0, hn⟩) (sh_0 ⟨0, hn⟩) (sm_1 ⟨0, hn⟩) (sh_1 ⟨0, hn⟩) (sm_2 ⟨0, hn⟩) (sh_2 ⟨0, hn⟩) (sm_3 ⟨0, hn⟩) (sh_3 ⟨0, hn⟩) (sm_4 ⟨0, hn⟩) (sh_4 ⟨0, hn⟩) (sm_5 ⟨0, hn⟩) (sh_5 ⟨0, hn⟩) d2Mem (Memref.isWhole_whole _) n2Mem (Memref.isWhole_whole _) crMem (Memref.isWhole_whole _) ((atFirst_iff ⟨0, hn⟩).mpr (Nat.zero_mod _)) (fun h => (fun h => by (try dsimp only at h); omega) ((atLast_iff ⟨0, hn⟩).mp h)) (blk V c 0 ⟨0, hn⟩) (blk V c 1 ⟨0, hn⟩) (blk V c 2 ⟨0, hn⟩)
  | n + 1, hn =>
    if h0 : (n + 1) % 12 = 0 then
      if h1 : (n + 1) % 12 = 11 then False.elim (by omega)
      else afterFirst c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) ((atFirst_iff ⟨n + 1, hn⟩).mpr h0) (fun h => h1 ((atLast_iff ⟨n + 1, hn⟩).mp h)) (blk V c 0 ⟨n + 1, hn⟩) (blk V c 1 ⟨n + 1, hn⟩) (blk V c 2 ⟨n + 1, hn⟩)
    else
      if h1 : (n + 1) % 12 = 11 then
        afterLast c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) (fun h => h0 ((atFirst_iff ⟨n + 1, hn⟩).mp h)) ((atLast_iff ⟨n + 1, hn⟩).mpr h1) (blk V c 0 ⟨n + 1, hn⟩) (blk V c 1 ⟨n + 1, hn⟩) (blk V c 2 ⟨n + 1, hn⟩) (accAt c n (Nat.lt_of_succ_lt hn)).accD2 (accAt c n (Nat.lt_of_succ_lt hn)).accN2 (accAt c n (Nat.lt_of_succ_lt hn)).accCross
      else
        afterMid c (grid0.coords ⟨n + 1, hn⟩) (sm_0 ⟨n + 1, hn⟩) (sh_0 ⟨n + 1, hn⟩) (sm_1 ⟨n + 1, hn⟩) (sh_1 ⟨n + 1, hn⟩) (sm_2 ⟨n + 1, hn⟩) (sh_2 ⟨n + 1, hn⟩) (sm_3 ⟨n + 1, hn⟩) (sh_3 ⟨n + 1, hn⟩) (sm_4 ⟨n + 1, hn⟩) (sh_4 ⟨n + 1, hn⟩) (sm_5 ⟨n + 1, hn⟩) (sh_5 ⟨n + 1, hn⟩) d2Mem (Memref.isWhole_whole _) n2Mem (Memref.isWhole_whole _) crMem (Memref.isWhole_whole _) (fun h => h0 ((atFirst_iff ⟨n + 1, hn⟩).mp h)) (fun h => h1 ((atLast_iff ⟨n + 1, hn⟩).mp h)) (blk V c 0 ⟨n + 1, hn⟩) (blk V c 1 ⟨n + 1, hn⟩) (blk V c 2 ⟨n + 1, hn⟩) (accAt c n (Nat.lt_of_succ_lt hn)).accD2 (accAt c n (Nat.lt_of_succ_lt hn)).accN2 (accAt c n (Nat.lt_of_succ_lt hn)).accCross

/-- `accAt` at a first tile. -/
theorem accAt_first (c : Dev nD) (t : Fin cfg0.N) (h0 : t.val % 12 = 0) (h1 : ¬t.val % 12 = 11) :
    accAt V c t.val t.isLt = afterFirst c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) ((atFirst_iff t).mpr h0) (fun h => h1 ((atLast_iff t).mp h)) (blk V c 0 t) (blk V c 1 t) (blk V c 2 t) := by
  obtain ⟨n, hn⟩ := t
  cases n with
  | zero => exact rfl
  | succ n => exact (dif_pos h0).trans ((dif_neg h1).trans rfl)

/-- `accAt` at a middle tile, over what the tile before left. -/
theorem accAt_mid (c : Dev nD) (t : Fin cfg0.N) (h0 : ¬t.val % 12 = 0) (h1 : ¬t.val % 12 = 11) :
    accAt V c t.val t.isLt = afterMid c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) (fun h => h0 ((atFirst_iff t).mp h)) (fun h => h1 ((atLast_iff t).mp h)) (blk V c 0 t) (blk V c 1 t) (blk V c 2 t) (accAt V c (t.val - 1) (Nat.lt_of_le_of_lt (Nat.sub_le _ _) t.isLt)).accD2 (accAt V c (t.val - 1) (Nat.lt_of_le_of_lt (Nat.sub_le _ _) t.isLt)).accN2 (accAt V c (t.val - 1) (Nat.lt_of_le_of_lt (Nat.sub_le _ _) t.isLt)).accCross := by
  obtain ⟨n, hn⟩ := t
  cases n with
  | zero => exact (by exfalso; (try dsimp only at h0); exact absurd (Nat.zero_mod _) h0)
  | succ n => exact (dif_neg h0).trans ((dif_neg h1).trans rfl)

/-- `accAt` at a last tile, over what the tile before left. -/
theorem accAt_last (c : Dev nD) (t : Fin cfg0.N) (h0 : ¬t.val % 12 = 0) (h1 : t.val % 12 = 11) :
    accAt V c t.val t.isLt = afterLast c (grid0.coords t) (sm_0 t) (sh_0 t) (sm_1 t) (sh_1 t) (sm_2 t) (sh_2 t) (sm_3 t) (sh_3 t) (sm_4 t) (sh_4 t) (sm_5 t) (sh_5 t) d2Mem (Memref.isWhole_whole _) n2Mem (Memref.isWhole_whole _) crMem (Memref.isWhole_whole _) (fun h => h0 ((atFirst_iff t).mp h)) ((atLast_iff t).mpr h1) (blk V c 0 t) (blk V c 1 t) (blk V c 2 t) (accAt V c (t.val - 1) (Nat.lt_of_le_of_lt (Nat.sub_le _ _) t.isLt)).accD2 (accAt V c (t.val - 1) (Nat.lt_of_le_of_lt (Nat.sub_le _ _) t.isLt)).accN2 (accAt V c (t.val - 1) (Nat.lt_of_le_of_lt (Nat.sub_le _ _) t.isLt)).accCross := by
  obtain ⟨n, hn⟩ := t
  cases n with
  | zero => exact (by exfalso; (try dsimp only at h0); exact absurd (Nat.zero_mod _) h0)
  | succ n => exact (dif_neg h0).trans ((dif_pos h1).trans rfl)

/-! ## The invariant between tiles -/

/-- Before the first tile: every scoped buffer no window of this region stages (this region's three running sums
    and the other region's buffers) at anything, and the generator register at some state. After tile `n`: the
    same, with the three running sums at what tile `n` left in them. -/
def carried (c : Dev nD) : (n : ℕ) → n ≤ cfg0.N → sProp 𝕄
  | 0, _ => Pipeline.ΦA spec0 c
  | n + 1, hn => iprop(iprop(owns (c : Thread nD τ) d2Mem fullShare (accAt V c n hn).accD2 ∗ owns (c : Thread nD τ) n2Mem fullShare (accAt V c n hn).accN2 ∗ owns (c : Thread nD τ) crMem fullShare (accAt V c n hn).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

theorem atEntry_eq (c : Dev nD) :
    (Pipeline.ΦA spec0 c : sProp 𝕄)
      = iprop(iprop((∃ d, owns (c : Thread nD τ) d2Mem fullShare d) ∗ (∃ d, owns (c : Thread nD τ) n2Mem fullShare d) ∗ (∃ d, owns (c : Thread nD τ) crMem fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [d2Mem, n2Mem, crMem, owns_whole]; try rfl

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) d2Mem fullShare (accAt V c n hn).accD2 ∗ owns (c : Thread nD τ) n2Mem fullShare (accAt V c n hn).accN2 ∗ owns (c : Thread nD τ) crMem fullShare (accAt V c n hn).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := rfl
theorem carried_pos (c : Dev nD) (n : ℕ) (h : n ≤ cfg0.N) (hz : n ≠ 0) :
    carried V c n h = iprop(iprop(owns (c : Thread nD τ) d2Mem fullShare (accAt V c (n - 1) (by omega)).accD2 ∗ owns (c : Thread nD τ) n2Mem fullShare (accAt V c (n - 1) (by omega)).accN2 ∗ owns (c : Thread nD τ) crMem fullShare (accAt V c (n - 1) (by omega)).accCross ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data -/

/-- On core `c`: the arrays as the region finds them; after a tile each input's buffer at its block and each
    result's at `accAt`; the invariant `carried`; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (accAt V c t.val t.isLt).outD2
    | ⟨4, _⟩ => (accAt V c t.val t.isLt).outN2
    | ⟨5, _⟩ => (accAt V c t.val t.isLt).outCross
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem carried_castSucc (c : Dev nD) (t : Fin cfg0.N) :
    (dat0 V c).Φ t.castSucc = carried V c t.val (Nat.le_of_lt t.isLt) := by
  dsimp only [dat0]; simp only [Fin.coe_castSucc]
theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = (accAt V c t.val t.isLt).outD2 := by dsimp only [dat0]
theorem after0_4 (c : Dev nD) (t : Fin cfg0.N) : (dat0 V c).after 4 t = (accAt V c t.val t.isLt).outN2 := by dsimp only [dat0]
theorem after0_5 (c : Dev nD) (t : Fin cfg0.N) : (dat0 V c).after 5 t = (accAt V c t.val t.isLt).outCross := by dsimp only [dat0]
theorem owed0_fun (c : Dev nD) : (dat0 V c).owed = fun _ => 0 := by dsimp only [dat0]
theorem q0_fun (c : Dev nD) : (dat0 V c).q = fun _ => fullShare := by dsimp only [dat0]
theorem owed0 (c : Dev nD) (t : Fin (cfg0.N + 1)) : (dat0 V c).owed t = 0 := by dsimp only [dat0]
theorem q0 (c : Dev nD) (w : Fin cfg0.W) : (dat0 V c).q w = fullShare := by dsimp only [dat0]
theorem rec0 (c : Dev nD) (t : Fin (cfg0.N + 1)) : (dat0 V c).recorded t = Set.univ := rfl

/-- Each input's current buffer holds its block at every tile, fetched there or not: where it is not fetched its
    block index has not moved. -/
theorem before0_0 (c : Dev nD) (t : Fin cfg0.N) (d) : (dat0 V c).before 0 t d = blk V c 0 t :=
  ((dat0 V c).before_in_eq_fetched 0 rfl (fun _ => rfl) (fun _ _ _ => rfl) (fun t => by rw [after0_0]; unfold Dat.blockOf blk; rw [A_eq0]; try rfl) t d).trans
    (by unfold Dat.fetched Dat.blockOf blk; rw [A_eq0]; try rfl)
theorem before0_1 (c : Dev nD) (t : Fin cfg0.N) (d) : (dat0 V c).before 1 t d = blk V c 1 t :=
  ((dat0 V c).before_in_eq_fetched 1 rfl (fun _ => rfl) (fun _ _ _ => rfl) (fun t => by rw [after0_1]; unfold Dat.blockOf blk; rw [A_eq0]; try rfl) t d).trans
    (by unfold Dat.fetched Dat.blockOf blk; rw [A_eq0]; try rfl)
theorem before0_2 (c : Dev nD) (t : Fin cfg0.N) (d) : (dat0 V c).before 2 t d = blk V c 2 t :=
  ((dat0 V c).before_in_eq_fetched 2 rfl (fun _ => rfl) (fun _ _ _ => rfl) (fun t => by rw [after0_2]; unfold Dat.blockOf blk; rw [A_eq0]; try rfl) t d).trans
    (by unfold Dat.fetched Dat.blockOf blk; rw [A_eq0]; try rfl)

end Cert.Kernel.CrossTile

end
-- ==== Proof.BitsCrossBody.lean ====
/-
  One tile of the cross-statistics kernel, started from the invariant before it with every input block in its
  buffer, ends in the invariant after it: by cases on whether the tile is the first, the last, or neither of its
  row of twelve.
-/
import proofs.«124021_j68367289418164_2_alg».proof.Proof.BitsCrossRegion

set_option maxRecDepth 16384

noncomputable section

namespace Cert.Kernel.CrossTile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a tile's body is started from, the windows one by one, -/
def tilePre (c : Dev nD) (t : Fin cfg0.N) : sProp 𝕄 :=
  iprop((dat0 V c).Φ t.castSucc ∗ (dat0 V c).owesAt () t.castSucc
    ∗ (∃ d, owns (c : Thread nD τ) (sm_0 t) fullShare ((dat0 V c).before 0 t d))
    ∗ (∃ d, owns (c : Thread nD τ) (sm_1 t) fullShare ((dat0 V c).before 1 t d))
    ∗ (∃ d, owns (c : Thread nD τ) (sm_2 t) fullShare ((dat0 V c).before 2 t d))
    ∗ (∃ d, owns (c : Thread nD τ) (sm_3 t) fullShare ((dat0 V c).before 3 t d))
    ∗ (∃ d, owns (c : Thread nD τ) (sm_4 t) fullShare ((dat0 V c).before 4 t d))
    ∗ (∃ d, owns (c : Thread nD τ) (sm_5 t) fullShare ((dat0 V c).before 5 t d)))

/-- and what it ends in. -/
def tilePost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any tile. The inputs' buffers hold their blocks; the tile's number says which kind of tile it is;
    the invariant hands the body the three running sums at what the tile before left (at anything before the
    very first tile), and takes them back at what this tile leaves; the three results' buffers are handed back
    as found except at a last tile, where each is overwritten; the core owes nothing throughout. -/
theorem tile_sound (c : Dev nD) (t : Fin cfg0.N) :
    tilePre V c t ⊢ wp frame (wpE (defs₀ (F := F)) Variants.none c none) Set.univ (bodyAt0 t) (fun _ => tilePost V c t) := by
  unfold tilePre tilePost bodyAt0
  simp only [before0_0, before0_1, before0_2]
  rw [show (dat0 V c).owesAt () t.succ = (dat0 V c).owesAt () t.castSucc from rfl]
  rw [show (dat0 V c).Φ t.succ = carried V c (t.val + 1) t.isLt from rfl, carried_succ]
  have hN : t.val < 24 := lt_of_lt_of_eq t.isLt (show cfg0.N = 24 from N_0)
  rw [show (dat0 V c).leavesExact 0 t = owns (c : Thread nD τ) (sm_0 t) fullShare ((dat0 V c).after 0 t) from by
    unfold Dat.leavesExact; rw [live0_0 t], after0_0]
  rw [show (dat0 V c).leavesExact 1 t = owns (c : Thread nD τ) (sm_1 t) fullShare ((dat0 V c).after 1 t) from by
    unfold Dat.leavesExact; rw [live0_1 t], after0_1]
  rw [show (dat0 V c).leavesExact 2 t = owns (c : Thread nD τ) (sm_2 t) fullShare ((dat0 V c).after 2 t) from by
    unfold Dat.leavesExact; rw [live0_2 t], after0_2]
  by_cases h0 : t.val % 12 = 0
  · have h1 : ¬t.val % 12 = 11 := by omega
    rw [Dat.leavesExact_idle (dat0 V c) 3 t (idle_notLast3 t (fun h => h1 ((atLast_iff t).mp h))) (noFlush_notLast3 t (fun h => h1 ((atLast_iff t).mp h)))]
    rw [Dat.leavesExact_idle (dat0 V c) 4 t (idle_notLast4 t (fun h => h1 ((atLast_iff t).mp h))) (noFlush_notLast4 t (fun h => h1 ((atLast_iff t).mp h)))]
    rw [Dat.leavesExact_idle (dat0 V c) 5 t (idle_notLast5 t (fun h => h1 ((atLast_iff t).mp h))) (noFlush_notLast5 t (fun h => h1 ((atLast_iff t).mp h)))]
    rw [accAt_first V c t h0 h1]
    unfold afterFirst; (try dsimp only)
    by_cases hz : t.val = 0
    · rw [carried_castSucc V c t, carried_zero V c _ _ hz, atEntry_eq]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((firstTile c (grid0.coords t) _ _ _ _ _ _ _ _ _ _ _ _ _ _ _ _ _ _ ((atFirst_iff t).mpr h0) (fun h => h1 ((atLast_iff t).mp h)) (blk V c 0 t) (blk V c 1 t) (blk V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexact S8
      isplitl [S9]; · iexact S9
      isplitl [S10]; · iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (firstTile_cover_d2 c _ _ _ _ _ _ _ _ _ _ _ _ _ _ _ _ _ _ _ _ _ _ _ _)
          isplitl [S9]
          · unfold owns; iexists _; isplitr
            swap; · iexact S9
            ipureintro; exact View.read_writes_of_cover _ _ _ _ _ (firstTile_cover_n2 c _ _ _ _ _ _ _ _ _ _ _ _ _ _ _ _ _ _ _ _ _ _ _ _)
          isplitl [S10]
          · unfold owns; iexists _; isplitr
            swap; · iexact S10
            ipureintro; exact View.read_writes_of_cover _ _ _ _ _ (firstTile_cover_cr c _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((firstTile c (grid0.coords t) _ _ _ _ _ _ _ _ _ _ _ _ _ _ _ _ _ _ ((atFirst_iff t).mpr h0) (fun h => h1 ((atLast_iff t).mp h)) (blk V c 0 t) (blk V c 1 t) (blk V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexists _; iexact S8
      isplitl [S9]; · iexists _; iexact S9
      isplitl [S10]; · iexists _; iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (firstTile_cover_d2 c _ _ _ _ _ _ _ _ _ _ _ _ _ _ _ _ _ _ _ _ _ _ _ _)
          isplitl [S9]
          · unfold owns; iexists _; isplitr
            swap; · iexact S9
            ipureintro; exact View.read_writes_of_cover _ _ _ _ _ (firstTile_cover_n2 c _ _ _ _ _ _ _ _ _ _ _ _ _ _ _ _ _ _ _ _ _ _ _ _)
          isplitl [S10]
          · unfold owns; iexists _; isplitr
            swap; · iexact S10
            ipureintro; exact View.read_writes_of_cover _ _ _ _ _ (firstTile_cover_cr c _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 12 = 11
    · rw [show (dat0 V c).leavesExact 3 t = owns (c : Thread nD τ) (sm_3 t) fullShare ((dat0 V c).after 3 t) from by
        unfold Dat.leavesExact; rw [live_last3 t ((atLast_iff t).mpr h1)], after0_3]
      rw [show (dat0 V c).leavesExact 4 t = owns (c : Thread nD τ) (sm_4 t) fullShare ((dat0 V c).after 4 t) from by
        unfold Dat.leavesExact; rw [live_last4 t ((atLast_iff t).mpr h1)], after0_4]
      rw [show (dat0 V c).leavesExact 5 t = owns (c : Thread nD τ) (sm_5 t) fullShare ((dat0 V c).after 5 t) from by
        unfold Dat.leavesExact; rw [live_last5 t ((atLast_iff t).mpr h1)], after0_5]
      rw [accAt_last V c t h0 h1]
      unfold afterLast; (try dsimp only)
      rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((lastTile c (grid0.coords t) _ _ _ _ _ _ _ _ _ _ _ _ _ _ _ _ _ _ (fun h => h0 ((atFirst_iff t).mp h)) ((atLast_iff t).mpr h1) (blk V c 0 t) (blk V c 1 t) (blk V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [S8]; · iexact S8
      isplitl [S9]; · iexact S9
      isplitl [S10]; · iexact S10
      iintro ⟨H0, H1, H2, ⟨%e5, H3⟩, ⟨%e6, H4⟩, ⟨%e7, H5⟩, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (lastTile_cover_d2 c _ _ _ _ _ _ _ _ _ _ _ _ _ _ _ _ _ _ _ _ _ _ _ _ _ _ _)
          isplitl [S9]
          · unfold owns; iexists _; isplitr
            swap; · iexact S9
            ipureintro; exact View.read_writes_of_cover _ _ _ _ _ (lastTile_cover_n2 c _ _ _ _ _ _ _ _ _ _ _ _ _ _ _ _ _ _ _ _ _ _ _ _ _ _ _)
          isplitl [S10]
          · unfold owns; iexists _; isplitr
            swap; · iexact S10
            ipureintro; exact View.read_writes_of_cover _ _ _ _ _ (lastTile_cover_cr c _ _ _ _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (lastTile_cover_o5 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (lastTile_cover_o6 c _ _ _ _ _ _ _ _ _ _ _ _ _ _ _ _ _ _ _ _ _ _ _ _ _ _ _)
      unfold owns; iexists _; isplitr
      swap; · iexact H5
      ipureintro; exact View.read_writes_of_cover _ _ _ _ _ (lastTile_cover_o7 c _ _ _ _ _ _ _ _ _ _ _ _ _ _ _ _ _ _ _ _ _ _ _ _ _ _ _)
    · rw [Dat.leavesExact_idle (dat0 V c) 3 t (idle_notLast3 t (fun h => h1 ((atLast_iff t).mp h))) (noFlush_notLast3 t (fun h => h1 ((atLast_iff t).mp h)))]
      rw [Dat.leavesExact_idle (dat0 V c) 4 t (idle_notLast4 t (fun h => h1 ((atLast_iff t).mp h))) (noFlush_notLast4 t (fun h => h1 ((atLast_iff t).mp h)))]
      rw [Dat.leavesExact_idle (dat0 V c) 5 t (idle_notLast5 t (fun h => h1 ((atLast_iff t).mp h))) (noFlush_notLast5 t (fun h => h1 ((atLast_iff t).mp h)))]
      rw [accAt_mid V c t h0 h1]
      unfold afterMid; (try dsimp only)
      rw [carried_castSucc V c t, carried_pos V c _ _ hz]
      iintro ⟨⟨⟨S8, S9, S10, R0, R1, R2, R3, R4, R5, R6, R7, R8, R9, R10, R11, R12⟩, Hg⟩, Ho, ⟨%d0, H0⟩, ⟨%d1, H1⟩, ⟨%d2, H2⟩, ⟨%d3, H3⟩, ⟨%d4, H4⟩, ⟨%d5, H5⟩⟩
      iapply ((midTile c (grid0.coords t) _ _ _ _ _ _ _ _ _ _ _ _ _ _ _ _ _ _ (fun h => h0 ((atFirst_iff t).mp h)) (fun h => h1 ((atLast_iff t).mp h)) (blk V c 0 t) (blk V c 1 t) (blk V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [S8]; · iexact S8
      isplitl [S9]; · iexact S9
      isplitl [S10]; · iexact S10
      iintro ⟨H0, H1, H2, H3, H4, H5, ⟨%e8, S8⟩, ⟨%e9, S9⟩, ⟨%e10, S10⟩⟩
      isplitl [S8 S9 S10 R0 R1 R2 R3 R4 R5 R6 R7 R8 R9 R10 R11 R12 Hg]
      · isplitl [S8 S9 S10 R0 R1 R2 R3 R4 R5 R6 R7 R8 R9 R10 R11 R12]
        · isplitl [S8]
          · unfold owns; iexists _; isplitr
            swap; · iexact S8
            ipureintro; exact View.read_writes_of_cover _ _ _ _ _ (midTile_cover_d2 c _ _ _ _ _ _ _ _ _ _ _ _ _ _ _ _ _ _ _ _ _ _ _ _ _ _ _)
          isplitl [S9]
          · unfold owns; iexists _; isplitr
            swap; · iexact S9
            ipureintro; exact View.read_writes_of_cover _ _ _ _ _ (midTile_cover_n2 c _ _ _ _ _ _ _ _ _ _ _ _ _ _ _ _ _ _ _ _ _ _ _ _ _ _ _)
          isplitl [S10]
          · unfold owns; iexists _; isplitr
            swap; · iexact S10
            ipureintro; exact View.read_writes_of_cover _ _ _ _ _ (midTile_cover_cr c _ _ _ _ _ _ _ _ _ _ _ _ _ _ _ _ _ _ _ _ _ _ _ _ _ _ _)
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The body obligation of region 0 at every tile. -/
theorem body_obligation0 (c : Dev nD) : BodyObligation (dat0 (F := F) V c) (defs₀ (F := F)) Variants.none () Set.univ := fun t => by
  rw [bigSep_W0, bigSep_W0]
  exact tile_sound V c t

/-- What the launch hands the region is the invariant before the first tile. -/
theorem enter0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last tile the invariant gives back what the launch handed in: what the three running sums hold is
    forgotten. -/
theorem leave0 (c : Dev nD) : (dat0 V c).Φ (Fin.last cfg0.N) ⊢ Pipeline.ΦA spec0 c := by
  have hne : (Fin.last cfg0.N).val ≠ 0 := by rw [Fin.val_last]; have : cfg0.N = 24 := N_0; omega
  rw [show (dat0 V c).Φ (Fin.last cfg0.N) = carried V c (Fin.last cfg0.N).val (Nat.le_of_lt_succ (Fin.last cfg0.N).isLt) from rfl,
    carried_pos V c _ _ hne, atEntry_eq]
  iintro ⟨⟨S8, S9, S10, R0, R1, R2, R3, R4, R5, R6, R7, R8, R9, R10, R11, R12⟩, Hg⟩
  isplitl [S8 S9 S10 R0 R1 R2 R3 R4 R5 R6 R7 R8 R9 R10 R11 R12]
  · isplitl [S8]; · iexists _; iexact S8
    isplitl [S9]; · iexists _; iexact S9
    isplitl [S10]; · iexists _; iexact S10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  iexact Hg

end Cert.Kernel.CrossTile

end
-- ==== Proof.Frames.lean ====
/-
  The three programs run to the end, fault nowhere and leave their arguments as they found them.

  For the kernel, read at the machine's words and read at the extended reals alike: every buffer outside the two
  regions' own ends at the last of the contents named item by item through the program, and no item writes an
  argument.  For the reference, a straight line of host operations, its run says so directly.
-/
import proofs.«124021_j68367289418164_2_alg».proof.Defs
import proofs.«124021_j68367289418164_2_alg».proof.Proof.Gen.Kernel
import proofs.«124021_j68367289418164_2_alg».proof.Proof.Gen.KernelIdeal
import proofs.«124021_j68367289418164_2_alg».proof.Proof.Gen.ReferenceIdeal
import proofs.«124021_j68367289418164_2_alg».proof.Proof.Gen.Pre_finite_inputs
import proofs.«124021_j68367289418164_2_alg».proof.Proof.Gen.ReferenceIdeal.Run
import proofs.«124021_j68367289418164_2_alg».proof.Proof.WholeRun
import proofs.«124021_j68367289418164_2_alg».proof.Proof.CrossBody
import proofs.«124021_j68367289418164_2_alg».proof.Proof.BitsWholeRun
import proofs.«124021_j68367289418164_2_alg».proof.Proof.BitsCrossBody

noncomputable section

namespace Cert.Proof

open Idealize.ShloMosaic Idealize.SL.Sem

theorem frame_k : Cert.frame_Kernel := fun m ρ _ =>
  (θ_run Cert.Kernel.defs _ _).mono (fun r h c => ⟨(h c _ (Cert.Kernel.Whole.mem_uc Cert.Kernel.main_arg0 (by decide))).trans (Cert.Kernel.Whole.U5_arg _ m c Cert.Kernel.main_arg0 (by decide) (by decide) (by decide) (by decide) (by decide)),
      (h c _ (Cert.Kernel.Whole.mem_uc Cert.Kernel.main_arg1 (by decide))).trans (Cert.Kernel.Whole.U5_arg _ m c Cert.Kernel.main_arg1 (by decide) (by decide) (by decide) (by decide) (by decide)),
      (h c _ (Cert.Kernel.Whole.mem_uc Cert.Kernel.main_arg2 (by decide))).trans (Cert.Kernel.Whole.U5_arg _ m c Cert.Kernel.main_arg2 (by decide) (by decide) (by decide) (by decide) (by decide)),
      (h c _ (Cert.Kernel.Whole.mem_uc Cert.Kernel.main_arg3 (by decide))).trans (Cert.Kernel.Whole.U5_arg _ m c Cert.Kernel.main_arg3 (by decide) (by decide) (by decide) (by decide) (by decide)),
      (h c _ (Cert.Kernel.Whole.mem_uc Cert.Kernel.main_arg4 (by decide))).trans (Cert.Kernel.Whole.U5_arg _ m c Cert.Kernel.main_arg4 (by decide) (by decide) (by decide) (by decide) (by decide))⟩)
    (Cert.Kernel.Whole.runs_to_U5 (F := Bits) (fun V c => Cert.Kernel.CrossTile.dat0 V c)
      (fun V c w => Cert.Kernel.CrossTile.A_eq0 V c w) (fun V c w => Cert.Kernel.CrossTile.q0 V c w)
      (fun V c t => Cert.Kernel.CrossTile.owed0 V c t) (fun V c t => Cert.Kernel.CrossTile.rec0 V c t)
      (fun V c => Cert.Kernel.CrossTile.body_obligation0 V c) (fun V c => Cert.Kernel.CrossTile.enter0 V c)
      (fun V c => Cert.Kernel.CrossTile.leave0 V c) m ρ)

theorem frame_ki : Cert.frame_KernelIdeal := fun m ρ _ =>
  (θ_run Cert.KernelIdeal.defs _ _).mono (fun r h c => ⟨(h c _ (Cert.KernelIdeal.Whole.mem_uc Cert.KernelIdeal.main_arg0 (by decide))).trans (Cert.KernelIdeal.Whole.U5_arg _ m c Cert.KernelIdeal.main_arg0 (by decide) (by decide) (by decide) (by decide) (by decide)),
      (h c _ (Cert.KernelIdeal.Whole.mem_uc Cert.KernelIdeal.main_arg1 (by decide))).trans (Cert.KernelIdeal.Whole.U5_arg _ m c Cert.KernelIdeal.main_arg1 (by decide) (by decide) (by decide) (by decide) (by decide)),
      (h c _ (Cert.KernelIdeal.Whole.mem_uc Cert.KernelIdeal.main_arg2 (by decide))).trans (Cert.KernelIdeal.Whole.U5_arg _ m c Cert.KernelIdeal.main_arg2 (by decide) (by decide) (by decide) (by decide) (by decide)),
      (h c _ (Cert.KernelIdeal.Whole.mem_uc Cert.KernelIdeal.main_arg3 (by decide))).trans (Cert.KernelIdeal.Whole.U5_arg _ m c Cert.KernelIdeal.main_arg3 (by decide) (by decide) (by decide) (by decide) (by decide)),
      (h c _ (Cert.KernelIdeal.Whole.mem_uc Cert.KernelIdeal.main_arg4 (by decide))).trans (Cert.KernelIdeal.Whole.U5_arg _ m c Cert.KernelIdeal.main_arg4 (by decide) (by decide) (by decide) (by decide) (by decide))⟩)
    (Cert.KernelIdeal.Whole.runs_to_U5 (F := Ideal) (fun V c => Cert.KernelIdeal.CrossTile.dat0 V c)
      (fun V c w => Cert.KernelIdeal.CrossTile.A_eq0 V c w) (fun V c w => Cert.KernelIdeal.CrossTile.q0 V c w)
      (fun V c t => Cert.KernelIdeal.CrossTile.owed0 V c t) (fun V c t => Cert.KernelIdeal.CrossTile.rec0 V c t)
      (fun V c => Cert.KernelIdeal.CrossTile.body_obligation0 V c) (fun V c => Cert.KernelIdeal.CrossTile.enter0 V c)
      (fun V c => Cert.KernelIdeal.CrossTile.leave0 V c) m ρ)

theorem frame_ri : Cert.frame_ReferenceIdeal := fun m ρ _ =>
  (θ_run Cert.ReferenceIdeal.defs _ _).mono (fun _ h c => (h c).2) (Cert.ReferenceIdeal.Value.run (F := Ideal) m ρ)

end Cert.Proof

end
-- ==== Proof.CrossPieces.lean ====
/-
  What a tile of the cross-statistics kernel leaves, as arithmetic.

  Each running sum after a tile is the sum before it plus the tile's own sums (from zero at a first tile); each
  result's block after a last tile is the running sum that tile leaves, reshaped.  Each is the value of the last
  whole store the body makes into that buffer, read back.
-/
import proofs.«124021_j68367289418164_2_alg».proof.Proof.CrossRegion
import Idealize.ShloMosaic.Lib.Pipeline.Value

set_option maxRecDepth 16384

noncomputable section

namespace Cert.KernelIdeal.CrossTile

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The noised block of a tile, from its data and noise blocks and the column of times. -/
abbrev tileNoised (x0 x1 : Vec F S64x8192 .f32) (x2 : Vec F S64x1 .f32) : FVec F S64x8192 .f32 := k0_pay9 x0 x1 x2
/-- The first running column after a tile's step: what it held plus the row sums of the data block's squares. -/
abbrev stepD2 (x0 : Vec F S64x8192 .f32) (xs8 : Vec F S64x1 .f32) : FVec F S64x1 .f32 := k0_pay10 x0 xs8
/-- The second running column after a tile's step: what it held plus the row sums of the noised block's squares. -/
abbrev stepN2 (x0 x1 : Vec F S64x8192 .f32) (x2 : Vec F S64x1 .f32) (xs9 : Vec F S64x1 .f32) : FVec F S64x1 .f32 := k0_pay11 x0 x1 x2 xs9
/-- The running matrix after a tile's step: what it held plus the noised rows against the data rows. -/
abbrev stepCross (x0 x1 : Vec F S64x8192 .f32) (x2 : Vec F S64x1 .f32) (xs10 : Vec F S64x64 .f32) : FVec F S64x64 .f32 := k0_pay1 (k0_pay12 x0 x1 x2 xs10)

/-- A middle tile leaves the first column it found plus the tile's sums, -/
theorem afterMid_accD2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) :
    (afterMid c i arg2 harg2 arg3 harg3 arg4 harg4 arg5 harg5 arg6 harg6 arg7 harg7 arg8 harg8 arg9 harg9 arg10 harg10 hc0 hc1 x0 x1 x2 xs8 xs9 xs10).accD2 = stepD2 x0 xs8 := by
  unfold afterMid
  dsimp only
  rw [View.read_writes_eq_canon _ _ _ (midTile_cover_d2 c i arg2 harg2 arg3 harg3 arg4 harg4 arg5 harg5 arg6 harg6 arg7 harg7 arg8 harg8 arg9 harg9 arg10 harg10 hc0 hc1 x0 x1 x2 xs8 xs9 xs10)]
  unfold midTile
  dsimp only
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the second column it found plus the tile's sums, -/
theorem afterMid_accN2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) :
    (afterMid c i arg2 harg2 arg3 harg3 arg4 harg4 arg5 harg5 arg6 harg6 arg7 harg7 arg8 harg8 arg9 harg9 arg10 harg10 hc0 hc1 x0 x1 x2 xs8 xs9 xs10).accN2 = stepN2 x0 x1 x2 xs9 := by
  unfold afterMid
  dsimp only
  rw [View.read_writes_eq_canon _ _ _ (midTile_cover_n2 c i arg2 harg2 arg3 harg3 arg4 harg4 arg5 harg5 arg6 harg6 arg7 harg7 arg8 harg8 arg9 harg9 arg10 harg10 hc0 hc1 x0 x1 x2 xs8 xs9 xs10)]
  unfold midTile
  dsimp only
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- and the matrix it found plus the tile's products. -/
theorem afterMid_accCross (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : ¬atLast i) (x0 x1 : Vec F S64x8192 .f32) (x2 : Vec F S64x1 .f32) (xs8 xs9 : Vec F S64x1 .f32) (xs10 : Vec F S64x64 .f32) :
    (afterMid c i arg2 harg2 arg3 harg3 arg4 harg4 arg5 harg5 arg6 harg6 arg7 harg7 arg8 harg8 arg9 harg9 arg10 harg10 hc0 hc1 x0 x1 x2 xs8 xs9 xs10).accCross = stepCross x0 x1 x2 xs10 := by
  unfold afterMid
  dsimp only
  rw [View.read_writes_eq_canon _ _ _ (midTile_cover_cr c i arg2 harg2 arg3 harg3 arg4 harg4 arg5 harg5 arg6 harg6 arg7 harg7 arg8 harg8 arg9 harg9 arg10 harg10 hc0 hc1 x0 x1 x2 xs8 xs9 xs10)]
  unfold midTile
  dsimp only
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- So does a last tile: the first column, -/
theorem afterLast_accD2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).accD2 = stepD2 x0 xs8 := by
  unfold afterLast
  dsimp only
  rw [View.read_writes_eq_canon _ _ _ (lastTile_cover_d2 c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the second column, -/
theorem afterLast_accN2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).accN2 = stepN2 x0 x1 x2 xs9 := by
  unfold afterLast
  dsimp only
  rw [View.read_writes_eq_canon _ _ _ (lastTile_cover_n2 c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the matrix; -/
theorem afterLast_accCross (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).accCross = stepCross x0 x1 x2 xs10 := by
  unfold afterLast
  dsimp only
  rw [View.read_writes_eq_canon _ _ _ (lastTile_cover_cr c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- and it leaves in each result's block the running sum it leaves, reshaped: the first, -/
theorem afterLast_outD2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).outD2 = k0_pay2 (stepD2 x0 xs8) := by
  unfold afterLast
  dsimp only
  rw [View.read_writes_eq_canon _ _ _ (lastTile_cover_o5 c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz3]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the second, -/
theorem afterLast_outN2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).outN2 = k0_pay3 (stepN2 x0 x1 x2 xs9) := by
  unfold afterLast
  dsimp only
  rw [View.read_writes_eq_canon _ _ _ (lastTile_cover_o6 c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz3]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the third. -/
theorem afterLast_outCross (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬atFirst i) (hc1 : atLast i) (x0 x1 : Vec F S64x8192 .f32) (x2 : Vec F S64x1 .f32) (xs8 xs9 : Vec F S64x1 .f32) (xs10 : Vec F S64x64 .f32) :
    (afterLast c i arg2 harg2 arg3 harg3 arg4 harg4 arg5 harg5 arg6 harg6 arg7 harg7 arg8 harg8 arg9 harg9 arg10 harg10 hc0 hc1 x0 x1 x2 xs8 xs9 xs10).outCross = k0_pay4 (stepCross x0 x1 x2 xs10) := by
  unfold afterLast
  dsimp only
  rw [View.read_writes_eq_canon _ _ _ (lastTile_cover_o7 c i arg2 harg2 arg3 harg3 arg4 harg4 arg5 harg5 arg6 harg6 arg7 harg7 arg8 harg8 arg9 harg9 arg10 harg10 hc0 hc1 x0 x1 x2 xs8 xs9 xs10)]
  unfold lastTile
  dsimp only
  sl_unfold_words
  rw [View.canon_unit_zero hz3]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- A first tile leaves zero plus the tile's sums: the first column, -/
theorem afterFirst_accD2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) :
    (afterFirst c i arg2 harg2 arg3 harg3 arg4 harg4 arg5 harg5 arg6 harg6 arg7 harg7 arg8 harg8 arg9 harg9 arg10 harg10 hc0 hc1 x0 x1 x2).accD2 = stepD2 x0 (k0_pay5 (F := F)) := by
  unfold afterFirst
  dsimp only
  rw [View.read_writes_eq_canon _ _ _ (firstTile_cover_d2 c i arg2 harg2 arg3 harg3 arg4 harg4 arg5 harg5 arg6 harg6 arg7 harg7 arg8 harg8 arg9 harg9 arg10 harg10 hc0 hc1 x0 x1 x2)]
  unfold firstTile
  dsimp only
  sl_unfold_words
  rw [View.canon_cons_unit_zero (S := S64x1) hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the second column, -/
theorem afterFirst_accN2 (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) :
    (afterFirst c i arg2 harg2 arg3 harg3 arg4 harg4 arg5 harg5 arg6 harg6 arg7 harg7 arg8 harg8 arg9 harg9 arg10 harg10 hc0 hc1 x0 x1 x2).accN2 = stepN2 x0 x1 x2 (k0_pay6 (F := F)) := by
  unfold afterFirst
  dsimp only
  rw [View.read_writes_eq_canon _ _ _ (firstTile_cover_n2 c i arg2 harg2 arg3 harg3 arg4 harg4 arg5 harg5 arg6 harg6 arg7 harg7 arg8 harg8 arg9 harg9 arg10 harg10 hc0 hc1 x0 x1 x2)]
  unfold firstTile
  dsimp only
  sl_unfold_words
  rw [View.canon_cons_unit_zero (S := S64x1) hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

/-- the matrix. -/
theorem afterFirst_accCross (c : Dev nD) (i : grid0.Coords) (arg2 : Memref sig .tc .vmem S64x8192 .f32) (harg2 : arg2.IsWhole) (arg3 : Memref sig .tc .vmem S64x8192 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : atFirst i) (hc1 : ¬atLast i) (x0 x1 : Vec F S64x8192 .f32) (x2 : Vec F S64x1 .f32) :
    (afterFirst c i arg2 harg2 arg3 harg3 arg4 harg4 arg5 harg5 arg6 harg6 arg7 harg7 arg8 harg8 arg9 harg9 arg10 harg10 hc0 hc1 x0 x1 x2).accCross = stepCross x0 x1 x2 (k0_pay7 (F := F)) := by
  unfold afterFirst
  dsimp only
  rw [View.read_writes_eq_canon _ _ _ (firstTile_cover_cr c i arg2 harg2 arg3 harg3 arg4 harg4 arg5 harg5 arg6 harg6 arg7 harg7 arg8 harg8 arg9 harg9 arg10 harg10 hc0 hc1 x0 x1 x2)]
  unfold firstTile
  dsimp only
  sl_unfold_words
  rw [View.canon_cons_unit_zero (S := S64x64) hz2]
  simp only [View.readAt_eq_ld, View.readCov_unit_zero (S := S64x1) _ hz2, View.readCov_unit_zero (S := S64x64) _ hz2, harg2.read_unread, harg3.read_unread, harg4.read_unread, harg5.read_unread, harg6.read_unread, harg7.read_unread, harg8.read_unread, harg9.read_unread, harg10.read_unread,
    View.ld_unit_zero (S := S64x8192) hz2, View.ld_unit_zero (S := S64x1) hz2, View.ld_unit_zero (S := S64x64) hz2, View.ld_unit_zero (S := S1x64x1) hz3, View.ld_unit_zero (S := S1x64x64) hz3]

end Cert.KernelIdeal.CrossTile

end
-- ==== Proof.CrossBlocks.lean ====
/-
  Where a tile's input blocks sit in the flattened arrays: tile number t of the 24 covers columns t * 8192 to
  t * 8192 + 8191 of every row of the data and of the noise; the time column is read whole at every tile; and the
  three results' blocks of a tile are those of its half t / 12.
-/
import proofs.«124021_j68367289418164_2_alg».proof.Proof.CrossRegion
import Idealize.ShloMosaic.Lib.Pipeline.Value
import Idealize.ShloMosaic.Lib.ValueIdx

set_option maxRecDepth 16384

noncomputable section

namespace Cert.KernelIdeal.CrossTile

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The two tiled windows' block of tile `t` is block column `t` of row block 0. -/
theorem tiled_index : ∀ t : Fin cfg0.N,
    (win0_0.index t 0 = 0 ∧ win0_0.index t 1 = t.val) ∧ (win0_1.index t 0 = 0 ∧ win0_1.index t 1 = t.val) :=
  (by decide +kernel : ∀ t : Fin grid0.N, _)
/-- The time column's block is always block (0, 0). -/
theorem whole_index : ∀ t : Fin cfg0.N, win0_2.index t 0 = 0 ∧ win0_2.index t 1 = 0 :=
  (by decide +kernel : ∀ t : Fin grid0.N, _)
/-- Each result's block of tile `t` is block (t / 12, 0, 0) of its array: the block of the tile's half. -/
theorem out_index : ∀ t : Fin cfg0.N,
    (win0_3.index t 0 = t.val / 12 ∧ win0_3.index t 1 = 0 ∧ win0_3.index t 2 = 0)
    ∧ (win0_4.index t 0 = t.val / 12 ∧ win0_4.index t 1 = 0 ∧ win0_4.index t 2 = 0)
    ∧ (win0_5.index t 0 = t.val / 12 ∧ win0_5.index t 1 = 0 ∧ win0_5.index t 2 = 0) :=
  (by decide +kernel : ∀ t : Fin grid0.N, _)

/-- Lane `l` of tile `t` is column `t * 8192 + l`. -/
def laneCol (t : Fin cfg0.N) (l : Fin 8192) : Fin 196608 :=
  ⟨t.val * 8192 + l.val, by have hN : t.val < 24 := lt_of_lt_of_eq t.isLt (show cfg0.N = 24 from N_0); have := l.isLt; omega⟩

/-- Window 0's block of tile `t` at row `b`, lane `l`, is its array at row `b`, column `t * 8192 + l`. -/
theorem blk0_apply (c : Dev nD) (t : Fin cfg0.N) (b : Fin 64) (l : Fin 8192) :
    (blk V c 0 t : Vec F S64x8192 .f32) (ix2 b l) = (V c main_v0 : Vec F S64x196608 .f32) (ix2 b (laneCol t l)) := by
  unfold blk
  rw [View.read_apply]
  show V c main_v0 _ = V c main_v0 _
  congr 1
  funext a
  apply Fin.ext
  match a with
  | ⟨0, _⟩ => show win0_0.index t 0 * 64 + 1 * b.val = b.val; rw [(tiled_index t).1.1]; omega
  | ⟨1, _⟩ => show win0_0.index t 1 * 8192 + 1 * l.val = t.val * 8192 + l.val; rw [(tiled_index t).1.2]; omega

/-- Window 1's block of tile `t` at row `b`, lane `l`, is its array at row `b`, column `t * 8192 + l`. -/
theorem blk1_apply (c : Dev nD) (t : Fin cfg0.N) (b : Fin 64) (l : Fin 8192) :
    (blk V c 1 t : Vec F S64x8192 .f32) (ix2 b l) = (V c main_v1 : Vec F S64x196608 .f32) (ix2 b (laneCol t l)) := by
  unfold blk
  rw [View.read_apply]
  show V c main_v1 _ = V c main_v1 _
  congr 1
  funext a
  apply Fin.ext
  match a with
  | ⟨0, _⟩ => show win0_1.index t 0 * 64 + 1 * b.val = b.val; rw [(tiled_index t).2.1]; omega
  | ⟨1, _⟩ => show win0_1.index t 1 * 8192 + 1 * l.val = t.val * 8192 + l.val; rw [(tiled_index t).2.2]; omega

/-- The time column's block at any tile is the whole column. -/
theorem blk2_eq (c : Dev nD) (t : Fin cfg0.N) : (blk V c 2 t : Vec F S64x1 .f32) = (V c main_v6 : Vec F S64x1 .f32) := by
  funext j
  unfold blk
  rw [View.read_apply]
  show V c main_v6 _ = V c main_v6 j
  congr 1
  funext a
  apply Fin.ext
  match a with
  | ⟨0, _⟩ => show win0_2.index t 0 * 64 + 1 * (j 0).val = (j 0).val; rw [(whole_index t).1]; omega
  | ⟨1, _⟩ => show win0_2.index t 1 * 1 + 1 * (j 1).val = (j 1).val; rw [(whole_index t).2]; omega

end Cert.KernelIdeal.CrossTile

end
-- ==== Proof.Spec.lean ====
/-
  The two kernel regions' results as plain sums over the flattened arrays, at the ideal values (floats are extended
  reals).  Rows b, j range over 64, columns over 196608 = 2 · 12 · 8192: half p, tile k, lane l, at column
  (12·p + k)·8192 + l.  With X = N + T·(D − N) the noised array:
    d2part p b      = ∑ k l, D[b,col]²
    n2part p b      = ∑ k l, X[b,col]²
    crosspart p b j = ∑ k l, X[b,col] · D[j,col]
    losspart p      = ∑ b k l, kloss[b,col]
  where kloss = ½·((PM − fc)² + (u² − fc²)) + (½·LV)·exp LV, fc = D − N, u = (∑ j, W[b,j]·D[j,col] − X) / (1 − T + ε).
-/
import Idealize.ShloMosaic.PureOps.Ideal
import Idealize.ShloMosaic.Lib.ValueIdx
import proofs.«124021_j68367289418164_2_alg».proof.KernelIdeal

noncomputable section

open scoped BigOperators

namespace Cert.Spec

open Idealize.ShloMosaic Idealize.ShloMosaic.ValueIdx Cert.KernelIdeal

/-- The column of half `p`, tile `k`, lane `l`. -/
def col (p : Fin 2) (k : Fin 12) (l : Fin 8192) : Fin 196608 :=
  ⟨(12 * p.val + k.val) * 8192 + l.val, by have := p.isLt; have := k.isLt; have := l.isLt; omega⟩

theorem col_val (p : Fin 2) (k : Fin 12) (l : Fin 8192) : (col p k l).val = (12 * p.val + k.val) * 8192 + l.val := rfl

section
variable (D N PM LV : FVec Ideal S64x196608 .f32) (T : FVec Ideal S64x1 .f32) (W : FVec Ideal S64x64 .f32)

/-- The noised entry X[b,f] = N[b,f] + T[b]·(D[b,f] − N[b,f]). -/
def noisedAt (b : Fin 64) (f : Fin 196608) : EReal :=
  N (ix2 b f) + T (ix2 b (0 : Fin 1)) * (D (ix2 b f) - N (ix2 b f))

/-- ∑ over half `p` of D[b,·]². -/
def d2part (p : Fin 2) (b : Fin 64) : EReal :=
  ∑ k : Fin 12, ∑ l : Fin 8192, D (ix2 b (col p k l)) * D (ix2 b (col p k l))

/-- ∑ over half `p` of X[b,·]². -/
def n2part (p : Fin 2) (b : Fin 64) : EReal :=
  ∑ k : Fin 12, ∑ l : Fin 8192, noisedAt D N T b (col p k l) * noisedAt D N T b (col p k l)

/-- ∑ over half `p` of X[b,·]·D[j,·]. -/
def crosspart (p : Fin 2) (b j : Fin 64) : EReal :=
  ∑ k : Fin 12, ∑ l : Fin 8192, noisedAt D N T b (col p k l) * D (ix2 j (col p k l))

/-- The flow condition fc[b,f] = D[b,f] − N[b,f]. -/
def fcAt (b : Fin 64) (f : Fin 196608) : EReal := D (ix2 b f) - N (ix2 b f)

/-- The mixture (W · D)[b,f] = ∑ j, W[b,j]·D[j,f]. -/
def mixAt (b : Fin 64) (f : Fin 196608) : EReal := ∑ j : Fin 64, W (ix2 b j) * D (ix2 j f)

/-- The denominator 1 − T[b] + ε (ε the f32 nearest 1e-8). -/
def denAt (b : Fin 64) : EReal :=
  (Ideal.ofBits .f32 0x3F800000#32 - T (ix2 b (0 : Fin 1))) + Ideal.ofBits .f32 0x322BCC77#32

/-- u[b,f] = (mix − X) / (1 − T + ε). -/
def uAt (b : Fin 64) (f : Fin 196608) : EReal :=
  Ideal.div (mixAt D W b f - noisedAt D N T b f) (denAt T b)

/-- The loss term: ½·((PM − fc)·(PM − fc) + (u·u − fc·fc)) + (½·LV)·exp LV. -/
def klossAt (b : Fin 64) (f : Fin 196608) : EReal :=
  Ideal.ofBits .f32 0x3F000000#32
      * ((PM (ix2 b f) - fcAt D N b f) * (PM (ix2 b f) - fcAt D N b f)
          + (uAt D N T W b f * uAt D N T W b f - fcAt D N b f * fcAt D N b f))
    + (Ideal.ofBits .f32 0x3F000000#32 * LV (ix2 b f)) * Ideal.exp (LV (ix2 b f))

/-- ∑ over rows and half `p` of the loss term. -/
def losspart (p : Fin 2) : EReal :=
  ∑ b : Fin 64, ∑ k : Fin 12, ∑ l : Fin 8192, klossAt D N PM LV T W b (col p k l)

/-! The same as arrays: what the regions' output buffers hold. -/

def d2partArr : FVec Ideal S2x64x1 .f32 := fun j => d2part D (j 0) (j 1)
def n2partArr : FVec Ideal S2x64x1 .f32 := fun j => n2part D N T (j 0) (j 1)
def crosspartArr : FVec Ideal S2x64x64 .f32 := fun j => crosspart D N T (j 0) (j 1) (j 2)
def losspartArr : FVec Ideal S2x1x1 .f32 := fun j => losspart D N PM LV T W (j 0)

theorem d2partArr_apply (p : Fin 2) (b : Fin 64) (z : Fin 1) : d2partArr D (ix3 p b z) = d2part D p b := rfl
theorem n2partArr_apply (p : Fin 2) (b : Fin 64) (z : Fin 1) : n2partArr D N T (ix3 p b z) = n2part D N T p b := rfl
theorem crosspartArr_apply (p : Fin 2) (b j : Fin 64) : crosspartArr D N T (ix3 p b j) = crosspart D N T p b j := rfl
theorem losspartArr_apply (p : Fin 2) (y z : Fin 1) : losspartArr D N PM LV T W (ix3 p y z) = losspart D N PM LV T W p := rfl

end

end Cert.Spec

end
-- ==== Proof.TilePayloads.lean ====
/-
  One tile of the loss region, at the ideal values.  For the data, noise, predicted-mean and predicted-log-variance
  blocks x0 x1 x2 x3 (64 rows × 8192 lanes), the time column x4 and the weights x5:
    tileLossAt … b l   the loss term of row b, lane l, over the blocks: the specification's klossAt with the blocks in
                       place of the arrays (tileLossAt_eq, where each block entry is the array's entry at col p k l);
    tileTerms_apply    the tile's step on the running column: row b gains the lane sum ∑ l, tileLossAt … b l;
    k1_pay3_apply      the running column starts at zero;  k1_pay2_apply  the last step sums the column over its rows.
-/
import proofs.«124021_j68367289418164_2_alg».proof.Proof.Gen.KernelIdeal.Skeleton
import proofs.«124021_j68367289418164_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Spec

open Idealize.ShloMosaic Idealize.ShloMosaic.ValueIdx Cert.KernelIdeal Cert.KernelIdeal.Gen

/-! ## Layout operations of the tile at an index -/

/-- A [64] vector reshaped to a [64,1] column: entry (b, 0) is the vector's entry b. -/
theorem vecToCol64_apply {α : Type} (v : S64.Idx → α) (h : S64.ShapeCasts S64x1) (b : Fin 64) (z : Fin 1) :
    shapeCast S64x1 v h (ix2 b z) = v (ix1 b) :=
  shapeCast_apply v h (ix2 b z) (ix1 b) (by
    rw [Shape.rowMajor_val_one, Shape.rowMajor_val_two]
    have hz := z.isLt
    show b.val = b.val * 1 + z.val
    omega)

/-- A [64,1] column broadcast along the lanes: entry (b, l) is the column's entry (b, 0). -/
theorem colToLanes_apply {α : Type} (v : S64x1.Idx → α) (h : S64x1.Broadcasts S64x8192) (b : Fin 64) (l : Fin 8192) :
    broadcastTo S64x8192 v h (ix2 b l) = v (ix2 b (0 : Fin 1)) := by
  refine broadcastTo_apply v h (ix2 b l) (ix2 b (0 : Fin 1)) fun ax => ?_
  match ax with
  | ⟨0, _⟩ =>
    show b.val = if (64 : Nat) = 1 then 0 else b.val
    rw [if_neg (by decide)]
  | ⟨1, _⟩ => rfl

/-- The lane sum of a 64 × 8192 block at row b. -/
theorem laneSum_apply (x : FVec Ideal S64x8192 .f32) (h : S64x8192.Reduces [1] S64) (hφ : FKind.Formats .f32)
    (hacc : (0x00000000#32 : BitVec 32) = FKind.add.neutral .f32 hφ) (b : Fin 64) :
    multiReduction (F := Ideal) .add [1] S64 x 0x00000000#32 h hφ hacc (ix1 b) = ∑ l : Fin 8192, x (ix2 b l) := by
  refine (Ideal.multiReduction_add_single x 0x00000000#32 h hφ hacc (ix1 b)).trans ?_
  refine Finset.sum_congr rfl fun l _ => ?_
  exact congrArg x (funext fun a => Fin.ext (by match a with | ⟨0, _⟩ => rfl | ⟨1, _⟩ => rfl))

/-- The row sum of a 64 × 1 column. -/
theorem rowSum_apply (x : FVec Ideal S64x1 .f32) (h : S64x1.Reduces [0] S1) (hφ : FKind.Formats .f32)
    (hacc : (0x00000000#32 : BitVec 32) = FKind.add.neutral .f32 hφ) (z : Fin 1) :
    multiReduction (F := Ideal) .add [0] S1 x 0x00000000#32 h hφ hacc (ix1 z) = ∑ b : Fin 64, x (ix2 b (0 : Fin 1)) := by
  refine (Ideal.multiReduction_add_single x 0x00000000#32 h hφ hacc (ix1 z)).trans ?_
  refine Finset.sum_congr rfl fun b _ => ?_
  exact congrArg x (funext fun a => Fin.ext (by
    match a with
    | ⟨0, _⟩ => rfl
    | ⟨1, _⟩ => have hz := z.isLt; show z.val = 0; omega))

/-- The operand indices of the tile's product: the left operand at (row, contraction), the right at (contraction, lane). -/
theorem mixL0 (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide),
    dif_pos (show (0 : Fin S64x64.rank) ∈ dot_S64x64_S64x8192_S64x8192_1_0_0_1_n_n.lhsNonContracting by decide)]
  rfl
theorem mixL1 (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q
theorem mixR0 (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q
theorem mixR1 (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide),
    dif_pos (show (1 : Fin S64x8192.rank) ∈ dot_S64x64_S64x8192_S64x8192_1_0_0_1_n_n.rhsNonContracting by decide)]
  rfl

/-- The weights times the data block, at (b, l): ∑ j, W[b,j]·D[j,l]. -/
theorem mix_apply {φ₁ φ₂ : FTy} (w : FVec Ideal S64x64 φ₁) (d : FVec Ideal S64x8192 φ₂) (b : Fin 64) (l : Fin 8192) :
    matmul (F := Ideal) dot_S64x64_S64x8192_S64x8192_1_0_0_1_n_n none w d (constant (F := Ideal) S64x8192 .f32 0x00000000#32)
        (ix2 b l)
      = ∑ j : Fin 64, w (ix2 b j) * d (ix2 j l) := by
  simp only [matmul]
  rw [Ideal.matmul_constant_zero_apply,
    ← Equiv.sum_comp (contrEquiv1 dot_S64x64_S64x8192_S64x8192_1_0_0_1_n_n 64 rfl rfl).symm]
  refine Finset.sum_congr rfl fun k _ => ?_
  have hk := contrEquiv1_symm_val dot_S64x64_S64x8192_S64x8192_1_0_0_1_n_n 64 rfl rfl k
  have el : dot_S64x64_S64x8192_S64x8192_1_0_0_1_n_n.lhsIdx (ix2 b l)
      ((contrEquiv1 dot_S64x64_S64x8192_S64x8192_1_0_0_1_n_n 64 rfl rfl).symm k) = ix2 b k :=
    funext fun a => Fin.ext (by
      match a with
      | ⟨0, _⟩ => exact mixL0 _ _
      | ⟨1, _⟩ => exact (mixL1 _ _).trans hk)
  have er : dot_S64x64_S64x8192_S64x8192_1_0_0_1_n_n.rhsIdx (ix2 b l)
      ((contrEquiv1 dot_S64x64_S64x8192_S64x8192_1_0_0_1_n_n 64 rfl rfl).symm k) = ix2 k l :=
    funext fun a => Fin.ext (by
      match a with
      | ⟨0, _⟩ => exact (mixR0 _ _).trans hk
      | ⟨1, _⟩ => exact mixR1 _ _)
  rw [el, er]

/-! ## The running column's first and last steps -/

/-- The running column starts at zero. -/
theorem k1_pay3_apply (b : Fin 64) (z : Fin 1) : k1_pay3 (F := Ideal) (ix2 b z) = Ideal.ofBits .f32 0x00000000#32 := by
  unfold k1_pay3
  simp only [shapeCast_self]
  rfl

/-- The last step sums the running column over its rows. -/
theorem k1_pay2_apply (v : FVec Ideal S64x1 .f32) (x y z : Fin 1) :
    k1_pay2 (F := Ideal) v (ix3 x y z) = ∑ b : Fin 64, v (ix2 b (0 : Fin 1)) := by
  unfold k1_pay2
  have hx := x.isLt
  have hy := y.isLt
  have hz := z.isLt
  rw [shapeCast_apply _ shapeCasts_S1x1_S1x1x1 (ix3 x y z) (ix2 (0 : Fin 1) (0 : Fin 1)) (by
      rw [Shape.rowMajor_val_two, Shape.rowMajor_val_three]
      show 0 * 1 + 0 = (x.val * 1 + y.val) * 1 + z.val
      omega),
    shapeCast_apply _ shapeCasts_S1_S1x1 (ix2 (0 : Fin 1) (0 : Fin 1)) (ix1 (0 : Fin 1)) (by
      rw [Shape.rowMajor_val_one, Shape.rowMajor_val_two]
      rfl)]
  exact rowSum_apply v _ _ _ (0 : Fin 1)

/-! ## The tile's loss terms -/

section
variable (x0 x1 x2 x3 : FVec Ideal S64x8192 .f32) (x4 : FVec Ideal S64x1 .f32) (x5 : FVec Ideal S64x64 .f32)

/-- u of row b, lane l, over one tile's blocks. -/
def tileUAt (b : Fin 64) (l : Fin 8192) : EReal :=
  Ideal.div
    ((∑ j : Fin 64, x5 (ix2 b j) * x0 (ix2 j l))
      - (x1 (ix2 b l) + x4 (ix2 b (0 : Fin 1)) * (x0 (ix2 b l) - x1 (ix2 b l))))
    ((Ideal.ofBits .f32 0x3F800000#32 - x4 (ix2 b (0 : Fin 1))) + Ideal.ofBits .f32 0x322BCC77#32)

/-- The loss term of row b, lane l, over one tile's blocks. -/
def tileLossAt (b : Fin 64) (l : Fin 8192) : EReal :=
  Ideal.ofBits .f32 0x3F000000#32
      * ((x2 (ix2 b l) - (x0 (ix2 b l) - x1 (ix2 b l))) * (x2 (ix2 b l) - (x0 (ix2 b l) - x1 (ix2 b l)))
          + (tileUAt x0 x1 x4 x5 b l * tileUAt x0 x1 x4 x5 b l
              - (x0 (ix2 b l) - x1 (ix2 b l)) * (x0 (ix2 b l) - x1 (ix2 b l))))
    + (Ideal.ofBits .f32 0x3F000000#32 * x3 (ix2 b l)) * Ideal.exp (x3 (ix2 b l))

/-- Over blocks that are the arrays' entries at the tile's columns, the tile's loss term is the specification's. -/
theorem tileLossAt_eq (D N PM LV : FVec Ideal S64x196608 .f32) (T : FVec Ideal S64x1 .f32) (W : FVec Ideal S64x64 .f32)
    (p : Fin 2) (k : Fin 12)
    (h0 : ∀ b l, x0 (ix2 b l) = D (ix2 b (col p k l))) (h1 : ∀ b l, x1 (ix2 b l) = N (ix2 b (col p k l)))
    (h2 : ∀ b l, x2 (ix2 b l) = PM (ix2 b (col p k l))) (h3 : ∀ b l, x3 (ix2 b l) = LV (ix2 b (col p k l)))
    (h4 : x4 = T) (h5 : x5 = W) (b : Fin 64) (l : Fin 8192) :
    tileLossAt x0 x1 x2 x3 x4 x5 b l = klossAt D N PM LV T W b (col p k l) := by
  subst h4 h5
  unfold tileLossAt tileUAt klossAt uAt mixAt denAt fcAt noisedAt
  simp only [h0, h1, h2, h3]

/-- The vector exponential at an index. -/
theorem exp_apply {s : Shape} {φ : FTy} (x : FVec Ideal s φ) (i : s.Idx) : exp x i = Ideal.exp (x i) := rfl

/-- The tile's half-sum-of-squares term at (b, l). -/
theorem k1_pay6_apply (b : Fin 64) (l : Fin 8192) :
    k1_pay6 (F := Ideal) x0 x1 x2 x4 x5 (ix2 b l)
      = Ideal.ofBits .f32 0x3F000000#32
          * ((x2 (ix2 b l) - (x0 (ix2 b l) - x1 (ix2 b l))) * (x2 (ix2 b l) - (x0 (ix2 b l) - x1 (ix2 b l)))
              + (tileUAt x0 x1 x4 x5 b l * tileUAt x0 x1 x4 x5 b l
                  - (x0 (ix2 b l) - x1 (ix2 b l)) * (x0 (ix2 b l) - x1 (ix2 b l)))) := by
  unfold k1_pay6 tileUAt
  simp only [shapeCast_self, mulf_apply, addf_apply, subf_apply, divf_apply, broadcast_apply, colToLanes_apply,
    mix_apply, truncf_apply]
  rfl

/-- THE TILE'S STEP: row b of the running column gains the lane sum of the tile's loss terms. -/
theorem tileTerms_apply (xs : FVec Ideal S64x1 .f32) (b : Fin 64) (z : Fin 1) :
    k1_pay1 (F := Ideal) (k1_pay4 x3) (k1_pay5 x3) (k1_pay6 x0 x1 x2 x4 x5) xs (ix2 b z)
      = xs (ix2 b z) + ∑ l : Fin 8192, tileLossAt x0 x1 x2 x3 x4 x5 b l := by
  unfold k1_pay1 k1_pay5 k1_pay4 tileLossAt
  simp only [shapeCast_self, addf_apply, vecToCol64_apply]
  refine congrArg (xs (ix2 b z) + ·) ((laneSum_apply _ _ _ _ b).trans (Finset.sum_congr rfl fun l _ => ?_))
  simp only [addf_apply, mulf_apply, broadcast_apply, k1_pay6_apply, exp_apply]
  rfl

end

end Cert.Spec

end
-- ==== Proof.TilePayloads0.lean ====
/-
  One tile of the statistics region, at the ideal values.  For the data and noise blocks x0 x1 (64 rows × 8192 lanes) and
  the time column x4, with the tile's noised entry X[b,l] = x1[b,l] + x4[b]·(x0[b,l] − x1[b,l]):
    the three running sums' steps: row b of the d2 column gains ∑ l, x0[b,l]², row b of the n2 column gains ∑ l, X[b,l]²,
    entry (b, j) of the cross matrix gains ∑ l, X[b,l]·x0[j,l];
    the running sums start at zero; the last step copies them out under a leading unit axis.
-/
import proofs.«124021_j68367289418164_2_alg».proof.Proof.Gen.KernelIdeal.Skeleton
import proofs.«124021_j68367289418164_2_alg».proof.Proof.Spec
import proofs.«124021_j68367289418164_2_alg».proof.Proof.TilePayloads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Spec

open Idealize.ShloMosaic Idealize.ShloMosaic.ValueIdx Cert.KernelIdeal Cert.KernelIdeal.Gen

/-! ## The product over the lanes at an index -/

theorem crossL0 (i : S64x64.Idx) (q : dot_S64x8192_S64x8192_S64x64_1_1_0_0_n_n.contr.Idx) :
    (dot_S64x8192_S64x8192_S64x64_1_1_0_0_n_n.lhsIdx i q 0).val = (i 0).val := by
  unfold DotDims.lhsIdx
  rw [dif_neg (show ¬(0 : Fin S64x8192.rank) ∈ dot_S64x8192_S64x8192_S64x64_1_1_0_0_n_n.lhsBatch by decide),
    dif_pos (show (0 : Fin S64x8192.rank) ∈ dot_S64x8192_S64x8192_S64x64_1_1_0_0_n_n.lhsNonContracting by decide)]
  rfl
theorem crossL1 (i : S64x64.Idx) (q : dot_S64x8192_S64x8192_S64x64_1_1_0_0_n_n.contr.Idx) :
    (dot_S64x8192_S64x8192_S64x64_1_1_0_0_n_n.lhsIdx i q 1).val = (q ⟨0, by decide⟩).val :=
  dot_S64x8192_S64x8192_S64x64_1_1_0_0_n_n.lhsIdx_val_of_single rfl i q
theorem crossR0 (i : S64x64.Idx) (q : dot_S64x8192_S64x8192_S64x64_1_1_0_0_n_n.contr.Idx) :
    (dot_S64x8192_S64x8192_S64x64_1_1_0_0_n_n.rhsIdx i q 0).val = (i 1).val := by
  unfold DotDims.rhsIdx
  rw [dif_neg (show ¬(0 : Fin S64x8192.rank) ∈ dot_S64x8192_S64x8192_S64x64_1_1_0_0_n_n.rhsBatch by decide),
    dif_pos (show (0 : Fin S64x8192.rank) ∈ dot_S64x8192_S64x8192_S64x64_1_1_0_0_n_n.rhsNonContracting by decide)]
  rfl
theorem crossR1 (i : S64x64.Idx) (q : dot_S64x8192_S64x8192_S64x64_1_1_0_0_n_n.contr.Idx) :
    (dot_S64x8192_S64x8192_S64x64_1_1_0_0_n_n.rhsIdx i q 1).val = (q ⟨0, by decide⟩).val :=
  dot_S64x8192_S64x8192_S64x64_1_1_0_0_n_n.rhsIdx_val_of_single rfl i q

/-- The product of two 64 × 8192 blocks over their lanes, at (b, j): ∑ l, u[b,l]·v[j,l]. -/
theorem cross_apply {φ₁ φ₂ : FTy} (u : FVec Ideal S64x8192 φ₁) (v : FVec Ideal S64x8192 φ₂) (b j : Fin 64) :
    matmul (F := Ideal) dot_S64x8192_S64x8192_S64x64_1_1_0_0_n_n none u v (constant (F := Ideal) S64x64 .f32 0x00000000#32)
        (ix2 b j)
      = ∑ l : Fin 8192, u (ix2 b l) * v (ix2 j l) := by
  simp only [matmul]
  rw [Ideal.matmul_constant_zero_apply,
    ← Equiv.sum_comp (contrEquiv1 dot_S64x8192_S64x8192_S64x64_1_1_0_0_n_n 8192 rfl rfl).symm]
  refine Finset.sum_congr rfl fun k _ => ?_
  have hk := contrEquiv1_symm_val dot_S64x8192_S64x8192_S64x64_1_1_0_0_n_n 8192 rfl rfl k
  have el : dot_S64x8192_S64x8192_S64x64_1_1_0_0_n_n.lhsIdx (ix2 b j)
      ((contrEquiv1 dot_S64x8192_S64x8192_S64x64_1_1_0_0_n_n 8192 rfl rfl).symm k) = ix2 b k :=
    funext fun a => Fin.ext (by
      match a with
      | ⟨0, _⟩ => exact crossL0 _ _
      | ⟨1, _⟩ => exact (crossL1 _ _).trans hk)
  have er : dot_S64x8192_S64x8192_S64x64_1_1_0_0_n_n.rhsIdx (ix2 b j)
      ((contrEquiv1 dot_S64x8192_S64x8192_S64x64_1_1_0_0_n_n 8192 rfl rfl).symm k) = ix2 j k :=
    funext fun a => Fin.ext (by
      match a with
      | ⟨0, _⟩ => exact crossR0 _ _
      | ⟨1, _⟩ => exact (crossR1 _ _).trans hk)
  rw [el, er]

/-! ## The running sums' first and last steps -/

/-- The d2 column starts at zero. -/
theorem k0_pay5_apply (b : Fin 64) (z : Fin 1) : k0_pay5 (F := Ideal) (ix2 b z) = Ideal.ofBits .f32 0x00000000#32 := by
  unfold k0_pay5
  simp only [shapeCast_self]
  rfl

/-- The n2 column starts at zero. -/
theorem k0_pay6_apply (b : Fin 64) (z : Fin 1) : k0_pay6 (F := Ideal) (ix2 b z) = Ideal.ofBits .f32 0x00000000#32 := by
  unfold k0_pay6
  simp only [shapeCast_self]
  rfl

/-- The cross matrix starts at zero. -/
theorem k0_pay7_apply (b j : Fin 64) : k0_pay7 (F := Ideal) (ix2 b j) = Ideal.ofBits .f32 0x00000000#32 := by
  unfold k0_pay7
  simp only [shapeCast_self]
  rfl

/-- The cross matrix is stored as it is. -/
theorem k0_pay1_eq (v : FVec Ideal S64x64 .f32) : k0_pay1 (F := Ideal) v = v := by
  unfold k0_pay1
  simp only [shapeCast_self]

/-- The d2 column copied out under a leading unit axis. -/
theorem k0_pay2_apply (v : FVec Ideal S64x1 .f32) (x : Fin 1) (b : Fin 64) (z : Fin 1) :
    k0_pay2 (F := Ideal) v (ix3 x b z) = v (ix2 b z) := by
  unfold k0_pay2
  exact shapeCast_ab_1ab_apply v _ x b z

/-- The n2 column copied out under a leading unit axis. -/
theorem k0_pay3_apply (v : FVec Ideal S64x1 .f32) (x : Fin 1) (b : Fin 64) (z : Fin 1) :
    k0_pay3 (F := Ideal) v (ix3 x b z) = v (ix2 b z) := by
  unfold k0_pay3
  exact shapeCast_ab_1ab_apply v _ x b z

/-- The cross matrix copied out under a leading unit axis. -/
theorem k0_pay4_apply (v : FVec Ideal S64x64 .f32) (x : Fin 1) (b j : Fin 64) :
    k0_pay4 (F := Ideal) v (ix3 x b j) = v (ix2 b j) := by
  unfold k0_pay4
  exact shapeCast_ab_1ab_apply v _ x b j

/-! ## The tile's steps -/

section
variable (x0 x1 : FVec Ideal S64x8192 .f32) (x4 : FVec Ideal S64x1 .f32)

/-- The tile's noised entry X[b,l] = x1[b,l] + x4[b]·(x0[b,l] − x1[b,l]). -/
def tileNoisedAt (b : Fin 64) (l : Fin 8192) : EReal :=
  x1 (ix2 b l) + x4 (ix2 b (0 : Fin 1)) * (x0 (ix2 b l) - x1 (ix2 b l))

/-- Over blocks that are the arrays' entries at the tile's columns, the tile's noised entry is the specification's. -/
theorem tileNoisedAt_eq (D N : FVec Ideal S64x196608 .f32) (T : FVec Ideal S64x1 .f32) (p : Fin 2) (k : Fin 12)
    (h0 : ∀ b l, x0 (ix2 b l) = D (ix2 b (col p k l))) (h1 : ∀ b l, x1 (ix2 b l) = N (ix2 b (col p k l)))
    (h4 : x4 = T) (b : Fin 64) (l : Fin 8192) :
    tileNoisedAt x0 x1 x4 b l = noisedAt D N T b (col p k l) := by
  subst h4
  unfold tileNoisedAt noisedAt
  rw [h0, h1]

/-- The data block is read as it is. -/
theorem k0_pay8_eq : k0_pay8 (F := Ideal) x0 = x0 := by
  unfold k0_pay8
  simp only [shapeCast_self]

/-- The tile's noised block at (b, l). -/
theorem k0_pay9_apply (b : Fin 64) (l : Fin 8192) :
    k0_pay9 (F := Ideal) x0 x1 x4 (ix2 b l) = tileNoisedAt x0 x1 x4 b l := by
  unfold k0_pay9 tileNoisedAt
  simp only [k0_pay8_eq, shapeCast_self, addf_apply, mulf_apply, subf_apply, colToLanes_apply]

/-- THE d2 STEP: row b gains the lane sum of the squared data. -/
theorem k0_pay10_apply (xs : FVec Ideal S64x1 .f32) (b : Fin 64) (z : Fin 1) :
    k0_pay10 (F := Ideal) x0 xs (ix2 b z) = xs (ix2 b z) + ∑ l : Fin 8192, x0 (ix2 b l) * x0 (ix2 b l) := by
  unfold k0_pay10
  simp only [k0_pay8_eq, shapeCast_self, addf_apply, vecToCol64_apply]
  refine congrArg (xs (ix2 b z) + ·) ((laneSum_apply _ _ _ _ b).trans (Finset.sum_congr rfl fun l _ => ?_))
  rfl

/-- THE n2 STEP: row b gains the lane sum of the squared noised entries. -/
theorem k0_pay11_apply (xs : FVec Ideal S64x1 .f32) (b : Fin 64) (z : Fin 1) :
    k0_pay11 (F := Ideal) x0 x1 x4 xs (ix2 b z)
      = xs (ix2 b z) + ∑ l : Fin 8192, tileNoisedAt x0 x1 x4 b l * tileNoisedAt x0 x1 x4 b l := by
  unfold k0_pay11
  simp only [shapeCast_self, addf_apply, vecToCol64_apply]
  refine congrArg (xs (ix2 b z) + ·) ((laneSum_apply _ _ _ _ b).trans (Finset.sum_congr rfl fun l _ => ?_))
  simp only [mulf_apply, k0_pay9_apply]

/-- THE cross STEP: entry (b, j) gains the lane sum of noised row b times data row j. -/
theorem k0_pay12_apply (xs : FVec Ideal S64x64 .f32) (b j : Fin 64) :
    k0_pay12 (F := Ideal) x0 x1 x4 xs (ix2 b j)
      = xs (ix2 b j) + ∑ l : Fin 8192, tileNoisedAt x0 x1 x4 b l * x0 (ix2 j l) := by
  unfold k0_pay12
  simp only [k0_pay8_eq, addf_apply, cross_apply, truncf_apply, k0_pay9_apply]

end

end Cert.Spec

end
-- ==== Proof.CrossValue.lean ====
/-
  What the cross-statistics kernel's three running sums and three results hold, in the specification's terms (at
  the extended reals).

  Tile t = 12 p + k of the 24 adds, over its 8192 lanes l at columns (12 p + k) * 8192 + l: to row b of the first
  running column the squares of the data's row b; to row b of the second the squares of the noised data's row b;
  to entry (b, j) of the running matrix the noised data's row b times the data's row j.  So after tile t each
  running sum is the sum of those lane sums over the tiles 12 p, …, t of its row of twelve (by induction on t),
  and after the last tile of the row each result's block is that: the specification's partial sums for half p.
-/
import proofs.«124021_j68367289418164_2_alg».proof.Proof.CrossPieces
import proofs.«124021_j68367289418164_2_alg».proof.Proof.CrossBlocks
import proofs.«124021_j68367289418164_2_alg».proof.Proof.TilePayloads0

set_option maxRecDepth 16384

noncomputable section

namespace Cert.KernelIdeal.CrossTile

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as the region finds them. -/
abbrev aD (c : Dev nD) : FVec Ideal S64x196608 .f32 := V c main_v0
abbrev aN (c : Dev nD) : FVec Ideal S64x196608 .f32 := V c main_v1
abbrev aT (c : Dev nD) : FVec Ideal S64x1 .f32 := V c main_v6

/-- The square of the data's row `b` at lane `l` of tile `k` of half `p` (zero outside the 2 x 12 tiles). -/
def d2Term (c : Dev nD) (b : Fin 64) (p k : ℕ) (l : Fin 8192) : EReal :=
  if h : p < 2 ∧ k < 12 then aD V c (ix2 b (Spec.col ⟨p, h.1⟩ ⟨k, h.2⟩ l)) * aD V c (ix2 b (Spec.col ⟨p, h.1⟩ ⟨k, h.2⟩ l)) else 0
/-- The square of the noised data's row `b` there. -/
def n2Term (c : Dev nD) (b : Fin 64) (p k : ℕ) (l : Fin 8192) : EReal :=
  if h : p < 2 ∧ k < 12 then Spec.noisedAt (aD V c) (aN V c) (aT V c) b (Spec.col ⟨p, h.1⟩ ⟨k, h.2⟩ l) * Spec.noisedAt (aD V c) (aN V c) (aT V c) b (Spec.col ⟨p, h.1⟩ ⟨k, h.2⟩ l) else 0
/-- The noised data's row `b` times the data's row `j` there. -/
def crTerm (c : Dev nD) (b j : Fin 64) (p k : ℕ) (l : Fin 8192) : EReal :=
  if h : p < 2 ∧ k < 12 then Spec.noisedAt (aD V c) (aN V c) (aT V c) b (Spec.col ⟨p, h.1⟩ ⟨k, h.2⟩ l) * aD V c (ix2 j (Spec.col ⟨p, h.1⟩ ⟨k, h.2⟩ l)) else 0

/-- A tile adds to row `b` of the first running column the sum of its lanes' squares of the data. -/
theorem tile_row_d2 (c : Dev nD) (t : Fin cfg0.N) (xs : FVec Ideal S64x1 .f32) (b : Fin 64) :
    stepD2 (F := Ideal) (blk V c 0 t) xs (ix2 b (0 : Fin 1))
      = xs (ix2 b (0 : Fin 1)) + ∑ l : Fin 8192, d2Term V c b (t.val / 12) (t.val % 12) l := by
  have hN : t.val < 24 := lt_of_lt_of_eq t.isLt (show cfg0.N = 24 from N_0)
  have hp : t.val / 12 < 2 := by omega
  have hk : t.val % 12 < 12 := Nat.mod_lt _ (by decide)
  have hcol : ∀ l : Fin 8192, laneCol t l = Spec.col ⟨t.val / 12, hp⟩ ⟨t.val % 12, hk⟩ l := fun l =>
    Fin.ext (by show t.val * 8192 + l.val = (12 * (t.val / 12) + t.val % 12) * 8192 + l.val; rw [Nat.div_add_mod])
  show k0_pay10 (F := Ideal) _ xs (ix2 b (0 : Fin 1)) = _
  rw [Spec.k0_pay10_apply]
  congr 1
  refine Finset.sum_congr rfl fun l _ => ?_
  unfold d2Term
  rw [dif_pos ⟨hp, hk⟩, blk0_apply, hcol]

/-- A tile adds to row `b` of the second running column the sum of its lanes' squares of the noised data. -/
theorem tile_row_n2 (c : Dev nD) (t : Fin cfg0.N) (xs : FVec Ideal S64x1 .f32) (b : Fin 64) :
    stepN2 (F := Ideal) (blk V c 0 t) (blk V c 1 t) (blk V c 2 t) xs (ix2 b (0 : Fin 1))
      = xs (ix2 b (0 : Fin 1)) + ∑ l : Fin 8192, n2Term V c b (t.val / 12) (t.val % 12) l := by
  have hN : t.val < 24 := lt_of_lt_of_eq t.isLt (show cfg0.N = 24 from N_0)
  have hp : t.val / 12 < 2 := by omega
  have hk : t.val % 12 < 12 := Nat.mod_lt _ (by decide)
  have hcol : ∀ l : Fin 8192, laneCol t l = Spec.col ⟨t.val / 12, hp⟩ ⟨t.val % 12, hk⟩ l := fun l =>
    Fin.ext (by show t.val * 8192 + l.val = (12 * (t.val / 12) + t.val % 12) * 8192 + l.val; rw [Nat.div_add_mod])
  show k0_pay11 (F := Ideal) _ _ _ xs (ix2 b (0 : Fin 1)) = _
  rw [Spec.k0_pay11_apply]
  congr 1
  refine Finset.sum_congr rfl fun l _ => ?_
  unfold n2Term
  rw [dif_pos ⟨hp, hk⟩, Spec.tileNoisedAt_eq _ _ _ (aD V c) (aN V c) (aT V c) ⟨t.val / 12, hp⟩ ⟨t.val % 12, hk⟩
    (fun b l => by rw [blk0_apply, hcol]) (fun b l => by rw [blk1_apply, hcol]) (blk2_eq V c t) b l]

/-- A tile adds to entry (`b`, `j`) of the running matrix the sum over its lanes of the noised data's row `b` times
    the data's row `j`. -/
theorem tile_row_cross (c : Dev nD) (t : Fin cfg0.N) (xs : FVec Ideal S64x64 .f32) (b j : Fin 64) :
    stepCross (F := Ideal) (blk V c 0 t) (blk V c 1 t) (blk V c 2 t) xs (ix2 b j)
      = xs (ix2 b j) + ∑ l : Fin 8192, crTerm V c b j (t.val / 12) (t.val % 12) l := by
  have hN : t.val < 24 := lt_of_lt_of_eq t.isLt (show cfg0.N = 24 from N_0)
  have hp : t.val / 12 < 2 := by omega
  have hk : t.val % 12 < 12 := Nat.mod_lt _ (by decide)
  have hcol : ∀ l : Fin 8192, laneCol t l = Spec.col ⟨t.val / 12, hp⟩ ⟨t.val % 12, hk⟩ l := fun l =>
    Fin.ext (by show t.val * 8192 + l.val = (12 * (t.val / 12) + t.val % 12) * 8192 + l.val; rw [Nat.div_add_mod])
  show k0_pay1 (F := Ideal) (k0_pay12 (F := Ideal) _ _ _ xs) (ix2 b j) = _
  rw [Spec.k0_pay1_eq, Spec.k0_pay12_apply]
  congr 1
  refine Finset.sum_congr rfl fun l _ => ?_
  unfold crTerm
  rw [dif_pos ⟨hp, hk⟩, Spec.tileNoisedAt_eq _ _ _ (aD V c) (aN V c) (aT V c) ⟨t.val / 12, hp⟩ ⟨t.val % 12, hk⟩
    (fun b l => by rw [blk0_apply, hcol]) (fun b l => by rw [blk1_apply, hcol]) (blk2_eq V c t) b l, blk0_apply, hcol]

/-- The first running column's row `b` after tile `n`: the lane sums of the tiles of its row of twelve up to it. -/
theorem d2_after (c : Dev nD) (b : Fin 64) : ∀ (n : ℕ) (h : n < cfg0.N),
    (accAt V c n h).accD2 (ix2 b (0 : Fin 1)) = ∑ k ∈ Finset.range (n % 12 + 1), ∑ l : Fin 8192, d2Term V c b (n / 12) k l
  | 0, h => by
    have e := congrArg Sums.accD2 (accAt_first V c ⟨0, h⟩ (Nat.zero_mod _) (by show ¬(0 : ℕ) % 12 = 11; decide))
    dsimp only at e
    rw [e, afterFirst_accD2, tile_row_d2 V c ⟨0, h⟩, Spec.k0_pay5_apply, Ideal.ofBits_zero_f32, zero_add]
    simp only [Nat.zero_mod, Nat.zero_div, zero_add, Finset.sum_range_one]
  | n + 1, h => by
    have hN : n + 1 < 24 := lt_of_lt_of_eq h (show cfg0.N = 24 from N_0)
    by_cases h0 : (n + 1) % 12 = 0
    · have h1 : ¬(n + 1) % 12 = 11 := by omega
      have e := congrArg Sums.accD2 (accAt_first V c ⟨n + 1, h⟩ h0 h1)
      dsimp only at e
      rw [e, afterFirst_accD2, tile_row_d2 V c ⟨n + 1, h⟩, Spec.k0_pay5_apply, Ideal.ofBits_zero_f32, zero_add]
      dsimp only
      rw [h0]
      simp only [zero_add, Finset.sum_range_one]
    · have ih := d2_after c b n (Nat.lt_of_succ_lt h)
      have hd : (n + 1) / 12 = n / 12 := by omega
      have hm : (n + 1) % 12 = n % 12 + 1 := by omega
      by_cases h1 : (n + 1) % 12 = 11
      · have e := congrArg Sums.accD2 (accAt_last V c ⟨n + 1, h⟩ h0 h1)
        dsimp only at e
        rw [e, afterLast_accD2, tile_row_d2 V c ⟨n + 1, h⟩]
        dsimp only
        rw [show (accAt V c (n + 1 - 1) (Nat.lt_of_le_of_lt (Nat.sub_le _ _) h)).accD2 (ix2 b (0 : Fin 1)) = _ from ih, hd, hm, Finset.sum_range_succ (fun k => ∑ l : Fin 8192, d2Term V c b (n / 12) k l) (n % 12 + 1)]
      · have e := congrArg Sums.accD2 (accAt_mid V c ⟨n + 1, h⟩ h0 h1)
        dsimp only at e
        rw [e, afterMid_accD2, tile_row_d2 V c ⟨n + 1, h⟩]
        dsimp only
        rw [show (accAt V c (n + 1 - 1) (Nat.lt_of_le_of_lt (Nat.sub_le _ _) h)).accD2 (ix2 b (0 : Fin 1)) = _ from ih, hd, hm, Finset.sum_range_succ (fun k => ∑ l : Fin 8192, d2Term V c b (n / 12) k l) (n % 12 + 1)]

/-- The second running column's row `b` after tile `n`. -/
theorem n2_after (c : Dev nD) (b : Fin 64) : ∀ (n : ℕ) (h : n < cfg0.N),
    (accAt V c n h).accN2 (ix2 b (0 : Fin 1)) = ∑ k ∈ Finset.range (n % 12 + 1), ∑ l : Fin 8192, n2Term V c b (n / 12) k l
  | 0, h => by
    have e := congrArg Sums.accN2 (accAt_first V c ⟨0, h⟩ (Nat.zero_mod _) (by show ¬(0 : ℕ) % 12 = 11; decide))
    dsimp only at e
    rw [e, afterFirst_accN2, tile_row_n2 V c ⟨0, h⟩, Spec.k0_pay6_apply, Ideal.ofBits_zero_f32, zero_add]
    simp only [Nat.zero_mod, Nat.zero_div, zero_add, Finset.sum_range_one]
  | n + 1, h => by
    have hN : n + 1 < 24 := lt_of_lt_of_eq h (show cfg0.N = 24 from N_0)
    by_cases h0 : (n + 1) % 12 = 0
    · have h1 : ¬(n + 1) % 12 = 11 := by omega
      have e := congrArg Sums.accN2 (accAt_first V c ⟨n + 1, h⟩ h0 h1)
      dsimp only at e
      rw [e, afterFirst_accN2, tile_row_n2 V c ⟨n + 1, h⟩, Spec.k0_pay6_apply, Ideal.ofBits_zero_f32, zero_add]
      dsimp only
      rw [h0]
      simp only [zero_add, Finset.sum_range_one]
    · have ih := n2_after c b n (Nat.lt_of_succ_lt h)
      have hd : (n + 1) / 12 = n / 12 := by omega
      have hm : (n + 1) % 12 = n % 12 + 1 := by omega
      by_cases h1 : (n + 1) % 12 = 11
      · have e := congrArg Sums.accN2 (accAt_last V c ⟨n + 1, h⟩ h0 h1)
        dsimp only at e
        rw [e, afterLast_accN2, tile_row_n2 V c ⟨n + 1, h⟩]
        dsimp only
        rw [show (accAt V c (n + 1 - 1) (Nat.lt_of_le_of_lt (Nat.sub_le _ _) h)).accN2 (ix2 b (0 : Fin 1)) = _ from ih, hd, hm, Finset.sum_range_succ (fun k => ∑ l : Fin 8192, n2Term V c b (n / 12) k l) (n % 12 + 1)]
      · have e := congrArg Sums.accN2 (accAt_mid V c ⟨n + 1, h⟩ h0 h1)
        dsimp only at e
        rw [e, afterMid_accN2, tile_row_n2 V c ⟨n + 1, h⟩]
        dsimp only
        rw [show (accAt V c (n + 1 - 1) (Nat.lt_of_le_of_lt (Nat.sub_le _ _) h)).accN2 (ix2 b (0 : Fin 1)) = _ from ih, hd, hm, Finset.sum_range_succ (fun k => ∑ l : Fin 8192, n2Term V c b (n / 12) k l) (n % 12 + 1)]

/-- The running matrix's entry (`b`, `j`) after tile `n`. -/
theorem cross_after (c : Dev nD) (b j : Fin 64) : ∀ (n : ℕ) (h : n < cfg0.N),
    (accAt V c n h).accCross (ix2 b j) = ∑ k ∈ Finset.range (n % 12 + 1), ∑ l : Fin 8192, crTerm V c b j (n / 12) k l
  | 0, h => by
    have e := congrArg Sums.accCross (accAt_first V c ⟨0, h⟩ (Nat.zero_mod _) (by show ¬(0 : ℕ) % 12 = 11; decide))
    dsimp only at e
    rw [e, afterFirst_accCross, tile_row_cross V c ⟨0, h⟩, Spec.k0_pay7_apply, Ideal.ofBits_zero_f32, zero_add]
    simp only [Nat.zero_mod, Nat.zero_div, zero_add, Finset.sum_range_one]
  | n + 1, h => by
    have hN : n + 1 < 24 := lt_of_lt_of_eq h (show cfg0.N = 24 from N_0)
    by_cases h0 : (n + 1) % 12 = 0
    · have h1 : ¬(n + 1) % 12 = 11 := by omega
      have e := congrArg Sums.accCross (accAt_first V c ⟨n + 1, h⟩ h0 h1)
      dsimp only at e
      rw [e, afterFirst_accCross, tile_row_cross V c ⟨n + 1, h⟩, Spec.k0_pay7_apply, Ideal.ofBits_zero_f32, zero_add]
      dsimp only
      rw [h0]
      simp only [zero_add, Finset.sum_range_one]
    · have ih := cross_after c b j n (Nat.lt_of_succ_lt h)
      have hd : (n + 1) / 12 = n / 12 := by omega
      have hm : (n + 1) % 12 = n % 12 + 1 := by omega
      by_cases h1 : (n + 1) % 12 = 11
      · have e := congrArg Sums.accCross (accAt_last V c ⟨n + 1, h⟩ h0 h1)
        dsimp only at e
        rw [e, afterLast_accCross, tile_row_cross V c ⟨n + 1, h⟩]
        dsimp only
        rw [show (accAt V c (n + 1 - 1) (Nat.lt_of_le_of_lt (Nat.sub_le _ _) h)).accCross (ix2 b j) = _ from ih, hd, hm, Finset.sum_range_succ (fun k => ∑ l : Fin 8192, crTerm V c b j (n / 12) k l) (n % 12 + 1)]
      · have e := congrArg Sums.accCross (accAt_mid V c ⟨n + 1, h⟩ h0 h1)
        dsimp only at e
        rw [e, afterMid_accCross, tile_row_cross V c ⟨n + 1, h⟩]
        dsimp only
        rw [show (accAt V c (n + 1 - 1) (Nat.lt_of_le_of_lt (Nat.sub_le _ _) h)).accCross (ix2 b j) = _ from ih, hd, hm, Finset.sum_range_succ (fun k => ∑ l : Fin 8192, crTerm V c b j (n / 12) k l) (n % 12 + 1)]

/-- After the last tile of half `p` the first result's block is the specification's partial sums of the data's squares for that half, -/
theorem outD2_after_last (c : Dev nD) (t : Fin cfg0.N) (h1 : t.val % 12 = 11) (x : Fin 1) (b : Fin 64) (z : Fin 1) :
    (accAt V c t.val t.isLt).outD2 (ix3 x b z)
      = Spec.d2part (aD V c) ⟨t.val / 12, by
          have hN : t.val < 24 := lt_of_lt_of_eq t.isLt (show cfg0.N = 24 from N_0); omega⟩ b := by
  have hN : t.val < 24 := lt_of_lt_of_eq t.isLt (show cfg0.N = 24 from N_0)
  have h0 : ¬t.val % 12 = 0 := by omega
  have hp : t.val / 12 < 2 := by omega
  have e := congrArg Sums.outD2 (accAt_last V c t h0 h1)
  rw [e, afterLast_outD2, Spec.k0_pay2_apply]
  obtain rfl : z = (0 : Fin 1) := Subsingleton.elim _ _
  have hcol := d2_after V c b t.val t.isLt
  have e2 := congrArg Sums.accD2 (accAt_last V c t h0 h1)
  rw [e2, afterLast_accD2] at hcol
  rw [hcol, h1, Finset.sum_range]
  unfold Spec.d2part
  refine Finset.sum_congr rfl fun k _ => Finset.sum_congr rfl fun l _ => ?_
  unfold d2Term
  rw [dif_pos ⟨hp, k.isLt⟩]

/-- the second's the partial sums of the noised data's squares, -/
theorem outN2_after_last (c : Dev nD) (t : Fin cfg0.N) (h1 : t.val % 12 = 11) (x : Fin 1) (b : Fin 64) (z : Fin 1) :
    (accAt V c t.val t.isLt).outN2 (ix3 x b z)
      = Spec.n2part (aD V c) (aN V c) (aT V c) ⟨t.val / 12, by
          have hN : t.val < 24 := lt_of_lt_of_eq t.isLt (show cfg0.N = 24 from N_0); omega⟩ b := by
  have hN : t.val < 24 := lt_of_lt_of_eq t.isLt (show cfg0.N = 24 from N_0)
  have h0 : ¬t.val % 12 = 0 := by omega
  have hp : t.val / 12 < 2 := by omega
  have e := congrArg Sums.outN2 (accAt_last V c t h0 h1)
  rw [e, afterLast_outN2, Spec.k0_pay3_apply]
  obtain rfl : z = (0 : Fin 1) := Subsingleton.elim _ _
  have hcol := n2_after V c b t.val t.isLt
  have e2 := congrArg Sums.accN2 (accAt_last V c t h0 h1)
  rw [e2, afterLast_accN2] at hcol
  rw [hcol, h1, Finset.sum_range]
  unfold Spec.n2part
  refine Finset.sum_congr rfl fun k _ => Finset.sum_congr rfl fun l _ => ?_
  unfold n2Term
  rw [dif_pos ⟨hp, k.isLt⟩]

/-- and the third's the partial sums of the noised rows against the data rows. -/
theorem outCross_after_last (c : Dev nD) (t : Fin cfg0.N) (h1 : t.val % 12 = 11) (x : Fin 1) (b j : Fin 64) :
    (accAt V c t.val t.isLt).outCross (ix3 x b j)
      = Spec.crosspart (aD V c) (aN V c) (aT V c) ⟨t.val / 12, by
          have hN : t.val < 24 := lt_of_lt_of_eq t.isLt (show cfg0.N = 24 from N_0); omega⟩ b j := by
  have hN : t.val < 24 := lt_of_lt_of_eq t.isLt (show cfg0.N = 24 from N_0)
  have h0 : ¬t.val % 12 = 0 := by omega
  have hp : t.val / 12 < 2 := by omega
  have e := congrArg Sums.outCross (accAt_last V c t h0 h1)
  rw [e, afterLast_outCross, Spec.k0_pay4_apply]
  have hcol := cross_after V c b j t.val t.isLt
  have e2 := congrArg Sums.accCross (accAt_last V c t h0 h1)
  rw [e2, afterLast_accCross] at hcol
  rw [hcol, h1, Finset.sum_range]
  unfold Spec.crosspart
  refine Finset.sum_congr rfl fun k _ => Finset.sum_congr rfl fun l _ => ?_
  unfold crTerm
  rw [dif_pos ⟨hp, k.isLt⟩]

end Cert.KernelIdeal.CrossTile

end
-- ==== Proof.CrossFinal.lean ====
/-
  The cross-statistics kernel's three result arrays: each array's two blocks (one per half) are written back once
  each, by the last tile of each row of twelve, with the specification's partial sums for that half; between them
  the two blocks are the array.
-/
import proofs.«124021_j68367289418164_2_alg».proof.Proof.CrossValue
import Idealize.ShloMosaic.Lib.Pipeline.Value

set_option maxRecDepth 16384

noncomputable section

namespace Cert.KernelIdeal.CrossTile

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The specification's three arrays of partial sums, from the arrays the region finds. -/
abbrev d2Arr (c : Dev nD) : FVec Ideal S2x64x1 .f32 := Spec.d2partArr (aD V c)
abbrev n2Arr (c : Dev nD) : FVec Ideal S2x64x1 .f32 := Spec.n2partArr (aD V c) (aN V c) (aT V c)
abbrev crossArr (c : Dev nD) : FVec Ideal S2x64x64 .f32 := Spec.crosspartArr (aD V c) (aN V c) (aT V c)

/-- What a last tile writes back of result 0 is the specification's array read through that tile's block. -/
theorem flushed3 (c : Dev nD) (t : Fin cfg0.N) (hf : (cfg0.win 3).flush t = true) :
    (dat0 V c).flushed 3 t = ((cfg0.win 3).blk t).view.read (Elt Ideal) (d2Arr V c) := by
  have h1 : t.val % 12 = 11 := (flush0_3 t).mp hf
  have hN : t.val < 24 := lt_of_lt_of_eq t.isLt (show cfg0.N = 24 from N_0)
  funext j
  show (dat0 V c).after 3 t ((cfg0.win 3).xinj (grid0.coords t) j) = _
  have hj0 : (j 0).val = 0 := by have := (j 0).isLt; change (j 0).val < 1 at this; omega
  have hj1 : (j 1).val < 64 := by have := (j 1).isLt; change (j 1).val < 64 at this; exact this
  have hj2 : (j 2).val = 0 := by have := (j 2).isLt; change (j 2).val < 1 at this; omega
  have hx : (cfg0.win 3).xinj (grid0.coords t) j = ix3 (0 : Fin 1) (⟨(j 1).val, hj1⟩ : Fin 64) (0 : Fin 1) := by
    funext a
    apply Fin.ext
    match a with
    | ⟨0, _⟩ => exact hj0
    | ⟨1, _⟩ => rfl
    | ⟨2, _⟩ => exact hj2
  rw [hx, after0_3, outD2_after_last V c t h1 (0 : Fin 1) (⟨(j 1).val, hj1⟩ : Fin 64) (0 : Fin 1), View.read_apply]
  have he : ((cfg0.win 3).blk t).view.emb j = ix3 (⟨t.val / 12, by omega⟩ : Fin 2) (⟨(j 1).val, hj1⟩ : Fin 64) (0 : Fin 1) := by
    funext a
    apply Fin.ext
    match a with
    | ⟨0, _⟩ => show win0_3.index t 0 * 1 + 1 * (j 0).val = t.val / 12; rw [(out_index t).1.1, hj0]; omega
    | ⟨1, _⟩ => show win0_3.index t 1 * 64 + 1 * (j 1).val = (j 1).val; rw [(out_index t).1.2.1]; omega
    | ⟨2, _⟩ => show win0_3.index t 2 * 1 + 1 * (j 2).val = 0; rw [(out_index t).1.2.2, hj2]
  rw [he]
  exact (Spec.d2partArr_apply _ _ _ _).symm

/-- What a last tile writes back of result 1 is the specification's array read through that tile's block. -/
theorem flushed4 (c : Dev nD) (t : Fin cfg0.N) (hf : (cfg0.win 4).flush t = true) :
    (dat0 V c).flushed 4 t = ((cfg0.win 4).blk t).view.read (Elt Ideal) (n2Arr V c) := by
  have h1 : t.val % 12 = 11 := (flush0_4 t).mp hf
  have hN : t.val < 24 := lt_of_lt_of_eq t.isLt (show cfg0.N = 24 from N_0)
  funext j
  show (dat0 V c).after 4 t ((cfg0.win 4).xinj (grid0.coords t) j) = _
  have hj0 : (j 0).val = 0 := by have := (j 0).isLt; change (j 0).val < 1 at this; omega
  have hj1 : (j 1).val < 64 := by have := (j 1).isLt; change (j 1).val < 64 at this; exact this
  have hj2 : (j 2).val = 0 := by have := (j 2).isLt; change (j 2).val < 1 at this; omega
  have hx : (cfg0.win 4).xinj (grid0.coords t) j = ix3 (0 : Fin 1) (⟨(j 1).val, hj1⟩ : Fin 64) (0 : Fin 1) := by
    funext a
    apply Fin.ext
    match a with
    | ⟨0, _⟩ => exact hj0
    | ⟨1, _⟩ => rfl
    | ⟨2, _⟩ => exact hj2
  rw [hx, after0_4, outN2_after_last V c t h1 (0 : Fin 1) (⟨(j 1).val, hj1⟩ : Fin 64) (0 : Fin 1), View.read_apply]
  have he : ((cfg0.win 4).blk t).view.emb j = ix3 (⟨t.val / 12, by omega⟩ : Fin 2) (⟨(j 1).val, hj1⟩ : Fin 64) (0 : Fin 1) := by
    funext a
    apply Fin.ext
    match a with
    | ⟨0, _⟩ => show win0_4.index t 0 * 1 + 1 * (j 0).val = t.val / 12; rw [(out_index t).2.1.1, hj0]; omega
    | ⟨1, _⟩ => show win0_4.index t 1 * 64 + 1 * (j 1).val = (j 1).val; rw [(out_index t).2.1.2.1]; omega
    | ⟨2, _⟩ => show win0_4.index t 2 * 1 + 1 * (j 2).val = 0; rw [(out_index t).2.1.2.2, hj2]
  rw [he]
  exact (Spec.n2partArr_apply _ _ _ _ _ _).symm

/-- What a last tile writes back of result 2 is the specification's array read through that tile's block. -/
theorem flushed5 (c : Dev nD) (t : Fin cfg0.N) (hf : (cfg0.win 5).flush t = true) :
    (dat0 V c).flushed 5 t = ((cfg0.win 5).blk t).view.read (Elt Ideal) (crossArr V c) := by
  have h1 : t.val % 12 = 11 := (flush0_5 t).mp hf
  have hN : t.val < 24 := lt_of_lt_of_eq t.isLt (show cfg0.N = 24 from N_0)
  funext j
  show (dat0 V c).after 5 t ((cfg0.win 5).xinj (grid0.coords t) j) = _
  have hj0 : (j 0).val = 0 := by have := (j 0).isLt; change (j 0).val < 1 at this; omega
  have hj1 : (j 1).val < 64 := by have := (j 1).isLt; change (j 1).val < 64 at this; exact this
  have hj2 : (j 2).val < 64 := by have := (j 2).isLt; change (j 2).val < 64 at this; exact this
  have hx : (cfg0.win 5).xinj (grid0.coords t) j = ix3 (0 : Fin 1) (⟨(j 1).val, hj1⟩ : Fin 64) (⟨(j 2).val, hj2⟩ : Fin 64) := by
    funext a
    apply Fin.ext
    match a with
    | ⟨0, _⟩ => exact hj0
    | ⟨1, _⟩ => rfl
    | ⟨2, _⟩ => rfl
  rw [hx, after0_5, outCross_after_last V c t h1 (0 : Fin 1) (⟨(j 1).val, hj1⟩ : Fin 64) (⟨(j 2).val, hj2⟩ : Fin 64), View.read_apply]
  have he : ((cfg0.win 5).blk t).view.emb j = ix3 (⟨t.val / 12, by omega⟩ : Fin 2) (⟨(j 1).val, hj1⟩ : Fin 64) (⟨(j 2).val, hj2⟩ : Fin 64) := by
    funext a
    apply Fin.ext
    match a with
    | ⟨0, _⟩ => show win0_5.index t 0 * 1 + 1 * (j 0).val = t.val / 12; rw [(out_index t).2.2.1, hj0]; omega
    | ⟨1, _⟩ => show win0_5.index t 1 * 64 + 1 * (j 1).val = (j 1).val; rw [(out_index t).2.2.2.1]; omega
    | ⟨2, _⟩ => show win0_5.index t 2 * 64 + 1 * (j 2).val = (j 2).val; rw [(out_index t).2.2.2.2]; omega
  rw [he]
  exact (Spec.crosspartArr_apply _ _ _ _ _ _).symm

/-- The two tiles that write back: the last of each row of twelve. -/
abbrev t11 : Fin cfg0.N := ⟨11, by decide⟩
abbrev t23 : Fin cfg0.N := ⟨23, by decide⟩

/-- So the first result array ends holding the specification's partial sums of the data's squares, -/
theorem final_d2 (c : Dev nD) : (dat0 V c).arrAt 3 cfg0.N = Cert.Spec.d2partArr (V c main_v0) :=
  (dat0 V c).arrAt_eq_of_cover 3 (d2Arr V c) (flushed3 V c) fun i => by
    have hi0 : (i 0 : Nat) < 2 := (i 0).isLt
    have hi1 : (i 1 : Nat) < 64 := (i 1).isLt
    have hi2 : (i 2 : Nat) < 1 := (i 2).isLt
    by_cases h : (i 0 : Nat) = 0
    · refine ⟨t11, (flush0_3 t11).mpr rfl, ?_⟩
      show i ∈ ((View.whole main_v7_0).slice (win0_3.rect t11)).set
      rw [View.set_slice_whole, Rect.mem_set_unit]
      intro a
      match a with
      | ⟨0, _⟩ => show win0_3.index t11 0 * win0_3.size 0 ≤ (i 0 : Nat) ∧ (i 0 : Nat) < win0_3.index t11 0 * win0_3.size 0 + win0_3.xsize (grid0.coords t11) 0
                  rw [show win0_3.index t11 0 * win0_3.size 0 = 0 from by decide +kernel, show win0_3.xsize (grid0.coords t11) 0 = 1 from by decide +kernel]; omega
      | ⟨1, _⟩ => show win0_3.index t11 1 * win0_3.size 1 ≤ (i 1 : Nat) ∧ (i 1 : Nat) < win0_3.index t11 1 * win0_3.size 1 + win0_3.xsize (grid0.coords t11) 1
                  rw [show win0_3.index t11 1 * win0_3.size 1 = 0 from by decide +kernel, show win0_3.xsize (grid0.coords t11) 1 = 64 from by decide +kernel]; omega
      | ⟨2, _⟩ => show win0_3.index t11 2 * win0_3.size 2 ≤ (i 2 : Nat) ∧ (i 2 : Nat) < win0_3.index t11 2 * win0_3.size 2 + win0_3.xsize (grid0.coords t11) 2
                  rw [show win0_3.index t11 2 * win0_3.size 2 = 0 from by decide +kernel, show win0_3.xsize (grid0.coords t11) 2 = 1 from by decide +kernel]; omega
    · refine ⟨t23, (flush0_3 t23).mpr rfl, ?_⟩
      show i ∈ ((View.whole main_v7_0).slice (win0_3.rect t23)).set
      rw [View.set_slice_whole, Rect.mem_set_unit]
      intro a
      match a with
      | ⟨0, _⟩ => show win0_3.index t23 0 * win0_3.size 0 ≤ (i 0 : Nat) ∧ (i 0 : Nat) < win0_3.index t23 0 * win0_3.size 0 + win0_3.xsize (grid0.coords t23) 0
                  rw [show win0_3.index t23 0 * win0_3.size 0 = 1 from by decide +kernel, show win0_3.xsize (grid0.coords t23) 0 = 1 from by decide +kernel]; omega
      | ⟨1, _⟩ => show win0_3.index t23 1 * win0_3.size 1 ≤ (i 1 : Nat) ∧ (i 1 : Nat) < win0_3.index t23 1 * win0_3.size 1 + win0_3.xsize (grid0.coords t23) 1
                  rw [show win0_3.index t23 1 * win0_3.size 1 = 0 from by decide +kernel, show win0_3.xsize (grid0.coords t23) 1 = 64 from by decide +kernel]; omega
      | ⟨2, _⟩ => show win0_3.index t23 2 * win0_3.size 2 ≤ (i 2 : Nat) ∧ (i 2 : Nat) < win0_3.index t23 2 * win0_3.size 2 + win0_3.xsize (grid0.coords t23) 2
                  rw [show win0_3.index t23 2 * win0_3.size 2 = 0 from by decide +kernel, show win0_3.xsize (grid0.coords t23) 2 = 1 from by decide +kernel]; omega

/-- the second the partial sums of the noised data's squares, -/
theorem final_n2 (c : Dev nD) : (dat0 V c).arrAt 4 cfg0.N = Cert.Spec.n2partArr (V c main_v0) (V c main_v1) (V c main_v6) :=
  (dat0 V c).arrAt_eq_of_cover 4 (n2Arr V c) (flushed4 V c) fun i => by
    have hi0 : (i 0 : Nat) < 2 := (i 0).isLt
    have hi1 : (i 1 : Nat) < 64 := (i 1).isLt
    have hi2 : (i 2 : Nat) < 1 := (i 2).isLt
    by_cases h : (i 0 : Nat) = 0
    · refine ⟨t11, (flush0_4 t11).mpr rfl, ?_⟩
      show i ∈ ((View.whole main_v7_1).slice (win0_4.rect t11)).set
      rw [View.set_slice_whole, Rect.mem_set_unit]
      intro a
      match a with
      | ⟨0, _⟩ => show win0_4.index t11 0 * win0_4.size 0 ≤ (i 0 : Nat) ∧ (i 0 : Nat) < win0_4.index t11 0 * win0_4.size 0 + win0_4.xsize (grid0.coords t11) 0
                  rw [show win0_4.index t11 0 * win0_4.size 0 = 0 from by decide +kernel, show win0_4.xsize (grid0.coords t11) 0 = 1 from by decide +kernel]; omega
      | ⟨1, _⟩ => show win0_4.index t11 1 * win0_4.size 1 ≤ (i 1 : Nat) ∧ (i 1 : Nat) < win0_4.index t11 1 * win0_4.size 1 + win0_4.xsize (grid0.coords t11) 1
                  rw [show win0_4.index t11 1 * win0_4.size 1 = 0 from by decide +kernel, show win0_4.xsize (grid0.coords t11) 1 = 64 from by decide +kernel]; omega
      | ⟨2, _⟩ => show win0_4.index t11 2 * win0_4.size 2 ≤ (i 2 : Nat) ∧ (i 2 : Nat) < win0_4.index t11 2 * win0_4.size 2 + win0_4.xsize (grid0.coords t11) 2
                  rw [show win0_4.index t11 2 * win0_4.size 2 = 0 from by decide +kernel, show win0_4.xsize (grid0.coords t11) 2 = 1 from by decide +kernel]; omega
    · refine ⟨t23, (flush0_4 t23).mpr rfl, ?_⟩
      show i ∈ ((View.whole main_v7_1).slice (win0_4.rect t23)).set
      rw [View.set_slice_whole, Rect.mem_set_unit]
      intro a
      match a with
      | ⟨0, _⟩ => show win0_4.index t23 0 * win0_4.size 0 ≤ (i 0 : Nat) ∧ (i 0 : Nat) < win0_4.index t23 0 * win0_4.size 0 + win0_4.xsize (grid0.coords t23) 0
                  rw [show win0_4.index t23 0 * win0_4.size 0 = 1 from by decide +kernel, show win0_4.xsize (grid0.coords t23) 0 = 1 from by decide +kernel]; omega
      | ⟨1, _⟩ => show win0_4.index t23 1 * win0_4.size 1 ≤ (i 1 : Nat) ∧ (i 1 : Nat) < win0_4.index t23 1 * win0_4.size 1 + win0_4.xsize (grid0.coords t23) 1
                  rw [show win0_4.index t23 1 * win0_4.size 1 = 0 from by decide +kernel, show win0_4.xsize (grid0.coords t23) 1 = 64 from by decide +kernel]; omega
      | ⟨2, _⟩ => show win0_4.index t23 2 * win0_4.size 2 ≤ (i 2 : Nat) ∧ (i 2 : Nat) < win0_4.index t23 2 * win0_4.size 2 + win0_4.xsize (grid0.coords t23) 2
                  rw [show win0_4.index t23 2 * win0_4.size 2 = 0 from by decide +kernel, show win0_4.xsize (grid0.coords t23) 2 = 1 from by decide +kernel]; omega

/-- and the third the partial sums of the noised rows against the data rows. -/
theorem final_cross (c : Dev nD) : (dat0 V c).arrAt 5 cfg0.N = Cert.Spec.crosspartArr (V c main_v0) (V c main_v1) (V c main_v6) :=
  (dat0 V c).arrAt_eq_of_cover 5 (crossArr V c) (flushed5 V c) fun i => by
    have hi0 : (i 0 : Nat) < 2 := (i 0).isLt
    have hi1 : (i 1 : Nat) < 64 := (i 1).isLt
    have hi2 : (i 2 : Nat) < 64 := (i 2).isLt
    by_cases h : (i 0 : Nat) = 0
    · refine ⟨t11, (flush0_5 t11).mpr rfl, ?_⟩
      show i ∈ ((View.whole main_v7_2).slice (win0_5.rect t11)).set
      rw [View.set_slice_whole, Rect.mem_set_unit]
      intro a
      match a with
      | ⟨0, _⟩ => show win0_5.index t11 0 * win0_5.size 0 ≤ (i 0 : Nat) ∧ (i 0 : Nat) < win0_5.index t11 0 * win0_5.size 0 + win0_5.xsize (grid0.coords t11) 0
                  rw [show win0_5.index t11 0 * win0_5.size 0 = 0 from by decide +kernel, show win0_5.xsize (grid0.coords t11) 0 = 1 from by decide +kernel]; omega
      | ⟨1, _⟩ => show win0_5.index t11 1 * win0_5.size 1 ≤ (i 1 : Nat) ∧ (i 1 : Nat) < win0_5.index t11 1 * win0_5.size 1 + win0_5.xsize (grid0.coords t11) 1
                  rw [show win0_5.index t11 1 * win0_5.size 1 = 0 from by decide +kernel, show win0_5.xsize (grid0.coords t11) 1 = 64 from by decide +kernel]; omega
      | ⟨2, _⟩ => show win0_5.index t11 2 * win0_5.size 2 ≤ (i 2 : Nat) ∧ (i 2 : Nat) < win0_5.index t11 2 * win0_5.size 2 + win0_5.xsize (grid0.coords t11) 2
                  rw [show win0_5.index t11 2 * win0_5.size 2 = 0 from by decide +kernel, show win0_5.xsize (grid0.coords t11) 2 = 64 from by decide +kernel]; omega
    · refine ⟨t23, (flush0_5 t23).mpr rfl, ?_⟩
      show i ∈ ((View.whole main_v7_2).slice (win0_5.rect t23)).set
      rw [View.set_slice_whole, Rect.mem_set_unit]
      intro a
      match a with
      | ⟨0, _⟩ => show win0_5.index t23 0 * win0_5.size 0 ≤ (i 0 : Nat) ∧ (i 0 : Nat) < win0_5.index t23 0 * win0_5.size 0 + win0_5.xsize (grid0.coords t23) 0
                  rw [show win0_5.index t23 0 * win0_5.size 0 = 1 from by decide +kernel, show win0_5.xsize (grid0.coords t23) 0 = 1 from by decide +kernel]; omega
      | ⟨1, _⟩ => show win0_5.index t23 1 * win0_5.size 1 ≤ (i 1 : Nat) ∧ (i 1 : Nat) < win0_5.index t23 1 * win0_5.size 1 + win0_5.xsize (grid0.coords t23) 1
                  rw [show win0_5.index t23 1 * win0_5.size 1 = 0 from by decide +kernel, show win0_5.xsize (grid0.coords t23) 1 = 64 from by decide +kernel]; omega
      | ⟨2, _⟩ => show win0_5.index t23 2 * win0_5.size 2 ≤ (i 2 : Nat) ∧ (i 2 : Nat) < win0_5.index t23 2 * win0_5.size 2 + win0_5.xsize (grid0.coords t23) 2
                  rw [show win0_5.index t23 2 * win0_5.size 2 = 0 from by decide +kernel, show win0_5.xsize (grid0.coords t23) 2 = 64 from by decide +kernel]; omega

end Cert.KernelIdeal.CrossTile

end
-- ==== Proof.LossPieces.lean ====
/-
  What a tile of the loss kernel leaves, as arithmetic.

  The running column after a tile is the column before it plus the tile's 64 row sums (from zero at a first tile);
  the result's entry after a last tile is the sum of the 64 entries of the column that tile leaves.  Each is the
  value of the one whole store the body makes into that buffer, read back.
-/
import proofs.«124021_j68367289418164_2_alg».proof.Proof.LossRegion
import Idealize.ShloMosaic.Lib.Pipeline.Value

set_option maxRecDepth 16384

noncomputable section

namespace Cert.KernelIdeal.LossTile

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's 64 x 8192 loss terms less their last summand, and the two factors of that summand, from the six
    input blocks: the arguments of the row sum. -/
abbrev tileTerms (x0 x1 x2 x3 : Vec F S64x8192 .f32) (x4 : Vec F S64x1 .f32) (x5 : Vec F S64x64 .f32) (xs : Vec F S64x1 .f32) :
    FVec F S64x1 .f32 :=
  k1_pay1 (k1_pay4 x3) (k1_pay5 x3) (k1_pay6 x0 x1 x2 x4 x5) xs

/-- A middle tile leaves the column it found plus the tile's row sums. -/
theorem colAfterMid_eq (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : ¬atLast i) (x0 x1 x2 x3 : Vec F S64x8192 .f32) (x4 : Vec F S64x1 .f32) (x5 : Vec F S64x64 .f32) (xs : Vec F S64x1 .f32) :
    colAfterMid c i arg2 harg2 arg3 harg3 arg4 harg4 arg5 harg5 arg6 harg6 arg7 harg7 arg8 harg8 arg9 harg9 hc0 hc1 x0 x1 x2 x3 x4 x5 xs = tileTerms x0 x1 x2 x3 x4 x5 xs := by
  unfold colAfterMid
  rw [View.read_writes_eq_canon _ _ _ (midTile_cover c i arg2 harg2 arg3 harg3 arg4 harg4 arg5 harg5 arg6 harg6 arg7 harg7 arg8 harg8 arg9 harg9 hc0 hc1 x0 x1 x2 x3 x4 x5 xs)]
  unfold midTile
  dsimp only
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S64x8192) hz2, View.ld_unit_zero (S := S64x1) hz2, View.ld_unit_zero (S := S64x64) hz2, View.ld_unit_zero (S := S1x1x1) hz3]

/-- So does a last tile. -/
theorem colAfterLast_eq (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) :
    colAfterLast c i arg2 harg2 arg3 harg3 arg4 harg4 arg5 harg5 arg6 harg6 arg7 harg7 arg8 harg8 arg9 harg9 hc0 hc1 x0 x1 x2 x3 x4 x5 xs = tileTerms x0 x1 x2 x3 x4 x5 xs := by
  unfold colAfterLast
  rw [View.read_writes_eq_canon _ _ _ (lastTile_cover_col c i arg2 harg2 arg3 harg3 arg4 harg4 arg5 harg5 arg6 harg6 arg7 harg7 arg8 harg8 arg9 harg9 hc0 hc1 x0 x1 x2 x3 x4 x5 xs)]
  unfold lastTile
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S64x8192) hz2, View.ld_unit_zero (S := S64x1) hz2, View.ld_unit_zero (S := S64x64) hz2, View.ld_unit_zero (S := S1x1x1) hz3]

/-- A last tile leaves in the result's entry the sum of the column it leaves. -/
theorem outAfterLast_eq (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : ¬atFirst i) (hc1 : atLast i) (x0 x1 x2 x3 : Vec F S64x8192 .f32) (x4 : Vec F S64x1 .f32) (x5 : Vec F S64x64 .f32) (xs : Vec F S64x1 .f32) :
    outAfterLast c i arg2 harg2 arg3 harg3 arg4 harg4 arg5 harg5 arg6 harg6 arg7 harg7 arg8 harg8 arg9 harg9 hc0 hc1 x0 x1 x2 x3 x4 x5 xs = k1_pay2 (tileTerms x0 x1 x2 x3 x4 x5 xs) := by
  unfold outAfterLast
  rw [View.read_writes_eq_canon _ _ _ (lastTile_cover_out c i arg2 harg2 arg3 harg3 arg4 harg4 arg5 harg5 arg6 harg6 arg7 harg7 arg8 harg8 arg9 harg9 hc0 hc1 x0 x1 x2 x3 x4 x5 xs)]
  unfold lastTile
  dsimp only
  sl_unfold_words
  rw [View.canon_unit_zero hz3]
  simp only [View.readAt_eq_ld, View.readCov_unit_zero (S := S64x1) _ hz2, harg2.read_unread, harg3.read_unread, harg4.read_unread, harg5.read_unread, harg6.read_unread, harg7.read_unread, harg8.read_unread, harg9.read_unread,
    View.ld_unit_zero (S := S64x8192) hz2, View.ld_unit_zero (S := S64x1) hz2, View.ld_unit_zero (S := S64x64) hz2, View.ld_unit_zero (S := S1x1x1) hz3]

/-- A first tile leaves zero plus the tile's row sums. -/
theorem colAfterFirst_eq (c : Dev nD) (i : grid1.Coords) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S64x1 .f32) (harg9 : arg9.IsWhole) (hc0 : atFirst i) (hc1 : ¬atLast i) (x0 x1 x2 x3 : Vec F S64x8192 .f32) (x4 : Vec F S64x1 .f32) (x5 : Vec F S64x64 .f32) :
    colAfterFirst c i arg2 harg2 arg3 harg3 arg4 harg4 arg5 harg5 arg6 harg6 arg7 harg7 arg8 harg8 arg9 harg9 hc0 hc1 x0 x1 x2 x3 x4 x5 = tileTerms x0 x1 x2 x3 x4 x5 (k1_pay3 (F := F)) := by
  unfold colAfterFirst
  rw [View.read_writes_eq_canon _ _ _ (firstTile_cover c i arg2 harg2 arg3 harg3 arg4 harg4 arg5 harg5 arg6 harg6 arg7 harg7 arg8 harg8 arg9 harg9 hc0 hc1 x0 x1 x2 x3 x4 x5)]
  unfold firstTile
  dsimp only
  sl_unfold_words
  rw [View.canon_cons_unit_zero (S := S64x1) hz2, View.readCov_unit_zero (S := S64x1) _ hz2]
  simp only [View.readAt_eq_ld, harg2.read_unread, harg3.read_unread, harg4.read_unread, harg5.read_unread, harg6.read_unread, harg7.read_unread, harg8.read_unread, harg9.read_unread,
    View.ld_unit_zero (S := S64x8192) hz2, View.ld_unit_zero (S := S64x1) hz2, View.ld_unit_zero (S := S64x64) hz2, View.ld_unit_zero (S := S1x1x1) hz3]

end Cert.KernelIdeal.LossTile

end
-- ==== Proof.LossBlocks.lean ====
/-
  Where a tile's input blocks sit in the flattened arrays: tile number t of the 24 covers columns t * 8192 to
  t * 8192 + 8191 of every row; the time column and the weights are read whole at every tile.
-/
import proofs.«124021_j68367289418164_2_alg».proof.Proof.LossRegion
import Idealize.ShloMosaic.Lib.Pipeline.Value
import Idealize.ShloMosaic.Lib.ValueIdx

set_option maxRecDepth 16384

noncomputable section

namespace Cert.KernelIdeal.LossTile

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The four tiled windows' block of tile `t` is block column `t` of row block 0. -/
theorem tiled_index : ∀ t : Fin cfg1.N,
    (win1_0.index t 0 = 0 ∧ win1_0.index t 1 = t.val) ∧ (win1_1.index t 0 = 0 ∧ win1_1.index t 1 = t.val)
    ∧ (win1_2.index t 0 = 0 ∧ win1_2.index t 1 = t.val) ∧ (win1_3.index t 0 = 0 ∧ win1_3.index t 1 = t.val) :=
  (by decide +kernel : ∀ t : Fin grid1.N, _)
/-- The time column's and the weights' block is always block (0, 0). -/
theorem whole_index : ∀ t : Fin cfg1.N,
    (win1_4.index t 0 = 0 ∧ win1_4.index t 1 = 0) ∧ (win1_5.index t 0 = 0 ∧ win1_5.index t 1 = 0) :=
  (by decide +kernel : ∀ t : Fin grid1.N, _)

/-- Lane `l` of tile `t` is column `t * 8192 + l`. -/
def laneCol (t : Fin cfg1.N) (l : Fin 8192) : Fin 196608 :=
  ⟨t.val * 8192 + l.val, by have hN : t.val < 24 := lt_of_lt_of_eq t.isLt (show cfg1.N = 24 from N_1); have := l.isLt; omega⟩

/-- Window 0's block of tile `t` at row `b`, lane `l`, is its array at row `b`, column `t * 8192 + l`. -/
theorem blk0_apply (c : Dev nD) (t : Fin cfg1.N) (b : Fin 64) (l : Fin 8192) :
    (blk V c 0 t : Vec F S64x8192 .f32) (ix2 b l) = (V c main_v0 : Vec F S64x196608 .f32) (ix2 b (laneCol t l)) := by
  unfold blk
  rw [View.read_apply]
  show V c main_v0 _ = V c main_v0 _
  congr 1
  funext a
  apply Fin.ext
  match a with
  | ⟨0, _⟩ => show win1_0.index t 0 * 64 + 1 * b.val = b.val; rw [(tiled_index t).1.1]; omega
  | ⟨1, _⟩ => show win1_0.index t 1 * 8192 + 1 * l.val = t.val * 8192 + l.val; rw [(tiled_index t).1.2]; omega

/-- Window 1's block of tile `t` at row `b`, lane `l`, is its array at row `b`, column `t * 8192 + l`. -/
theorem blk1_apply (c : Dev nD) (t : Fin cfg1.N) (b : Fin 64) (l : Fin 8192) :
    (blk V c 1 t : Vec F S64x8192 .f32) (ix2 b l) = (V c main_v1 : Vec F S64x196608 .f32) (ix2 b (laneCol t l)) := by
  unfold blk
  rw [View.read_apply]
  show V c main_v1 _ = V c main_v1 _
  congr 1
  funext a
  apply Fin.ext
  match a with
  | ⟨0, _⟩ => show win1_1.index t 0 * 64 + 1 * b.val = b.val; rw [(tiled_index t).2.1.1]; omega
  | ⟨1, _⟩ => show win1_1.index t 1 * 8192 + 1 * l.val = t.val * 8192 + l.val; rw [(tiled_index t).2.1.2]; omega

/-- Window 2's block of tile `t` at row `b`, lane `l`, is its array at row `b`, column `t * 8192 + l`. -/
theorem blk2_apply (c : Dev nD) (t : Fin cfg1.N) (b : Fin 64) (l : Fin 8192) :
    (blk V c 2 t : Vec F S64x8192 .f32) (ix2 b l) = (V c main_v2 : Vec F S64x196608 .f32) (ix2 b (laneCol t l)) := by
  unfold blk
  rw [View.read_apply]
  show V c main_v2 _ = V c main_v2 _
  congr 1
  funext a
  apply Fin.ext
  match a with
  | ⟨0, _⟩ => show win1_2.index t 0 * 64 + 1 * b.val = b.val; rw [(tiled_index t).2.2.1.1]; omega
  | ⟨1, _⟩ => show win1_2.index t 1 * 8192 + 1 * l.val = t.val * 8192 + l.val; rw [(tiled_index t).2.2.1.2]; omega

/-- Window 3's block of tile `t` at row `b`, lane `l`, is its array at row `b`, column `t * 8192 + l`. -/
theorem blk3_apply (c : Dev nD) (t : Fin cfg1.N) (b : Fin 64) (l : Fin 8192) :
    (blk V c 3 t : Vec F S64x8192 .f32) (ix2 b l) = (V c main_v3 : Vec F S64x196608 .f32) (ix2 b (laneCol t l)) := by
  unfold blk
  rw [View.read_apply]
  show V c main_v3 _ = V c main_v3 _
  congr 1
  funext a
  apply Fin.ext
  match a with
  | ⟨0, _⟩ => show win1_3.index t 0 * 64 + 1 * b.val = b.val; rw [(tiled_index t).2.2.2.1]; omega
  | ⟨1, _⟩ => show win1_3.index t 1 * 8192 + 1 * l.val = t.val * 8192 + l.val; rw [(tiled_index t).2.2.2.2]; omega

/-- The time column's block at any tile is the whole column, -/
theorem blk4_eq (c : Dev nD) (t : Fin cfg1.N) : (blk V c 4 t : Vec F S64x1 .f32) = (V c main_v6 : Vec F S64x1 .f32) := by
  funext j
  unfold blk
  rw [View.read_apply]
  show V c main_v6 _ = V c main_v6 j
  congr 1
  funext a
  apply Fin.ext
  match a with
  | ⟨0, _⟩ => show win1_4.index t 0 * 64 + 1 * (j 0).val = (j 0).val; rw [(whole_index t).1.1]; omega
  | ⟨1, _⟩ => show win1_4.index t 1 * 1 + 1 * (j 1).val = (j 1).val; rw [(whole_index t).1.2]; omega

/-- and the weights' block the whole 64 x 64 matrix. -/
theorem blk5_eq (c : Dev nD) (t : Fin cfg1.N) : (blk V c 5 t : Vec F S64x64 .f32) = (V c main_v43 : Vec F S64x64 .f32) := by
  funext j
  unfold blk
  rw [View.read_apply]
  show V c main_v43 _ = V c main_v43 j
  congr 1
  funext a
  apply Fin.ext
  match a with
  | ⟨0, _⟩ => show win1_5.index t 0 * 64 + 1 * (j 0).val = (j 0).val; rw [(whole_index t).2.1]; omega
  | ⟨1, _⟩ => show win1_5.index t 1 * 64 + 1 * (j 1).val = (j 1).val; rw [(whole_index t).2.2]; omega

end Cert.KernelIdeal.LossTile

end
-- ==== Proof.LossValue.lean ====
/-
  What the loss kernel's running column and result hold, in the specification's terms (at the extended reals).

  Tile t = 12 p + k of the 24 adds to row b of the running column the sum over its 8192 lanes of the loss terms of
  row b at columns (12 p + k) * 8192 + l.  So after tile t the column's row b is the sum of those lane sums over the
  tiles 12 p, …, t of its row of twelve (by induction on t), and after the last tile of the row the result's entry is
  the sum over the 64 rows of that: the specification's partial sum for half p.
-/
import proofs.«124021_j68367289418164_2_alg».proof.Proof.LossPieces
import proofs.«124021_j68367289418164_2_alg».proof.Proof.LossBlocks
import proofs.«124021_j68367289418164_2_alg».proof.Proof.TilePayloads

set_option maxRecDepth 16384

noncomputable section

namespace Cert.KernelIdeal.LossTile

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The six arrays the region reads, as the region finds them. -/
abbrev aD (c : Dev nD) : FVec Ideal S64x196608 .f32 := V c main_v0
abbrev aN (c : Dev nD) : FVec Ideal S64x196608 .f32 := V c main_v1
abbrev aPM (c : Dev nD) : FVec Ideal S64x196608 .f32 := V c main_v2
abbrev aLV (c : Dev nD) : FVec Ideal S64x196608 .f32 := V c main_v3
abbrev aT (c : Dev nD) : FVec Ideal S64x1 .f32 := V c main_v6
abbrev aW (c : Dev nD) : FVec Ideal S64x64 .f32 := V c main_v43

/-- The loss term of row `b` at lane `l` of tile `k` of half `p` (zero outside the 2 x 12 tiles). -/
def termAt (c : Dev nD) (b : Fin 64) (p k : ℕ) (l : Fin 8192) : EReal :=
  if h : p < 2 ∧ k < 12 then Spec.klossAt (aD V c) (aN V c) (aPM V c) (aLV V c) (aT V c) (aW V c) b (Spec.col ⟨p, h.1⟩ ⟨k, h.2⟩ l) else 0

/-- A tile adds to row `b` of the running column the sum of its lanes' loss terms. -/
theorem tile_row (c : Dev nD) (t : Fin cfg1.N) (xs : FVec Ideal S64x1 .f32) (b : Fin 64) :
    tileTerms (F := Ideal) (blk V c 0 t) (blk V c 1 t) (blk V c 2 t) (blk V c 3 t) (blk V c 4 t) (blk V c 5 t) xs (ix2 b (0 : Fin 1))
      = xs (ix2 b (0 : Fin 1)) + ∑ l : Fin 8192, termAt V c b (t.val / 12) (t.val % 12) l := by
  have hN : t.val < 24 := lt_of_lt_of_eq t.isLt (show cfg1.N = 24 from N_1)
  have hp : t.val / 12 < 2 := by omega
  have hk : t.val % 12 < 12 := Nat.mod_lt _ (by decide)
  have hcol : ∀ l : Fin 8192, laneCol t l = Spec.col ⟨t.val / 12, hp⟩ ⟨t.val % 12, hk⟩ l := fun l =>
    Fin.ext (by show t.val * 8192 + l.val = (12 * (t.val / 12) + t.val % 12) * 8192 + l.val; rw [Nat.div_add_mod])
  show k1_pay1 (F := Ideal) (k1_pay4 _) (k1_pay5 _) (k1_pay6 _ _ _ _ _) xs (ix2 b (0 : Fin 1)) = _
  rw [Spec.tileTerms_apply]
  congr 1
  refine Finset.sum_congr rfl fun l _ => ?_
  unfold termAt
  rw [dif_pos ⟨hp, hk⟩]
  exact Spec.tileLossAt_eq _ _ _ _ _ _ (aD V c) (aN V c) (aPM V c) (aLV V c) (aT V c) (aW V c) ⟨t.val / 12, hp⟩ ⟨t.val % 12, hk⟩
    (fun b l => by rw [blk0_apply, hcol]) (fun b l => by rw [blk1_apply, hcol]) (fun b l => by rw [blk2_apply, hcol])
    (fun b l => by rw [blk3_apply, hcol]) (blk4_eq V c t) (blk5_eq V c t) b l

/-- The running column's row `b` after tile `n`: the lane sums of the tiles of its row of twelve up to it. -/
theorem col_after (c : Dev nD) (b : Fin 64) : ∀ (n : ℕ) (h : n < cfg1.N),
    (accAt V c n h).2 (ix2 b (0 : Fin 1)) = ∑ k ∈ Finset.range (n % 12 + 1), ∑ l : Fin 8192, termAt V c b (n / 12) k l
  | 0, h => by
    have e := congrArg Prod.snd (accAt_first V c ⟨0, h⟩ (Nat.zero_mod _) (by show ¬(0 % 12 = 11); decide))
    dsimp only at e
    rw [e, colAfterFirst_eq, tile_row V c ⟨0, h⟩, Spec.k1_pay3_apply, Ideal.ofBits_zero_f32, zero_add]
    simp only [Nat.zero_mod, Nat.zero_div, zero_add, Finset.sum_range_one]
  | n + 1, h => by
    have hN : n + 1 < 24 := lt_of_lt_of_eq h (show cfg1.N = 24 from N_1)
    by_cases h0 : (n + 1) % 12 = 0
    · have h1 : ¬(n + 1) % 12 = 11 := by omega
      have e := congrArg Prod.snd (accAt_first V c ⟨n + 1, h⟩ h0 h1)
      dsimp only at e
      rw [e, colAfterFirst_eq, tile_row V c ⟨n + 1, h⟩, Spec.k1_pay3_apply, Ideal.ofBits_zero_f32, zero_add]
      dsimp only
      rw [h0]
      simp only [zero_add, Finset.sum_range_one]
    · have ih := col_after c b n (Nat.lt_of_succ_lt h)
      have hd : (n + 1) / 12 = n / 12 := by omega
      have hm : (n + 1) % 12 = n % 12 + 1 := by omega
      by_cases h1 : (n + 1) % 12 = 11
      · have e := congrArg Prod.snd (accAt_last V c ⟨n + 1, h⟩ h0 h1)
        dsimp only at e
        rw [e, colAfterLast_eq, tile_row V c ⟨n + 1, h⟩]
        dsimp only
        refine (congrArg (fun x => x + ∑ l : Fin 8192, termAt V c b ((n + 1) / 12) ((n + 1) % 12) l) ih).trans ?_
        rw [hd, hm, Finset.sum_range_succ (fun k => ∑ l : Fin 8192, termAt V c b (n / 12) k l) (n % 12 + 1)]
      · have e := congrArg Prod.snd (accAt_mid V c ⟨n + 1, h⟩ h0 h1)
        dsimp only at e
        rw [e, colAfterMid_eq, tile_row V c ⟨n + 1, h⟩]
        dsimp only
        refine (congrArg (fun x => x + ∑ l : Fin 8192, termAt V c b ((n + 1) / 12) ((n + 1) % 12) l) ih).trans ?_
        rw [hd, hm, Finset.sum_range_succ (fun k => ∑ l : Fin 8192, termAt V c b (n / 12) k l) (n % 12 + 1)]

/-- After the last tile of half `p` the result's entry is the specification's partial sum for that half. -/
theorem out_after_last (c : Dev nD) (t : Fin cfg1.N) (h1 : t.val % 12 = 11) :
    (accAt V c t.val t.isLt).1 (ix3 (0 : Fin 1) (0 : Fin 1) (0 : Fin 1))
      = Spec.losspart (aD V c) (aN V c) (aPM V c) (aLV V c) (aT V c) (aW V c) ⟨t.val / 12, by
          have hN : t.val < 24 := lt_of_lt_of_eq t.isLt (show cfg1.N = 24 from N_1); omega⟩ := by
  have hN : t.val < 24 := lt_of_lt_of_eq t.isLt (show cfg1.N = 24 from N_1)
  have h0 : ¬t.val % 12 = 0 := by omega
  have hp : t.val / 12 < 2 := by omega
  have e := congrArg Prod.fst (accAt_last V c t h0 h1)
  dsimp only at e
  rw [e, outAfterLast_eq, Spec.k1_pay2_apply]
  unfold Spec.losspart
  refine Finset.sum_congr rfl fun b _ => ?_
  have hcol := col_after V c b t.val t.isLt
  have e2 := congrArg Prod.snd (accAt_last V c t h0 h1)
  dsimp only at e2
  rw [e2, colAfterLast_eq] at hcol
  rw [hcol, h1, Finset.sum_range]
  refine Finset.sum_congr rfl fun k _ => Finset.sum_congr rfl fun l _ => ?_
  unfold termAt
  rw [dif_pos ⟨hp, k.isLt⟩]

end Cert.KernelIdeal.LossTile

end
-- ==== Proof.LossFinal.lean ====
/-
  The loss kernel's result array: its two entries are written back once each, by the last tile of each row of
  twelve, with the specification's partial sum for that half; between them the two one-entry blocks are the array.
-/
import proofs.«124021_j68367289418164_2_alg».proof.Proof.LossValue
import Idealize.ShloMosaic.Lib.Pipeline.Value

set_option maxRecDepth 16384

noncomputable section

namespace Cert.KernelIdeal.LossTile

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result's block of tile `t` is entry `t / 12`. -/
theorem out_index : ∀ t : Fin cfg1.N, win1_6.index t 0 = t.val / 12 ∧ win1_6.index t 1 = 0 ∧ win1_6.index t 2 = 0 :=
  (by decide +kernel : ∀ t : Fin grid1.N, _)

/-- The specification's array of the two partial sums, from the arrays the region finds. -/
abbrev lossArr (c : Dev nD) : FVec Ideal S2x1x1 .f32 :=
  Spec.losspartArr (aD V c) (aN V c) (aPM V c) (aLV V c) (aT V c) (aW V c)

/-- What a last tile writes back is the specification's array read through that tile's block. -/
theorem flushed6 (c : Dev nD) (t : Fin cfg1.N) (hf : (cfg1.win 6).flush t = true) :
    (dat1 V c).flushed 6 t = ((cfg1.win 6).blk t).view.read (Elt Ideal) (lossArr V c) := by
  have h1 : t.val % 12 = 11 := (flush1_6 t).mp hf
  have hN : t.val < 24 := lt_of_lt_of_eq t.isLt (show cfg1.N = 24 from N_1)
  funext j
  show (dat1 V c).after 6 t ((cfg1.win 6).xinj (grid1.coords t) j) = _
  have hj0 : (j 0).val = 0 := by have := (j 0).isLt; change (j 0).val < 1 at this; omega
  have hj1 : (j 1).val = 0 := by have := (j 1).isLt; change (j 1).val < 1 at this; omega
  have hj2 : (j 2).val = 0 := by have := (j 2).isLt; change (j 2).val < 1 at this; omega
  have hx : (cfg1.win 6).xinj (grid1.coords t) j = ix3 (0 : Fin 1) (0 : Fin 1) (0 : Fin 1) := by
    funext a
    apply Fin.ext
    match a with
    | ⟨0, _⟩ => exact hj0
    | ⟨1, _⟩ => exact hj1
    | ⟨2, _⟩ => exact hj2
  rw [hx, after1_6, out_after_last V c t h1, View.read_apply]
  have he : ((cfg1.win 6).blk t).view.emb j = ix3 (⟨t.val / 12, by omega⟩ : Fin 2) (0 : Fin 1) (0 : Fin 1) := by
    funext a
    apply Fin.ext
    match a with
    | ⟨0, _⟩ => show win1_6.index t 0 * 1 + 1 * (j 0).val = t.val / 12; rw [(out_index t).1, hj0]; omega
    | ⟨1, _⟩ => show win1_6.index t 1 * 1 + 1 * (j 1).val = 0; rw [(out_index t).2.1, hj1]
    | ⟨2, _⟩ => show win1_6.index t 2 * 1 + 1 * (j 2).val = 0; rw [(out_index t).2.2, hj2]
  rw [he]
  exact (Spec.losspartArr_apply _ _ _ _ _ _ _ _ _).symm

/-- The two tiles that write back: the last of each row of twelve. -/
abbrev t11 : Fin cfg1.N := ⟨11, by decide⟩
abbrev t23 : Fin cfg1.N := ⟨23, by decide⟩

/-- So the result array ends holding the specification's two partial sums. -/
theorem final_loss (c : Dev nD) : (dat1 V c).arrAt 6 cfg1.N = lossArr V c :=
  (dat1 V c).arrAt_eq_of_cover 6 (lossArr V c) (flushed6 V c) fun i => by
    have hi0 : (i 0 : Nat) < 2 := (i 0).isLt
    have hi1 : (i 1 : Nat) < 1 := (i 1).isLt
    have hi2 : (i 2 : Nat) < 1 := (i 2).isLt
    by_cases h : (i 0 : Nat) = 0
    · refine ⟨t11, (flush1_6 t11).mpr rfl, ?_⟩
      show i ∈ ((View.whole main_v44).slice (win1_6.rect t11)).set
      rw [View.set_slice_whole, Rect.mem_set_unit]
      intro a
      match a with
      | ⟨0, _⟩ => show win1_6.index t11 0 * win1_6.size 0 ≤ (i 0 : Nat) ∧ (i 0 : Nat) < win1_6.index t11 0 * win1_6.size 0 + win1_6.xsize (grid1.coords t11) 0
                  rw [show win1_6.index t11 0 * win1_6.size 0 = 0 from by decide +kernel, show win1_6.xsize (grid1.coords t11) 0 = 1 from by decide +kernel]; omega
      | ⟨1, _⟩ => show win1_6.index t11 1 * win1_6.size 1 ≤ (i 1 : Nat) ∧ (i 1 : Nat) < win1_6.index t11 1 * win1_6.size 1 + win1_6.xsize (grid1.coords t11) 1
                  rw [show win1_6.index t11 1 * win1_6.size 1 = 0 from by decide +kernel, show win1_6.xsize (grid1.coords t11) 1 = 1 from by decide +kernel]; omega
      | ⟨2, _⟩ => show win1_6.index t11 2 * win1_6.size 2 ≤ (i 2 : Nat) ∧ (i 2 : Nat) < win1_6.index t11 2 * win1_6.size 2 + win1_6.xsize (grid1.coords t11) 2
                  rw [show win1_6.index t11 2 * win1_6.size 2 = 0 from by decide +kernel, show win1_6.xsize (grid1.coords t11) 2 = 1 from by decide +kernel]; omega
    · refine ⟨t23, (flush1_6 t23).mpr rfl, ?_⟩
      show i ∈ ((View.whole main_v44).slice (win1_6.rect t23)).set
      rw [View.set_slice_whole, Rect.mem_set_unit]
      intro a
      match a with
      | ⟨0, _⟩ => show win1_6.index t23 0 * win1_6.size 0 ≤ (i 0 : Nat) ∧ (i 0 : Nat) < win1_6.index t23 0 * win1_6.size 0 + win1_6.xsize (grid1.coords t23) 0
                  rw [show win1_6.index t23 0 * win1_6.size 0 = 1 from by decide +kernel, show win1_6.xsize (grid1.coords t23) 0 = 1 from by decide +kernel]; omega
      | ⟨1, _⟩ => show win1_6.index t23 1 * win1_6.size 1 ≤ (i 1 : Nat) ∧ (i 1 : Nat) < win1_6.index t23 1 * win1_6.size 1 + win1_6.xsize (grid1.coords t23) 1
                  rw [show win1_6.index t23 1 * win1_6.size 1 = 0 from by decide +kernel, show win1_6.xsize (grid1.coords t23) 1 = 1 from by decide +kernel]; omega
      | ⟨2, _⟩ => show win1_6.index t23 2 * win1_6.size 2 ≤ (i 2 : Nat) ∧ (i 2 : Nat) < win1_6.index t23 2 * win1_6.size 2 + win1_6.xsize (grid1.coords t23) 2
                  rw [show win1_6.index t23 2 * win1_6.size 2 = 0 from by decide +kernel, show win1_6.xsize (grid1.coords t23) 2 = 1 from by decide +kernel]; omega

end Cert.KernelIdeal.LossTile

end
-- ==== Proof.HostFns.lean ====
/-
  The host arithmetic around the two kernel regions, as functions of arrays at the ideal values, operation by operation
  in program order:
    flat, tcol        the four arrays flattened to 64 × 196608, and the scaled time t = times · 0.99 as a column;
    kernelHost1       from the per-half partial sums d2, n2, cross and the column t to the weights: the sums over the
                      two halves, dist = (n2 − 2·t·cross + t²·d2ᵀ) / (2·((1 − t)² + ε)), and the row softmax of −dist;
    kernelHost2       from the per-half loss sums to the mean: their sum divided by 12582912 = 64 · 196608.
  The softmax of the negated distance is one function (softmaxNeg) of the distance matrix.
-/
import Idealize.ShloMosaic.PureOps.Ideal
import Idealize.ShloMosaic.Lib.ValueIdx
import proofs.«124021_j68367289418164_2_alg».proof.KernelIdeal

noncomputable section

namespace Cert.Spec

open Idealize.ShloMosaic Idealize.ShloMosaic.ValueIdx Cert.KernelIdeal

variable [Cert.KernelIdeal.Facts]
open Cert.KernelIdeal.Facts₀ Cert.KernelIdeal.Facts

/-- A 64 × 3 × 256 × 256 array flattened row-major to 64 × 196608. -/
def flat (a : FVec Ideal S64x3x256x256 .f32) : FVec Ideal S64x196608 .f32 :=
  shapeCast S64x196608 a shapeCasts_S64x3x256x256_S64x196608

/-- The scaled times t = times · 0.99 (the f32 nearest 0.99), as a 64 × 1 column. -/
def tcol (a2 : FVec Ideal S64 .f32) : FVec Ideal S64x1 .f32 :=
  shapeCast S64x1 (mulf a2 (broadcastInDim S64 ![] bcast_S_S64 (constant (F := Ideal) S_ .f32 0x3F7D70A4#32)))
    shapeCasts_S64_S64x1

/-- The sum over the two halves of a 2 × 64 × 1 array. -/
def sumHalves1 (x : FVec Ideal S2x64x1 .f32) : FVec Ideal S64x1 .f32 :=
  Host.reduceAdd (F := Ideal) x (constant (F := Ideal) S_ .f32 0x00000000#32) reducesTo_S2x64x1_S64x1_d0 h_S_

/-- The sum over the two halves of a 2 × 64 × 64 array. -/
def sumHalves64 (x : FVec Ideal S2x64x64 .f32) : FVec Ideal S64x64 .f32 :=
  Host.reduceAdd (F := Ideal) x (constant (F := Ideal) S_ .f32 0x00000000#32) reducesTo_S2x64x64_S64x64_d0 h_S_

/-- var = (1 − t)·(1 − t) + ε, a 64 × 1 column. -/
def varCol (T : FVec Ideal S64x1 .f32) : FVec Ideal S64x1 .f32 :=
  addf
    (mulf (subf (broadcastInDim S64x1 ![] bcast_S_S64x1 (constant (F := Ideal) S_ .f32 0x3F800000#32)) T)
          (subf (broadcastInDim S64x1 ![] bcast_S_S64x1 (constant (F := Ideal) S_ .f32 0x3F800000#32)) T))
    (broadcastInDim S64x1 ![] bcast_S_S64x1 (constant (F := Ideal) S_ .f32 0x322BCC77#32))

/-- dist = ((n2 − (2·t)·cross) + (t·t)·d2ᵀ) / (2·var), from the summed d2, n2 (columns) and cross. -/
def kernelDist (d2 n2 : FVec Ideal S64x1 .f32) (cr : FVec Ideal S64x64 .f32) (T : FVec Ideal S64x1 .f32) :
    FVec Ideal S64x64 .f32 :=
  Host.divf (F := Ideal)
    (addf
      (subf (broadcastInDim S64x64 ![0, 1] bcast_S64x1_S64x64_0_1 n2)
            (mulf (broadcastInDim S64x64 ![0, 1] bcast_S64x1_S64x64_0_1
                    (mulf (broadcastInDim S64x1 ![] bcast_S_S64x1 (constant (F := Ideal) S_ .f32 0x40000000#32)) T))
                  cr))
      (mulf (broadcastInDim S64x64 ![0, 1] bcast_S64x1_S64x64_0_1 (mulf T T))
            (broadcastInDim S64x64 ![0, 1] bcast_S1x64_S64x64_0_1 (shapeCast S1x64 d2 shapeCasts_S64x1_S1x64))))
    (broadcastInDim S64x64 ![0, 1] bcast_S64x1_S64x64_0_1
      (mulf (broadcastInDim S64x1 ![] bcast_S_S64x1 (constant (F := Ideal) S_ .f32 0x40000000#32)) (varCol T)))

/-- The row maximum (against −∞) of a 64 × 64 matrix, broadcast back to 64 × 64. -/
def rowMaxMat (x : FVec Ideal S64x64 .f32) : FVec Ideal S64x64 .f32 :=
  broadcastInDim S64x64 ![0, 1] bcast_S64x1_S64x64_0_1
    (broadcastInDim S64x1 ![0] bcast_S64_S64x1_0
      (maximumf (broadcastInDim S64 ![] bcast_S_S64 (constant (F := Ideal) S_ .f32 0xFF800000#32))
        (Host.reduce (FloatOps.maximumf (F := Ideal)) x (constant (F := Ideal) S_ .f32 0xFF800000#32)
          reducesTo_S64x64_S64_d1 h_S_)))

/-- The row sum of a 64 × 64 matrix, broadcast back to 64 × 64. -/
def rowSumMat (e : FVec Ideal S64x64 .f32) : FVec Ideal S64x64 .f32 :=
  broadcastInDim S64x64 ![0, 1] bcast_S64x1_S64x64_0_1
    (broadcastInDim S64x1 ![0] bcast_S64_S64x1_0
      (Host.reduceAdd (F := Ideal) e (constant (F := Ideal) S_ .f32 0x00000000#32) reducesTo_S64x64_S64_d1 h_S_))

/-- exp (x − rowmax x) for x = −dist. -/
def expShifted (dist : FVec Ideal S64x64 .f32) : FVec Ideal S64x64 .f32 :=
  Host.exp (F := Ideal) (subf (Host.negf (F := Ideal) dist) (rowMaxMat (Host.negf (F := Ideal) dist)))

/-- The row softmax of −dist: exp (x − rowmax x) / rowsum (exp (x − rowmax x)), x = −dist. -/
def softmaxNeg (dist : FVec Ideal S64x64 .f32) : FVec Ideal S64x64 .f32 :=
  Host.divf (F := Ideal) (expShifted dist) (rowSumMat (expShifted dist))

/-- From the regions' three partial-sum arrays and the column t to the weights. -/
def kernelHost1 (d2p n2p : FVec Ideal S2x64x1 .f32) (crp : FVec Ideal S2x64x64 .f32) (T : FVec Ideal S64x1 .f32) :
    FVec Ideal S64x64 .f32 :=
  softmaxNeg (kernelDist (sumHalves1 d2p) (sumHalves1 n2p) (sumHalves64 crp) T)

/-- From the per-half loss sums to the mean loss. -/
def kernelHost2 (lp : FVec Ideal S2x1x1 .f32) : FVec Ideal S_ .f32 :=
  Host.divf (F := Ideal)
    (Host.reduceAdd (F := Ideal) lp (constant (F := Ideal) S_ .f32 0x00000000#32) reducesTo_S2x1x1_S_d0_1_2 h_S_)
    (constant (F := Ideal) S_ .f32 0x4B400000#32)

end Cert.Spec

end
-- ==== Proof.KernelValue.lean ====
/-
  The program's result as a value.  Between its five items the buffers hold: the inputs flattened and the scaled time
  column; then the first region's partial sums d2, n2, cross beside them; then the weights computed from those; then the
  second region's two partial loss sums; then their mean.  Each step is read off the host operations or the region's
  arrays, and composed: the result buffer ends holding the host arithmetic applied to the specification's sums of the
  flattened inputs.
-/
import proofs.«124021_j68367289418164_2_alg».proof.Proof.WholeRun
import proofs.«124021_j68367289418164_2_alg».proof.Proof.HostFns
import proofs.«124021_j68367289418164_2_alg».proof.Proof.Spec
import proofs.«124021_j68367289418164_2_alg».proof.Proof.LossFinal
import Idealize.ShloMosaic.Lib.StableHlo.Run

set_option maxRecDepth 16384

noncomputable section

namespace Cert.KernelIdeal.Whole

open Cert.KernelIdeal
open Cert.KernelIdeal.Gen (hostOps0 hostOps1 hostOps2 hostOps0_writes hostOps1_writes hostOps2_writes hostOps0_W hostOps1_W hostOps2_W)
open Idealize.ShloMosaic Idealize.ShloMosaic.TcCoe Idealize.SL.Sem Idealize.ShloMosaic.StableHlo
open Idealize.ShloMosaic.Pipeline (Dat Cfg Window)

-- the first region's proof data at the ideal values: its input arrays are the entry contents, its three output
-- arrays end at the specification's partial sums
variable (dat0 : EntryOf Ideal → (c : Dev nD) → Dat τ (Elt Ideal) Unit ℕ (UR sig nD τ) ℕ cfg0 c)
  (hA0 : ∀ (V : EntryOf Ideal) (c : Dev nD) (w : Fin cfg0.W), (dat0 V c).A w = V c (Pipeline.arrRef spec0 w))
  (hd2 : ∀ (V : EntryOf Ideal) (c : Dev nD), (dat0 V c).arrAt 3 cfg0.N = Spec.d2partArr (V c main_v0))
  (hn2 : ∀ (V : EntryOf Ideal) (c : Dev nD),
    (dat0 V c).arrAt 4 cfg0.N = Spec.n2partArr (V c main_v0) (V c main_v1) (V c main_v6))
  (hcr : ∀ (V : EntryOf Ideal) (c : Dev nD),
    (dat0 V c).arrAt 5 cfg0.N = Spec.crosspartArr (V c main_v0) (V c main_v1) (V c main_v6))

variable (m : (ℓ : Loc nD τ sig) → Buf (Elt Ideal) ℓ)

/-! ## After the host operations before the first region -/

theorem U1_v0 (c : Dev nD) : U1 m c (Proc.devRef .tc main_v0) = Spec.flat (m ((c : Thread nD τ).loc main_arg0)) := by
  show StableHlo.after hostOps0 (U0 m c) (Proc.devRef .tc main_v0) = _
  after_results
  rfl
theorem U1_v1 (c : Dev nD) : U1 m c (Proc.devRef .tc main_v1) = Spec.flat (m ((c : Thread nD τ).loc main_arg1)) := by
  show StableHlo.after hostOps0 (U0 m c) (Proc.devRef .tc main_v1) = _
  after_results
  rfl
theorem U1_v2 (c : Dev nD) : U1 m c (Proc.devRef .tc main_v2) = Spec.flat (m ((c : Thread nD τ).loc main_arg3)) := by
  show StableHlo.after hostOps0 (U0 m c) (Proc.devRef .tc main_v2) = _
  after_results
  rfl
theorem U1_v3 (c : Dev nD) : U1 m c (Proc.devRef .tc main_v3) = Spec.flat (m ((c : Thread nD τ).loc main_arg4)) := by
  show StableHlo.after hostOps0 (U0 m c) (Proc.devRef .tc main_v3) = _
  after_results
  rfl
theorem U1_v6 (c : Dev nD) : U1 m c (Proc.devRef .tc main_v6) = Spec.tcol (m ((c : Thread nD τ).loc main_arg2)) := by
  show StableHlo.after hostOps0 (U0 m c) (Proc.devRef .tc main_v6) = _
  after_results
  rfl

/-! ## After the first region -/

include hA0 in
/-- An input array of the first region is left as it was found. -/
theorem U2_input (c : Dev nD) (w : Fin cfg0.W) (hin : (cfg0.win w).isOut = false) :
    U2 dat0 m c (Proc.devRef .tc (Pipeline.arrRef spec0 w)) = U1 m c (Proc.devRef .tc (Pipeline.arrRef spec0 w)) :=
  (U2_arr dat0 m c w).trans (((dat0 (E1 m) c).arrAt_in w hin _).trans (hA0 (E1 m) c w))

include hA0 in
theorem U2_v0 (c : Dev nD) : U2 dat0 m c (Proc.devRef .tc main_v0) = U1 m c (Proc.devRef .tc main_v0) :=
  U2_input dat0 hA0 m c 0 rfl
include hA0 in
theorem U2_v1 (c : Dev nD) : U2 dat0 m c (Proc.devRef .tc main_v1) = U1 m c (Proc.devRef .tc main_v1) :=
  U2_input dat0 hA0 m c 1 rfl
include hA0 in
theorem U2_v6 (c : Dev nD) : U2 dat0 m c (Proc.devRef .tc main_v6) = U1 m c (Proc.devRef .tc main_v6) :=
  U2_input dat0 hA0 m c 2 rfl
theorem U2_v2 (c : Dev nD) : U2 dat0 m c (Proc.devRef .tc main_v2) = U1 m c (Proc.devRef .tc main_v2) :=
  U2_of_ne dat0 m c main_v2 (by decide)
theorem U2_v3 (c : Dev nD) : U2 dat0 m c (Proc.devRef .tc main_v3) = U1 m c (Proc.devRef .tc main_v3) :=
  U2_of_ne dat0 m c main_v3 (by decide)

include hd2 in
theorem U2_d2 (c : Dev nD) :
    U2 dat0 m c (Proc.devRef .tc main_v7_0) = Spec.d2partArr (U1 m c (Proc.devRef .tc main_v0)) :=
  (U2_arr dat0 m c 3).trans (hd2 (E1 m) c)
include hn2 in
theorem U2_n2 (c : Dev nD) :
    U2 dat0 m c (Proc.devRef .tc main_v7_1)
      = Spec.n2partArr (U1 m c (Proc.devRef .tc main_v0)) (U1 m c (Proc.devRef .tc main_v1)) (U1 m c (Proc.devRef .tc main_v6)) :=
  (U2_arr dat0 m c 4).trans (hn2 (E1 m) c)
include hcr in
theorem U2_cr (c : Dev nD) :
    U2 dat0 m c (Proc.devRef .tc main_v7_2)
      = Spec.crosspartArr (U1 m c (Proc.devRef .tc main_v0)) (U1 m c (Proc.devRef .tc main_v1)) (U1 m c (Proc.devRef .tc main_v6)) :=
  (U2_arr dat0 m c 5).trans (hcr (E1 m) c)

/-! ## After the host operations between the regions -/

/-- The weights, from the first region's arrays and the time column. -/
theorem U3_v43 (c : Dev nD) :
    U3 dat0 m c (Proc.devRef .tc main_v43)
      = Spec.kernelHost1 (U2 dat0 m c (Proc.devRef .tc main_v7_0)) (U2 dat0 m c (Proc.devRef .tc main_v7_1))
          (U2 dat0 m c (Proc.devRef .tc main_v7_2)) (U2 dat0 m c (Proc.devRef .tc main_v6)) := by
  show StableHlo.after hostOps1 (U2 dat0 m c) (Proc.devRef .tc main_v43) = _
  after_results_simp
  rfl

theorem U3_v0 (c : Dev nD) : U3 dat0 m c (Proc.devRef .tc main_v0) = U2 dat0 m c (Proc.devRef .tc main_v0) :=
  StableHlo.after_of_writes_sub hostOps1 _ hostOps1_writes (by decide)
theorem U3_v1 (c : Dev nD) : U3 dat0 m c (Proc.devRef .tc main_v1) = U2 dat0 m c (Proc.devRef .tc main_v1) :=
  StableHlo.after_of_writes_sub hostOps1 _ hostOps1_writes (by decide)
theorem U3_v2 (c : Dev nD) : U3 dat0 m c (Proc.devRef .tc main_v2) = U2 dat0 m c (Proc.devRef .tc main_v2) :=
  StableHlo.after_of_writes_sub hostOps1 _ hostOps1_writes (by decide)
theorem U3_v3 (c : Dev nD) : U3 dat0 m c (Proc.devRef .tc main_v3) = U2 dat0 m c (Proc.devRef .tc main_v3) :=
  StableHlo.after_of_writes_sub hostOps1 _ hostOps1_writes (by decide)
theorem U3_v6 (c : Dev nD) : U3 dat0 m c (Proc.devRef .tc main_v6) = U2 dat0 m c (Proc.devRef .tc main_v6) :=
  StableHlo.after_of_writes_sub hostOps1 _ hostOps1_writes (by decide)

/-! ## After the second region, and at the return -/

/-- The second region's array of the two partial loss sums. -/
theorem U4_v44 (c : Dev nD) :
    U4 dat0 m c (Proc.devRef .tc main_v44)
      = Spec.losspartArr (U3 dat0 m c (Proc.devRef .tc main_v0)) (U3 dat0 m c (Proc.devRef .tc main_v1))
          (U3 dat0 m c (Proc.devRef .tc main_v2)) (U3 dat0 m c (Proc.devRef .tc main_v3))
          (U3 dat0 m c (Proc.devRef .tc main_v6)) (U3 dat0 m c (Proc.devRef .tc main_v43)) :=
  (U4_arr dat0 m c 6).trans (LossTile.final_loss (E3 dat0 m) c)

/-- The mean, from the second region's array. -/
theorem U5_v46 (c : Dev nD) :
    U5 dat0 m c (Proc.devRef .tc main_v46) = Spec.kernelHost2 (U4 dat0 m c (Proc.devRef .tc main_v44)) := by
  show StableHlo.after hostOps2 (U4 dat0 m c) (Proc.devRef .tc main_v46) = _
  after_results
  rfl

include hA0 hd2 hn2 hcr in
/-- THE RESULT: the result buffer ends holding the host arithmetic applied to the specification's partial sums of the
    flattened inputs. -/
theorem result_value (c : Dev nD) :
    U5 dat0 m c (Proc.devRef .tc main_v46)
      = Spec.kernelHost2 (Spec.losspartArr
          (Spec.flat (m ((c : Thread nD τ).loc main_arg0))) (Spec.flat (m ((c : Thread nD τ).loc main_arg1)))
          (Spec.flat (m ((c : Thread nD τ).loc main_arg3))) (Spec.flat (m ((c : Thread nD τ).loc main_arg4)))
          (Spec.tcol (m ((c : Thread nD τ).loc main_arg2)))
          (Spec.kernelHost1
            (Spec.d2partArr (Spec.flat (m ((c : Thread nD τ).loc main_arg0))))
            (Spec.n2partArr (Spec.flat (m ((c : Thread nD τ).loc main_arg0))) (Spec.flat (m ((c : Thread nD τ).loc main_arg1)))
              (Spec.tcol (m ((c : Thread nD τ).loc main_arg2))))
            (Spec.crosspartArr (Spec.flat (m ((c : Thread nD τ).loc main_arg0))) (Spec.flat (m ((c : Thread nD τ).loc main_arg1)))
              (Spec.tcol (m ((c : Thread nD τ).loc main_arg2))))
            (Spec.tcol (m ((c : Thread nD τ).loc main_arg2))))) := by
  rw [U5_v46, U4_v44, U3_v43, U3_v0, U3_v1, U3_v2, U3_v3, U3_v6, U2_d2 dat0 hd2, U2_n2 dat0 hn2, U2_cr dat0 hcr,
    U2_v0 dat0 hA0, U2_v1 dat0 hA0, U2_v2, U2_v3, U2_v6 dat0 hA0, U1_v0, U1_v1, U1_v2, U1_v3, U1_v6]

end Cert.KernelIdeal.Whole

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«124021_j68367289418164_2_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.DistSpec.lean ====
/-
  One entry of the distance matrix as a function of the row's squared norm n2, the product cross, the column's squared
  norm d2 and the row's time t:  ((n2 − (2·t)·cross) + (t·t)·d2) / (2·((1 − t)·(1 − t) + ε)),  ε the f32 nearest 1e-8.
-/
import Idealize.ShloMosaic.PureOps.Ideal

noncomputable section

namespace Cert.Spec

open Idealize.ShloMosaic

/-- dist from its four ingredients, in the operations' order on both sides. -/
def distAt (n2 cross d2 t : EReal) : EReal :=
  Ideal.div ((n2 - (Ideal.ofBits .f32 0x40000000#32 * t) * cross) + (t * t) * d2)
    (Ideal.ofBits .f32 0x40000000#32
      * ((Ideal.ofBits .f32 0x3F800000#32 - t) * (Ideal.ofBits .f32 0x3F800000#32 - t) + Ideal.ofBits .f32 0x322BCC77#32))

end Cert.Spec

end
-- ==== Proof.RefDist.lean ====
/-
  The reference's first stages read at an index, in the vocabulary of the kernel's specification
  (D = flat a0, N = flat a1, T = tcol a2, X = N + T·(D − N)):
    the scaled-time column is T, the flattened data is D, the flattened noised array is X at every (b, f);
    the row sums n2[b] = 0 + ∑ f, X[b,f]², d2[j] = 0 + ∑ f, D[j,f]², the product cross[b,j] = ∑ f, X[b,f]·D[j,f];
    and the distance matrix dist[b,j] = ((n2[b] − (2·T[b])·cross[b,j]) + (T[b]·T[b])·d2[j]) / (2·((1 − T[b])² + ε)).
-/
import proofs.«124021_j68367289418164_2_alg».proof.Proof.Gen.ReferenceIdeal.Read
import proofs.«124021_j68367289418164_2_alg».proof.Proof.Spec
import proofs.«124021_j68367289418164_2_alg».proof.Proof.HostFns
import proofs.«124021_j68367289418164_2_alg».proof.Proof.LibReshapeVec
import proofs.«124021_j68367289418164_2_alg».proof.Proof.DistSpec

noncomputable section

open scoped BigOperators

namespace Cert.RefDist

open Idealize.ShloMosaic Idealize.ShloMosaic.ValueIdx Cert.KernelIdeal Cert.Spec
open Cert.ReferenceIdeal.Read

variable [Cert.KernelIdeal.Facts] [Cert.ReferenceIdeal.Facts]

/-- The 4-D index of row b, column f: (b, f / 65536, f / 256 % 256, f % 256). -/
abbrev idx4 (b : Fin 64) (f : Fin 196608) : S64x3x256x256.Idx := idx_main_v8 (ix2 b f)

/-- The reference's time column is the kernel's. -/
theorem ref_tcol (a2 : FVec Ideal S64 .f32) : val_main_v3 (F := Ideal) a2 = tcol a2 := by
  unfold val_main_v3 tcol val_main_v1 val_main_v0 val_main_cst
  exact (ReshapeVec.reshapeCol_eq_broadcastInDim _ _ _).symm

/-- The reference's flattening is the kernel's. -/
theorem ref_flat (a : FVec Ideal S64x3x256x256 .f32) : val_main_v8 (F := Ideal) a = flat a := rfl

/-- A flattened array at (b, f) is the array at the 4-D index of (b, f). -/
theorem flat_apply (a : FVec Ideal S64x3x256x256 .f32) (b : Fin 64) (f : Fin 196608) : flat a (ix2 b f) = a (idx4 b f) :=
  val_main_v8_apply (F := Ideal) a (ix2 b f)

/-- The scaled time at row b. -/
theorem tcol_apply (a2 : FVec Ideal S64 .f32) (b : Fin 64) (z : Fin 1) :
    tcol a2 (ix2 b z) = val_main_v1 (F := Ideal) a2 (ix1 b) := by
  rw [← ref_tcol, val_main_v3_apply]
  exact congrArg _ (funext fun a => Fin.ext (by match a with | ⟨0, _⟩ => rfl))

/-- The reference's flattened noised array at (b, f) is X[b,f]. -/
theorem ref_noised (a0 a1 : FVec Ideal S64x3x256x256 .f32) (a2 : FVec Ideal S64 .f32) (b : Fin 64) (f : Fin 196608) :
    val_main_v9 (F := Ideal) a0 a1 a2 (ix2 b f) = noisedAt (flat a0) (flat a1) (tcol a2) b f := by
  have hrow : idx_main_v2 (idx_main_v5 (idx_main_v9 (ix2 b f))) = ix1 b := funext fun a => Fin.ext (by
    match a with
    | ⟨0, _⟩ =>
      have hb := b.isLt
      have hf := f.isLt
      show (b.val * 196608 + f.val) / 196608 = b.val
      omega)
  rw [val_main_v9_apply, val_main_v7_apply, val_main_v6_apply, val_main_v5_apply, val_main_v2_apply, val_main_v4_apply, hrow]
  unfold noisedAt
  rw [flat_apply, flat_apply, tcol_apply]
  rfl

section
variable (a0 a1 : FVec Ideal S64x3x256x256 .f32) (a2 : FVec Ideal S64 .f32)

/-- The reference's squared row norm of X, as a column. -/
theorem ref_n2 (b : Fin 64) (z : Fin 1) :
    val_main_v17 (F := Ideal) a0 a1 a2 (ix2 b z)
      = Ideal.ofBits .f32 0x00000000#32
        + ∑ f : Fin 196608, noisedAt (flat a0) (flat a1) (tcol a2) b f * noisedAt (flat a0) (flat a1) (tcol a2) b f := by
  rw [val_main_v17_apply, val_main_v16_apply]
  refine congrArg (_ + ·) (Finset.sum_congr rfl fun f _ => ?_)
  have hi : idx_main_v16 (idx_main_v17 (ix2 b z)) f = ix2 b f :=
    funext fun a => Fin.ext (by match a with | ⟨0, _⟩ => rfl | ⟨1, _⟩ => rfl)
  rw [val_main_v15_apply, hi, ref_noised]
  rfl

/-- The reference's squared row norm of D, as a row. -/
theorem ref_d2 (z : Fin 1) (j : Fin 64) :
    val_main_v29 (F := Ideal) a0 (ix2 z j)
      = Ideal.ofBits .f32 0x00000000#32 + ∑ f : Fin 196608, flat a0 (ix2 j f) * flat a0 (ix2 j f) := by
  rw [val_main_v29_apply, val_main_v19_apply]
  refine congrArg (_ + ·) (Finset.sum_congr rfl fun f _ => ?_)
  have hi : idx_main_v19 (idx_main_v29 (ix2 z j)) f = ix2 j f :=
    funext fun a => Fin.ext (by match a with | ⟨0, _⟩ => rfl | ⟨1, _⟩ => rfl)
  rw [val_main_v18_apply, hi, ref_flat]
  rfl

/-- The reference's product X · Dᵀ. -/
theorem ref_cross (b j : Fin 64) :
    val_main_v21 (F := Ideal) a0 a1 a2 (ix2 b j)
      = ∑ f : Fin 196608, noisedAt (flat a0) (flat a1) (tcol a2) b f * flat a0 (ix2 j f) := by
  rw [val_main_v21_apply]
  refine Finset.sum_congr rfl fun f _ => ?_
  have hl : lidx_main_v21 (ix2 b j) f = ix2 b f :=
    funext fun a => Fin.ext (by match a with | ⟨0, _⟩ => rfl | ⟨1, _⟩ => rfl)
  have hr : idx_main_v20 (ridx_main_v21 (ix2 b j) f) = ix2 j f :=
    funext fun a => Fin.ext (by match a with | ⟨0, _⟩ => rfl | ⟨1, _⟩ => rfl)
  rw [val_main_v20_apply, hl, hr, ref_noised, ref_flat]

/-- The reference's distance matrix, entry by entry. -/
theorem ref_dist (b j : Fin 64) :
    val_main_v37 (F := Ideal) a0 a1 a2 (ix2 b j)
      = distAt
          (Ideal.ofBits .f32 0x00000000#32
            + ∑ f : Fin 196608, noisedAt (flat a0) (flat a1) (tcol a2) b f * noisedAt (flat a0) (flat a1) (tcol a2) b f)
          (∑ f : Fin 196608, noisedAt (flat a0) (flat a1) (tcol a2) b f * flat a0 (ix2 j f))
          (Ideal.ofBits .f32 0x00000000#32 + ∑ f : Fin 196608, flat a0 (ix2 j f) * flat a0 (ix2 j f))
          (tcol a2 (ix2 b (0 : Fin 1))) := by
  have h24 : idx_main_v24 (ix2 b j) = ix2 b (0 : Fin 1) :=
    funext fun a => Fin.ext (by match a with | ⟨0, _⟩ => rfl | ⟨1, _⟩ => rfl)
  have h26 : idx_main_v26 (ix2 b j) = ix2 b (0 : Fin 1) :=
    funext fun a => Fin.ext (by match a with | ⟨0, _⟩ => rfl | ⟨1, _⟩ => rfl)
  have h30 : idx_main_v30 (ix2 b j) = ix2 b (0 : Fin 1) :=
    funext fun a => Fin.ext (by match a with | ⟨0, _⟩ => rfl | ⟨1, _⟩ => rfl)
  have h36 : idx_main_v36 (ix2 b j) = ix2 b (0 : Fin 1) :=
    funext fun a => Fin.ext (by match a with | ⟨0, _⟩ => rfl | ⟨1, _⟩ => rfl)
  have h31 : idx_main_v31 (ix2 b j) = ix2 (0 : Fin 1) j :=
    funext fun a => Fin.ext (by match a with | ⟨0, _⟩ => rfl | ⟨1, _⟩ => rfl)
  rw [val_main_v37_apply, val_main_v33_apply, val_main_v27_apply, val_main_v26_apply, val_main_v25_apply,
    val_main_v24_apply, val_main_v32_apply, val_main_v30_apply, val_main_v31_apply, val_main_v36_apply,
    h24, h26, h30, h36, h31, val_main_v23_apply, val_main_v28_apply, val_main_v35_apply, val_main_v14_apply,
    val_main_v12_apply, val_main_v11_apply, ref_n2, ref_d2, ref_cross, ref_tcol]
  rfl

end

end Cert.RefDist

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.Regroup.lean ====
/-
  Regroupings of finite sums in a commutative additive monoid (the extended reals: no finiteness asked).
    sum_cols      a sum over the 196608 columns is the sum over the 2 halves, 12 tiles and 8192 lanes at col p k l;
    sum_shapeCast a sum over a reshaped array is the sum over the array;
    sum_idx3      a sum over a rank-3 index set is the triple sum over its coordinates;
    sum_halves_rows  ∑ p, ∑ b, ∑ k, ∑ l, g b (col p k l) = ∑ b, ∑ f, g b f.
-/
import proofs.«124021_j68367289418164_2_alg».proof.Proof.Spec
import proofs.«124021_j68367289418164_2_alg».proof.Proof.LibBlockSums

noncomputable section

open scoped BigOperators

namespace Cert.Regroup

open Idealize.ShloMosaic Idealize.ShloMosaic.ValueIdx Cert.Spec

variable {M : Type*} [AddCommMonoid M]

/-- The 196608 columns are 2 halves of 12 tiles of 8192 lanes. -/
theorem sum_cols (g : Fin 196608 → M) :
    ∑ p : Fin 2, ∑ k : Fin 12, ∑ l : Fin 8192, g (col p k l) = ∑ f : Fin 196608, g f := by
  rw [← Cert.BlockSums.sum_blocks_fin 24 8192 (by norm_num) g,
    ← Cert.BlockSums.sum_blocks_fin 2 12 (by norm_num)
      (fun n : Fin 24 => ∑ q : Fin 8192, g ⟨8192 * n.val + q.val, by have := n.isLt; have := q.isLt; omega⟩)]
  refine Finset.sum_congr rfl fun p _ => Finset.sum_congr rfl fun k _ => Finset.sum_congr rfl fun l _ => ?_
  refine congrArg g (Fin.ext ?_)
  show (12 * p.val + k.val) * 8192 + l.val = 8192 * (12 * p.val + k.val) + l.val
  omega

/-- Rows outside, columns regrouped: the sum over halves, rows, tiles and lanes is the sum over rows and columns. -/
theorem sum_halves_rows (g : Fin 64 → Fin 196608 → M) :
    ∑ p : Fin 2, ∑ b : Fin 64, ∑ k : Fin 12, ∑ l : Fin 8192, g b (col p k l) = ∑ b : Fin 64, ∑ f : Fin 196608, g b f := by
  rw [Finset.sum_comm]
  exact Finset.sum_congr rfl fun b _ => sum_cols (g b)

/-- A reshape permutes nothing away: the sum over the reshaped array is the sum over the array. -/
theorem sum_shapeCast {A : Type} [AddCommMonoid A] {s t : Shape} (x : s.Idx → A) (h : s.ShapeCasts t) :
    ∑ i : t.Idx, shapeCast t x h i = ∑ j : s.Idx, x j :=
  Equiv.sum_comp (Shape.reshapeEquiv h) x

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Regroup

end
-- ==== Proof.KerDist.lean ====
/-
  The kernel's host arithmetic between the two regions, read at an index:
    the sums over the two halves; the distance matrix entry dist[b,j] from the summed columns and the product;
    and, at the regions' partial sums (the specification's d2part, n2part, crosspart), the same entry as the reference's:
    distAt (0 + ∑ f, X[b,f]²) (∑ f, X[b,f]·D[j,f]) (0 + ∑ f, D[j,f]²) T[b].
-/
import proofs.«124021_j68367289418164_2_alg».proof.Proof.Spec
import proofs.«124021_j68367289418164_2_alg».proof.Proof.HostFns
import proofs.«124021_j68367289418164_2_alg».proof.Proof.DistSpec
import proofs.«124021_j68367289418164_2_alg».proof.Proof.Regroup
import proofs.«124021_j68367289418164_2_alg».proof.Proof.LibBroadcastInDim2
import Idealize.ShloMosaic.PureOps.Ideal.Laws
import Idealize.ShloMosaic.Lib.Pipeline.Value

noncomputable section

open scoped BigOperators

namespace Cert.KerDist

open Idealize.ShloMosaic Idealize.ShloMosaic.ValueIdx Cert.KernelIdeal Cert.Spec

variable [Cert.KernelIdeal.Facts]
open Cert.KernelIdeal.Facts₀ Cert.KernelIdeal.Facts

/-- A scalar broadcast reads the scalar everywhere. -/
theorem bcast0_apply {α : Type} {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply _ h x j ix0 (fun a => a.elim0)

/-- A column [64,1] reshaped to a row [1,64]: entry (0, j) is the column's entry (j, 0). -/
theorem colToRow_apply {α : Type} (v : S64x1.Idx → α) (h : S64x1.ShapeCasts S1x64) (z : Fin 1) (j : Fin 64) :
    shapeCast S1x64 v h (ix2 z j) = v (ix2 j (0 : Fin 1)) :=
  shapeCast_apply v h (ix2 z j) (ix2 j (0 : Fin 1)) (by
    rw [Shape.rowMajor_val_two, Shape.rowMajor_val_two]
    have hz := z.isLt
    show j.val * 1 + 0 = z.val * 64 + j.val
    omega)

/-- The sum over the two halves of a 2 × 64 × 1 array, at row b. -/
theorem sumHalves1_apply (x : FVec Ideal S2x64x1 .f32) (b : Fin 64) (z : Fin 1) :
    sumHalves1 x (ix2 b z) = Ideal.ofBits .f32 0x00000000#32 + ∑ p : Fin 2, x (ix3 p b z) := by
  unfold sumHalves1
  simp only [Host.reduceAdd, Ideal.hostReduceAdd_def]
  rw [Ideal.hostReduceAdd_single reducesTo_S2x64x1_S64x1_d0 (by decide)]
  refine congrArg (_ + ·) (Finset.sum_congr rfl fun p _ => ?_)
  exact congrArg x (funext fun a => Fin.ext (by match a with | ⟨0, _⟩ => rfl | ⟨1, _⟩ => rfl | ⟨2, _⟩ => rfl))

/-- The sum over the two halves of a 2 × 64 × 64 array, at (b, j). -/
theorem sumHalves64_apply (x : FVec Ideal S2x64x64 .f32) (b j : Fin 64) :
    sumHalves64 x (ix2 b j) = ∑ p : Fin 2, x (ix3 p b j) := by
  unfold sumHalves64
  simp only [Host.reduceAdd, Ideal.hostReduceAdd_def]
  rw [Ideal.hostReduceAdd_single reducesTo_S2x64x64_S64x64_d0 (by decide)]
  show Ideal.ofBits .f32 0x00000000#32 + _ = _
  rw [Ideal.ofBits_zero_f32, zero_add]
  refine Finset.sum_congr rfl fun p _ => ?_
  exact congrArg x (funext fun a => Fin.ext (by match a with | ⟨0, _⟩ => rfl | ⟨1, _⟩ => rfl | ⟨2, _⟩ => rfl))

/-- The kernel's distance matrix, entry by entry, from the summed columns d2, n2 and the summed product. -/
theorem kernelDist_apply (d2 n2 : FVec Ideal S64x1 .f32) (cr : FVec Ideal S64x64 .f32) (T : FVec Ideal S64x1 .f32)
    (b j : Fin 64) :
    kernelDist d2 n2 cr T (ix2 b j)
      = distAt (n2 (ix2 b (0 : Fin 1))) (cr (ix2 b j)) (d2 (ix2 j (0 : Fin 1))) (T (ix2 b (0 : Fin 1))) := by
  unfold kernelDist varCol
  simp only [Host.divf, addf, subf, mulf, BroadcastInDim2.colToMat_apply, BroadcastInDim2.rowToMat_apply,
    bcast0_apply, colToRow_apply]
  rfl

section
variable (D N : FVec Ideal S64x196608 .f32) (T : FVec Ideal S64x1 .f32)

/-- The kernel's distance entry at the regions' partial sums, in the reference's form. -/
theorem ker_dist (b j : Fin 64) :
    kernelDist (sumHalves1 (d2partArr D)) (sumHalves1 (n2partArr D N T)) (sumHalves64 (crosspartArr D N T)) T (ix2 b j)
      = distAt
          (Ideal.ofBits .f32 0x00000000#32 + ∑ f : Fin 196608, noisedAt D N T b f * noisedAt D N T b f)
          (∑ f : Fin 196608, noisedAt D N T b f * D (ix2 j f))
          (Ideal.ofBits .f32 0x00000000#32 + ∑ f : Fin 196608, D (ix2 j f) * D (ix2 j f))
          (T (ix2 b (0 : Fin 1))) := by
  rw [kernelDist_apply, sumHalves1_apply, sumHalves1_apply, sumHalves64_apply]
  simp only [d2partArr_apply, n2partArr_apply, crosspartArr_apply]
  unfold d2part n2part crosspart
  rw [Regroup.sum_cols (fun f => noisedAt D N T b f * noisedAt D N T b f),
    Regroup.sum_cols (fun f => noisedAt D N T b f * D (ix2 j f)),
    Regroup.sum_cols (fun f => D (ix2 j f) * D (ix2 j f))]

end

end Cert.KerDist

end
-- ==== Proof.Weights.lean ====
/-
  The two sides' weights are the same matrix: both are the row softmax of the negated distance matrix, written as the
  same chain of operations, and the distance matrices agree entry by entry.
-/
import proofs.«124021_j68367289418164_2_alg».proof.Proof.RefDist
import proofs.«124021_j68367289418164_2_alg».proof.Proof.KerDist

noncomputable section

open scoped BigOperators

namespace Cert.Weights

open Idealize.ShloMosaic Idealize.ShloMosaic.ValueIdx Cert.KernelIdeal Cert.Spec
open Cert.ReferenceIdeal.Read

variable [Cert.KernelIdeal.Facts] [Cert.ReferenceIdeal.Facts]
variable (a0 a1 : FVec Ideal S64x3x256x256 .f32) (a2 : FVec Ideal S64 .f32)

/-- The reference's weights are the softmax chain of its distance matrix. -/
theorem ref_weights : val_main_v49 (F := Ideal) a0 a1 a2 = softmaxNeg (val_main_v37 (F := Ideal) a0 a1 a2) := rfl

/-- The distance matrices agree. -/
theorem dist_eq :
    val_main_v37 (F := Ideal) a0 a1 a2
      = kernelDist (sumHalves1 (d2partArr (flat a0))) (sumHalves1 (n2partArr (flat a0) (flat a1) (tcol a2)))
          (sumHalves64 (crosspartArr (flat a0) (flat a1) (tcol a2))) (tcol a2) := by
  funext i
  obtain ⟨b, j, rfl⟩ : ∃ (b : Fin 64) (j : Fin 64), i = ix2 b j := ⟨i 0, i 1, eq_ix2 i⟩
  rw [RefDist.ref_dist, KerDist.ker_dist]

/-- The weights agree. -/
theorem weights_eq :
    val_main_v49 (F := Ideal) a0 a1 a2
      = kernelHost1 (d2partArr (flat a0)) (n2partArr (flat a0) (flat a1) (tcol a2))
          (crosspartArr (flat a0) (flat a1) (tcol a2)) (tcol a2) := by
  rw [ref_weights, dist_eq]
  rfl

end Cert.Weights

end
-- ==== Proof.LossLaw.lean ====
/-
  The loss law, on the extended reals.  With pv = exp lv, q = (pm − fc)², c = u² − fc²:
      ½·(q + c) + (½·lv)·pv  =  pv · ((q / (2·pv) + ½·lv) + c / (2·pv))
  whenever pm, fc and lv are real numbers (then pv is a positive real and q a real), for EVERY extended real u: the
  square u·u is never −∞ (it is +∞ at u = ±∞), so c is a real number or +∞.  At a real c both sides are the same real
  number (pv cancels); at c = +∞ both sides are +∞.
-/
import Idealize.ShloMosaic.PureOps.Ideal

noncomputable section

namespace Cert.LossLaw

open Idealize.ShloMosaic

/-- The f32 word 0x3F000000 is one half. -/
theorem ofBits_half_f32 : Ideal.ofBits .f32 0x3F000000#32 = (((1 : ℝ) / 2 : ℝ) : EReal) := by
  simp [Ideal.ofBits, Ideal.ieee, -EReal.coe_mul]; norm_num

/-- The f32 word 0x40000000 is two. -/
theorem ofBits_two_f32 : Ideal.ofBits .f32 0x40000000#32 = ((2 : ℝ) : EReal) := by
  simp [Ideal.ofBits, Ideal.ieee, -EReal.coe_mul]; norm_num

/-- The square of an extended real is a nonnegative real or +∞. -/
theorem mul_self_real_or_top (u : EReal) : (∃ r : ℝ, u * u = r) ∨ u * u = ⊤ := by
  induction u using EReal.rec with
  | bot => exact Or.inr (by decide)
  | top => exact Or.inr (by decide)
  | coe r => exact Or.inl ⟨r * r, (EReal.coe_mul r r).symm⟩

/-- u·u − fc·fc, for a real fc, is a real or +∞. -/
theorem corr_real_or_top (u : EReal) (fc : ℝ) :
    (∃ r : ℝ, u * u - (fc : EReal) * (fc : EReal) = r) ∨ u * u - (fc : EReal) * (fc : EReal) = ⊤ := by
  rcases mul_self_real_or_top u with ⟨r, hr⟩ | ht
  · left; exact ⟨r - fc * fc, by rw [hr, ← EReal.coe_mul, ← EReal.coe_sub]⟩
  · right; rw [ht, ← EReal.coe_mul]; exact EReal.top_sub_coe _

/-- The law at a real correction c. -/
theorem law_real (q lv c : ℝ) :
    (((1 : ℝ) / 2 : ℝ) : EReal) * ((q : EReal) + (c : EReal)) + ((((1 : ℝ) / 2 : ℝ) : EReal) * (lv : EReal)) * Ideal.exp (lv : EReal)
      = Ideal.exp (lv : EReal) * ((Ideal.div (q : EReal) (((2 : ℝ) : EReal) * Ideal.exp (lv : EReal)) + (((1 : ℝ) / 2 : ℝ) : EReal) * (lv : EReal))
          + Ideal.div (c : EReal) (((2 : ℝ) : EReal) * Ideal.exp (lv : EReal))) := by
  have hpos : 0 < Real.exp lv := Real.exp_pos lv
  have hne : (2 * Real.exp lv : ℝ) ≠ 0 := by positivity
  rw [Ideal.exp_coe, ← EReal.coe_mul (2 : ℝ), Ideal.div_coe hne, Ideal.div_coe hne]
  simp only [← EReal.coe_mul, ← EReal.coe_add]
  refine congrArg (fun r : ℝ => (r : EReal)) ?_
  field_simp
  ring

/-- The law at the correction +∞: both sides are +∞. -/
theorem law_top (q lv : ℝ) :
    (((1 : ℝ) / 2 : ℝ) : EReal) * ((q : EReal) + ⊤) + ((((1 : ℝ) / 2 : ℝ) : EReal) * (lv : EReal)) * Ideal.exp (lv : EReal)
      = Ideal.exp (lv : EReal) * ((Ideal.div (q : EReal) (((2 : ℝ) : EReal) * Ideal.exp (lv : EReal)) + (((1 : ℝ) / 2 : ℝ) : EReal) * (lv : EReal))
          + Ideal.div ⊤ (((2 : ℝ) : EReal) * Ideal.exp (lv : EReal))) := by
  have hpos : 0 < Real.exp lv := Real.exp_pos lv
  have hne : (2 * Real.exp lv : ℝ) ≠ 0 := by positivity
  have hinv : (0 : ℝ) < 1 / (2 * Real.exp lv) := by positivity
  rw [Ideal.exp_coe, ← EReal.coe_mul (2 : ℝ), Ideal.div_coe hne, Ideal.div_coe hne,
    EReal.top_mul_coe_of_pos hinv, EReal.coe_add_top,
    EReal.coe_mul_top_of_pos (by norm_num : (0 : ℝ) < 1 / 2)]
  simp only [← EReal.coe_mul, ← EReal.coe_add]
  rw [EReal.top_add_coe, EReal.coe_add_top, EReal.coe_mul_top_of_pos hpos]

/-- THE LOSS LAW: the kernel's loss term (left) is the reference's (right), at real pm, fc, lv and any extended real u.
    The two literals are the f32 words of ½ (0x3F000000) and of 2 (0x40000000). -/
theorem kloss_eq_rloss (pm fc lv u : EReal) (hpm : ∃ r : ℝ, pm = r) (hfc : ∃ r : ℝ, fc = r) (hlv : ∃ r : ℝ, lv = r) :
    Ideal.ofBits .f32 0x3F000000#32 * ((pm - fc) * (pm - fc) + (u * u - fc * fc))
        + (Ideal.ofBits .f32 0x3F000000#32 * lv) * Ideal.exp lv
      = Ideal.exp lv * ((Ideal.div ((pm - fc) * (pm - fc)) (Ideal.ofBits .f32 0x40000000#32 * Ideal.exp lv)
            + Ideal.ofBits .f32 0x3F000000#32 * lv)
          + Ideal.div (u * u - fc * fc) (Ideal.ofBits .f32 0x40000000#32 * Ideal.exp lv)) := by
  obtain ⟨a, rfl⟩ := hpm
  obtain ⟨f, rfl⟩ := hfc
  obtain ⟨l, rfl⟩ := hlv
  rw [ofBits_half_f32, ofBits_two_f32]
  have hq : ((a : EReal) - (f : EReal)) * ((a : EReal) - (f : EReal)) = (((a - f) * (a - f) : ℝ) : EReal) := by
    rw [← EReal.coe_sub, ← EReal.coe_mul]
  rw [hq]
  rcases corr_real_or_top u f with ⟨c, hc⟩ | ht
  · rw [hc]; exact law_real _ _ _
  · rw [ht]; exact law_top _ _

end Cert.LossLaw

end
-- ==== Proof.RefLoss.lean ====
/-
  The reference's last stages read at an index, in the vocabulary of the kernel's specification, W the reference's
  weights: u at (b, f) is uAt, and — every entry of the four arrays a real number — the loss entry at the 4-D index of
  (b, f) is the kernel's loss term klossAt (the loss law); the reference's result is the sum over rows and columns of
  the kernel's loss term, divided by 12582912.
-/
import proofs.«124021_j68367289418164_2_alg».proof.Proof.RefDist
import proofs.«124021_j68367289418164_2_alg».proof.Proof.LossLaw
import proofs.«124021_j68367289418164_2_alg».proof.Proof.Regroup

noncomputable section

open scoped BigOperators

namespace Cert.RefLoss

open Idealize.ShloMosaic Idealize.ShloMosaic.ValueIdx Cert.KernelIdeal Cert.Spec Cert.RefDist
open Cert.ReferenceIdeal.Read

variable [Cert.KernelIdeal.Facts] [Cert.ReferenceIdeal.Facts]
variable (a0 a1 a3 a4 : FVec Ideal S64x3x256x256 .f32) (a2 : FVec Ideal S64 .f32)

/-- The reference's u at (b, f). -/
theorem ref_u (b : Fin 64) (f : Fin 196608) :
    val_main_v57 (F := Ideal) a0 a1 a2 (ix2 b f)
      = uAt (flat a0) (flat a1) (tcol a2) (val_main_v49 (F := Ideal) a0 a1 a2) b f := by
  have hl : ∀ k : Fin 64, lidx_main_v50 (ix2 b f) k = ix2 b k := fun k =>
    funext fun a => Fin.ext (by match a with | ⟨0, _⟩ => rfl | ⟨1, _⟩ => rfl)
  have hr : ∀ k : Fin 64, ridx_main_v50 (ix2 b f) k = ix2 k f := fun k =>
    funext fun a => Fin.ext (by match a with | ⟨0, _⟩ => rfl | ⟨1, _⟩ => rfl)
  have h56 : idx_main_v56 (ix2 b f) = ix2 b (0 : Fin 1) :=
    funext fun a => Fin.ext (by match a with | ⟨0, _⟩ => rfl | ⟨1, _⟩ => rfl)
  rw [val_main_v57_apply, val_main_v51_apply, val_main_v50_apply, val_main_v56_apply, h56, val_main_v55_apply,
    val_main_v53_apply, ref_noised, ref_tcol]
  simp only [hl, hr, ref_flat]
  rfl

/-- The 2-D index of the 4-D index of (b, f) is (b, f). -/
theorem idx58_idx4 (b : Fin 64) (f : Fin 196608) : idx_main_v58 (idx4 b f) = ix2 b f :=
  funext fun a => Fin.ext (by
    have hb := b.isLt
    have hf := f.isLt
    match a with
    | ⟨0, _⟩ =>
      show (((((b.val * 196608 + f.val) / 196608) * 3 + (b.val * 196608 + f.val) / 65536 % 3) * 256
        + (b.val * 196608 + f.val) / 256 % 256) * 256 + (b.val * 196608 + f.val) % 256) / 196608 = b.val
      omega
    | ⟨1, _⟩ =>
      show (((((b.val * 196608 + f.val) / 196608) * 3 + (b.val * 196608 + f.val) / 65536 % 3) * 256
        + (b.val * 196608 + f.val) / 256 % 256) * 256 + (b.val * 196608 + f.val) % 256) % 196608 = f.val
      omega)

/-- THE LOSS ENTRY: at real inputs the reference's loss entry at the 4-D index of (b, f) is the kernel's loss term. -/
theorem ref_loss (h0 : ∀ i, ∃ r : ℝ, a0 i = (r : EReal)) (h1 : ∀ i, ∃ r : ℝ, a1 i = (r : EReal))
    (h3 : ∀ i, ∃ r : ℝ, a3 i = (r : EReal)) (h4 : ∀ i, ∃ r : ℝ, a4 i = (r : EReal)) (b : Fin 64) (f : Fin 196608) :
    val_main_v76 (F := Ideal) a0 a1 a2 a3 a4 (idx4 b f)
      = klossAt (flat a0) (flat a1) (flat a3) (flat a4) (tcol a2) (val_main_v49 (F := Ideal) a0 a1 a2) b f := by
  rw [val_main_v76_apply, val_main_v75_apply, val_main_v71_apply, val_main_v68_apply, val_main_v74_apply,
    val_main_v73_apply, val_main_v67_apply, val_main_v70_apply, val_main_v65_apply, val_main_v64_apply,
    val_main_v62_apply, val_main_v60_apply, val_main_v61_apply, val_main_v59_apply, val_main_v63_apply,
    val_main_v58_apply, idx58_idx4, ref_u]
  unfold klossAt fcAt
  rw [flat_apply, flat_apply, flat_apply, flat_apply]
  obtain ⟨r0, e0⟩ := h0 (idx4 b f)
  obtain ⟨r1, e1⟩ := h1 (idx4 b f)
  have hfc : ∃ r : ℝ, a0 (idx4 b f) - a1 (idx4 b f) = (r : EReal) := ⟨r0 - r1, by rw [e0, e1, EReal.coe_sub]⟩
  exact (LossLaw.kloss_eq_rloss (a3 (idx4 b f)) (a0 (idx4 b f) - a1 (idx4 b f)) (a4 (idx4 b f)) _
    (h3 (idx4 b f)) hfc (h4 (idx4 b f))).symm

/-- THE REFERENCE'S RESULT: the sum over rows and columns of the kernel's loss term, over 12582912. -/
theorem ref_total (h0 : ∀ i, ∃ r : ℝ, a0 i = (r : EReal)) (h1 : ∀ i, ∃ r : ℝ, a1 i = (r : EReal))
    (h3 : ∀ i, ∃ r : ℝ, a3 i = (r : EReal)) (h4 : ∀ i, ∃ r : ℝ, a4 i = (r : EReal)) (i : S_.Idx) :
    val_main_v78 (F := Ideal) a0 a1 a2 a3 a4 i
      = Ideal.div
          (Ideal.ofBits .f32 0x00000000#32
            + ∑ b : Fin 64, ∑ f : Fin 196608,
                klossAt (flat a0) (flat a1) (flat a3) (flat a4) (tcol a2) (val_main_v49 (F := Ideal) a0 a1 a2) b f)
          (Ideal.ofBits .f32 0x4B400000#32) := by
  rw [val_main_v78_apply, val_main_v77_apply]
  have hs : ∑ j : S64x3x256x256.Idx, val_main_v76 (F := Ideal) a0 a1 a2 a3 a4 j
      = ∑ b : Fin 64, ∑ f : Fin 196608,
          klossAt (flat a0) (flat a1) (flat a3) (flat a4) (tcol a2) (val_main_v49 (F := Ideal) a0 a1 a2) b f := by
    rw [← Regroup.sum_shapeCast (val_main_v76 (F := Ideal) a0 a1 a2 a3 a4)
      Cert.KernelIdeal.Facts₀.shapeCasts_S64x3x256x256_S64x196608, sum_idx2]
    refine Finset.sum_congr rfl fun b _ => Finset.sum_congr rfl fun f _ => ?_
    rw [← ref_loss a0 a1 a3 a4 a2 h0 h1 h3 h4 b f]
    exact flat_apply (val_main_v76 (F := Ideal) a0 a1 a2 a3 a4) b f
  rw [hs]
  rfl

end Cert.RefLoss

end
-- ==== Proof.ValueBridge.lean ====
/-
  THE TWO RESULTS AGREE at the ideal values.  From the four arrays and the times a0 … a4, all entries real numbers:
  the kernel side is the host arithmetic (kernelHost2 after kernelHost1) around the two regions' results as the
  specification states them (d2part, n2part, crosspart, losspart); the reference side is its result term.
  Both are (0 + ∑ b f, kloss[b,f]) / 12582912: the weights agree (Weights), the reference's loss entry is the kernel's
  loss term (RefLoss: the loss law), and the kernel's halves, tiles and lanes regroup to the columns (Regroup).
-/
import proofs.«124021_j68367289418164_2_alg».proof.Proof.Weights
import proofs.«124021_j68367289418164_2_alg».proof.Proof.RefLoss

noncomputable section

open scoped BigOperators

namespace Cert.ValueBridge

open Idealize.ShloMosaic Idealize.ShloMosaic.ValueIdx Cert.KernelIdeal Cert.Spec

variable [Cert.KernelIdeal.Facts] [Cert.ReferenceIdeal.Facts]
open Cert.KernelIdeal.Facts₀ Cert.KernelIdeal.Facts

/-- The mean of the per-half loss sums: (0 + ∑ p, lp[p,0,0]) / 12582912. -/
theorem kernelHost2_apply (lp : FVec Ideal S2x1x1 .f32) (i : S_.Idx) :
    kernelHost2 lp i
      = Ideal.div (Ideal.ofBits .f32 0x00000000#32 + ∑ p : Fin 2, lp (ix3 p (0 : Fin 1) (0 : Fin 1)))
          (Ideal.ofBits .f32 0x4B400000#32) := by
  unfold kernelHost2
  simp only [Host.divf, Host.reduceAdd, Ideal.hostReduceAdd_def]
  rw [Ideal.hostReduceAdd_total reducesTo_S2x1x1_S_d0_1_2 (fun b => b.elim0), Regroup.sum_idx3]
  simp only [Fintype.sum_unique]
  rfl

/-- THE BRIDGE. -/
theorem kernel_total_eq_reference (a0 a1 a3 a4 : FVec Ideal S64x3x256x256 .f32) (a2 : FVec Ideal S64 .f32)
    (h0 : ∀ i, ∃ r : ℝ, a0 i = (r : EReal)) (h1 : ∀ i, ∃ r : ℝ, a1 i = (r : EReal))
    (h2 : ∀ i, ∃ r : ℝ, a2 i = (r : EReal))
    (h3 : ∀ i, ∃ r : ℝ, a3 i = (r : EReal)) (h4 : ∀ i, ∃ r : ℝ, a4 i = (r : EReal)) :
    kernelHost2 (losspartArr (flat a0) (flat a1) (flat a3) (flat a4) (tcol a2)
        (kernelHost1 (d2partArr (flat a0)) (n2partArr (flat a0) (flat a1) (tcol a2))
          (crosspartArr (flat a0) (flat a1) (tcol a2)) (tcol a2)))
      = Cert.ReferenceIdeal.Read.val_main_v78 (F := Ideal) a0 a1 a2 a3 a4 := by
  funext i
  rw [kernelHost2_apply, RefLoss.ref_total a0 a1 a3 a4 a2 h0 h1 h3 h4 i, ← Weights.weights_eq]
  simp only [losspartArr_apply]
  unfold losspart
  rw [Regroup.sum_halves_rows (fun b f => klossAt (flat a0) (flat a1) (flat a3) (flat a4) (tcol a2)
    (Cert.ReferenceIdeal.Read.val_main_v49 (F := Ideal) a0 a1 a2) b f)]

end Cert.ValueBridge

end
-- ==== Proof.Finite.lean ====
/-
  FINITENESS.  The precondition says: |x| < +∞ at every entry of the five input arrays (each a conjunction over all
  entries, the five conjoined).  At the ideal values |x| = max x (−x), and max x (−x) < +∞ holds exactly when x is a real
  number: it fails at x = +∞ and at x = −∞.
-/
import proofs.«124021_j68367289418164_2_alg».proof.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below the f32 word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- From the precondition to: every entry of every input array is a real number. -/
theorem finite_of_pre (a0 a1 : FVec Ideal S64x3x256x256 .f32) (a2 : FVec Ideal S64 .f32)
    (a3 a4 : FVec Ideal S64x3x256x256 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ix0
  dsimp only [Cert.Pre_finite_inputs.fn, Cert.Pre_finite_inputs.fn_part1] at e
  simp only [andi, IntOp.andi_eq_one] at e
  obtain ⟨⟨⟨⟨e0, e1⟩, e2⟩, e3⟩, e4⟩ := e
  exact ⟨fun i => real_of_abs_lt_inf (a0 i) (Host.reduce_andi_all _ _ _ _ _ e0 i),
    fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i),
    fun i => real_of_abs_lt_inf (a4 i) (Host.reduce_andi_all _ _ _ _ _ e4 i)⟩

end Cert.Finite

end
-- ==== Proof.Equal.lean ====
/-
  At the extended reals the kernel and the reference, run from memories that agree on the five arguments, end with
  the same number.

  The kernel's result is the mean of its two halves' loss sums, each half's sum taken tile by tile over the
  weights its own host arithmetic computes from the first region's partial sums; the reference's is the mean of
  the loss over all 64 x 3 x 256 x 256 entries.  Entry by entry the two loss terms are one extended real when the
  inputs are real numbers (the kernel has cancelled the variance that the reference multiplies and divides by),
  the weights are one matrix, and the two sums run over the same entries.
-/
import proofs.«124021_j68367289418164_2_alg».proof.Proof.Frames
import proofs.«124021_j68367289418164_2_alg».proof.Proof.CrossFinal
import proofs.«124021_j68367289418164_2_alg».proof.Proof.LossFinal
import proofs.«124021_j68367289418164_2_alg».proof.Proof.KernelValue
import proofs.«124021_j68367289418164_2_alg».proof.Proof.ValueBridge
import proofs.«124021_j68367289418164_2_alg».proof.Proof.Finite
import proofs.«124021_j68367289418164_2_alg».proof.Proof.Gen.ReferenceIdeal.Read

noncomputable section

namespace Cert.Proof

open Idealize.ShloMosaic Idealize.SL.Sem

theorem algebraic : Cert.algebraic_KernelIdeal_ReferenceIdeal := by
  intro m ρ m' ρ' hpre hagree
  refine ⟨fun c => Cert.KernelIdeal.Whole.U5 (fun V c => Cert.KernelIdeal.CrossTile.dat0 V c) m c (Proc.devRef .tc Cert.KernelIdeal.main_v46), ?_, ?_⟩
  · exact (θ_run Cert.KernelIdeal.defs _ _).mono (fun r h c => ⟨h c _ (Cert.KernelIdeal.Whole.mem_uc Cert.KernelIdeal.main_v46 (by decide)),
      (h c _ (Cert.KernelIdeal.Whole.mem_uc Cert.KernelIdeal.main_arg0 (by decide))).trans (Cert.KernelIdeal.Whole.U5_arg _ m c Cert.KernelIdeal.main_arg0 (by decide) (by decide) (by decide) (by decide) (by decide)),
      (h c _ (Cert.KernelIdeal.Whole.mem_uc Cert.KernelIdeal.main_arg1 (by decide))).trans (Cert.KernelIdeal.Whole.U5_arg _ m c Cert.KernelIdeal.main_arg1 (by decide) (by decide) (by decide) (by decide) (by decide)),
      (h c _ (Cert.KernelIdeal.Whole.mem_uc Cert.KernelIdeal.main_arg2 (by decide))).trans (Cert.KernelIdeal.Whole.U5_arg _ m c Cert.KernelIdeal.main_arg2 (by decide) (by decide) (by decide) (by decide) (by decide)),
      (h c _ (Cert.KernelIdeal.Whole.mem_uc Cert.KernelIdeal.main_arg3 (by decide))).trans (Cert.KernelIdeal.Whole.U5_arg _ m c Cert.KernelIdeal.main_arg3 (by decide) (by decide) (by decide) (by decide) (by decide)),
      (h c _ (Cert.KernelIdeal.Whole.mem_uc Cert.KernelIdeal.main_arg4 (by decide))).trans (Cert.KernelIdeal.Whole.U5_arg _ m c Cert.KernelIdeal.main_arg4 (by decide) (by decide) (by decide) (by decide) (by decide))⟩)
        (Cert.KernelIdeal.Whole.runs_to_U5 (F := Ideal) (fun V c => Cert.KernelIdeal.CrossTile.dat0 V c)
          (fun V c w => Cert.KernelIdeal.CrossTile.A_eq0 V c w) (fun V c w => Cert.KernelIdeal.CrossTile.q0 V c w)
          (fun V c t => Cert.KernelIdeal.CrossTile.owed0 V c t) (fun V c t => Cert.KernelIdeal.CrossTile.rec0 V c t)
          (fun V c => Cert.KernelIdeal.CrossTile.body_obligation0 V c) (fun V c => Cert.KernelIdeal.CrossTile.enter0 V c)
          (fun V c => Cert.KernelIdeal.CrossTile.leave0 V c) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    obtain ⟨f0, f1, f2, f3, f4⟩ := Cert.Finite.finite_of_pre _ _ _ _ _ (hpre c)
    rw [Cert.ReferenceIdeal.Read.val_main_v78_eq, e0, e1, e2, e3, e4]
    beta_reduce
    rw [Cert.KernelIdeal.Whole.result_value (fun V c => Cert.KernelIdeal.CrossTile.dat0 V c) (fun V c w => Cert.KernelIdeal.CrossTile.A_eq0 V c w)
      (fun V c => Cert.KernelIdeal.CrossTile.final_d2 V c) (fun V c => Cert.KernelIdeal.CrossTile.final_n2 V c)
      (fun V c => Cert.KernelIdeal.CrossTile.final_cross V c) m c]
    exact (Cert.ValueBridge.kernel_total_eq_reference _ _ _ _ _ f0 f1 f2 f3 f4).symm

end Cert.Proof

end
-- ==== Proof.lean ====
/-
  The certificate: the kernel (a first pass that sums squares and cross products of the noised data tile by tile,
  host arithmetic that turns them into softmax weights, a second pass that mixes the data with those weights and
  sums the loss tile by tile, and a final mean) against the reference (the same quantities written as whole-array
  operations).  The three programs run and keep their arguments (Proof/Frames.lean); the kernel read at the extended
  reals is the kernel's own text, nothing rewritten; and at the extended reals the two results are one number when
  the inputs are real (Proof/Equal.lean).
-/
import proofs.«124021_j68367289418164_2_alg».proof.Defs
import proofs.«124021_j68367289418164_2_alg».proof.Proof.Gen.Kernel
import proofs.«124021_j68367289418164_2_alg».proof.Proof.Gen.Kernel.Skeleton
import proofs.«124021_j68367289418164_2_alg».proof.Proof.Gen.Kernel.Launch
import proofs.«124021_j68367289418164_2_alg».proof.Proof.Gen.Kernel.Regions
import proofs.«124021_j68367289418164_2_alg».proof.Proof.Gen.Kernel.Points
import proofs.«124021_j68367289418164_2_alg».proof.Proof.Gen.KernelIdeal
import proofs.«124021_j68367289418164_2_alg».proof.Proof.Gen.KernelIdeal.Skeleton
import proofs.«124021_j68367289418164_2_alg».proof.Proof.Gen.KernelIdeal.Launch
import proofs.«124021_j68367289418164_2_alg».proof.Proof.Gen.KernelIdeal.Regions
import proofs.«124021_j68367289418164_2_alg».proof.Proof.Gen.KernelIdeal.Points
import proofs.«124021_j68367289418164_2_alg».proof.Proof.Gen.ReferenceIdeal
import proofs.«124021_j68367289418164_2_alg».proof.Proof.Gen.ReferenceIdeal.Run
import proofs.«124021_j68367289418164_2_alg».proof.Proof.Gen.ReferenceIdeal.Read
import proofs.«124021_j68367289418164_2_alg».proof.Proof.Gen.Pre_finite_inputs
import proofs.«124021_j68367289418164_2_alg».proof.Proof.Frames
import proofs.«124021_j68367289418164_2_alg».proof.Proof.Equal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
